-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3136x384 : Shape := ⟨3, ![32, 3136, 384]⟩
abbrev S1152x384 : Shape := ⟨2, ![1152, 384]⟩
abbrev S8x1x1 : Shape := ⟨3, ![8, 1, 1]⟩
abbrev S384x384 : Shape := ⟨2, ![384, 384]⟩
abbrev S384 : Shape := ⟨1, ![384]⟩
abbrev S_ : Shape := ⟨0, ![]⟩

class Facts : Prop where
  bcast_S_S32x3136x384 : S_.BroadcastsInDim S32x3136x384 (![] : Fin 0 → Fin S32x3136x384.rank)
  reducesTo_S32x3136x384_S_d0_1_2 : S32x3136x384.ReducesTo [0, 1, 2] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S8x1x1 : S_.BroadcastsInDim S8x1x1 (![] : Fin 0 → Fin S8x1x1.rank)
  reducesTo_S8x1x1_S_d0_1_2 : S8x1x1.ReducesTo [0, 1, 2] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S32x3136x384 .f32) (main_arg1 : FVec F S1152x384 .f32) (main_arg2 : FVec F S8x1x1 .f32) (main_arg3 : FVec F S384x384 .f32) (main_arg4 : FVec F S384 .f32) : IVec S_ 1 :=
  let main_v0 : FVec F S32x3136x384 .f32 := Host.absf main_arg0
  let main_cst : FVec F S_ .f32 := constant S_ .f32 0x7F800000#32
  let main_v1 : FVec F S32x3136x384 .f32 := broadcastInDim S32x3136x384 ![] bcast_S_S32x3136x384 main_cst
  let main_v2 : IVec S32x3136x384 1 := cmpf .olt main_v0 main_v1
  let main_c : IVec S_ 1 := constantI S_ 1 1#1
  let main_v3 : IVec S_ 1 := (fun x v => Host.reduce IntOp.andi x v reducesTo_S32x3136x384_S_d0_1_2 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S8x1x1 .f32 := Host.absf main_arg2
  let main_cst_2 : FVec F S_ .f32 := constant S_ .f32 0x7F800000#32
  let main_v10 : FVec F S8x1x1 .f32 := broadcastInDim S8x1x1 ![] bcast_S_S8x1x1 main_cst_2
  let main_v11 : IVec S8x1x1 1 := cmpf .olt main_v9 main_v10
  let main_c_3 : IVec S_ 1 := constantI S_ 1 1#1
  let main_v12 : IVec S_ 1 := (fun x v => Host.reduce IntOp.andi x v reducesTo_S8x1x1_S_d0_1_2 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S32x3136x384 : Shape := ⟨3, ![32, 3136, 384]⟩
abbrev S1152x384 : Shape := ⟨2, ![1152, 384]⟩
abbrev S8x1x1 : Shape := ⟨3, ![8, 1, 1]⟩
abbrev S384x384 : Shape := ⟨2, ![384, 384]⟩
abbrev S384 : Shape := ⟨1, ![384]⟩
abbrev S1x3136x384 : Shape := ⟨3, ![1, 3136, 384]⟩
abbrev S3136x1152 : Shape := ⟨2, ![3136, 1152]⟩
abbrev S1x384 : Shape := ⟨2, ![1, 384]⟩
abbrev S3136x384 : Shape := ⟨2, ![3136, 384]⟩
abbrev S784x384 : Shape := ⟨2, ![784, 384]⟩
abbrev S784x1152 : Shape := ⟨2, ![784, 1152]⟩
abbrev S48x48 : Shape := ⟨2, ![48, 48]⟩
abbrev S1x48 : Shape := ⟨2, ![1, 48]⟩
abbrev S48x1 : Shape := ⟨2, ![48, 1]⟩
abbrev S1x1x1 : Shape := ⟨3, ![1, 1, 1]⟩
abbrev S48 : Shape := ⟨1, ![48]⟩
abbrev S384x48 : Shape := ⟨2, ![384, 48]⟩
abbrev S48x384 : Shape := ⟨2, ![48, 384]⟩

abbrev nBuf : Space → Nat
  | .hbm => 6
  | .vmem => 12
  | .smem => 0
  | _ => 0

abbrev bufTy : (tb : Table) → Fin (tcTables nBuf tb) → BufTy
  | .hbm, ⟨0, _⟩ => ⟨S32x3136x384, .f32⟩
  | .hbm, ⟨1, _⟩ => ⟨S1152x384, .f32⟩
  | .hbm, ⟨2, _⟩ => ⟨S8x1x1, .f32⟩
  | .hbm, ⟨3, _⟩ => ⟨S384x384, .f32⟩
  | .hbm, ⟨4, _⟩ => ⟨S384, .f32⟩
  | .hbm, ⟨5, _⟩ => ⟨S32x3136x384, .f32⟩
  | .local _ .vmem, ⟨0, _⟩ => ⟨S1x3136x384, .f32⟩
  | .local _ .vmem, ⟨1, _⟩ => ⟨S1x3136x384, .f32⟩
  | .local _ .vmem, ⟨2, _⟩ => ⟨S1152x384, .f32⟩
  | .local _ .vmem, ⟨3, _⟩ => ⟨S8x1x1, .f32⟩
  | .local _ .vmem, ⟨4, _⟩ => ⟨S384x384, .f32⟩
  | .local _ .vmem, ⟨5, _⟩ => ⟨S384, .f32⟩
  | .local _ .vmem, ⟨6, _⟩ => ⟨S1x3136x384, .f32⟩
  | .local _ .vmem, ⟨7, _⟩ => ⟨S1x3136x384, .f32⟩
  | .local _ .vmem, ⟨8, _⟩ => ⟨S3136x1152, .bf16⟩
  | .local _ .vmem, ⟨9, _⟩ => ⟨S384x384, .bf16⟩
  | .local _ .vmem, ⟨10, _⟩ => ⟨S1x384, .f32⟩
  | .local _ .vmem, ⟨11, _⟩ => ⟨S1x384, .f32⟩
  | _, _ => ⟨S32x3136x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_6 : BitVec 32 := 0#32
  let c4_i32 : BitVec 32 := 4#32
  let v10 : BitVec 32 := Scalar.addi c0_i32_6 c4_i32
  let c1_i32 : BitVec 32 := 1#32
  ⟨c0_i32_6, v10, c1_i32⟩
def k0_mult1 (k0_t1 : Fin k0_t1_loop.trips) : BitVec 32 :=
  let c0_i32_73 : BitVec 32 := 0#32
  let c0_i32_6 : BitVec 32 := 0#32
  let c1_i32 : BitVec 32 := 1#32
  let arg11 : BitVec 32 := Scf.iv c0_i32_6 c1_i32 k0_t1
  let c1_i32_72 : BitVec 32 := 1#32
  let v282 : BitVec 32 := Scalar.muli arg11 c1_i32_72
  let v283 : BitVec 32 := Scalar.addi c0_i32_73 v282
  let c784_i32 : BitVec 32 := 784#32
  let v284 : BitVec 32 := Scalar.muli v283 c784_i32
  v284
def k0_off1 (k0_t1 : Fin k0_t1_loop.trips) : Fin 2 → Nat :=
  let c0_i32_73 : BitVec 32 := 0#32
  let c0_i32_6 : BitVec 32 := 0#32
  let c1_i32 : BitVec 32 := 1#32
  let arg11 : BitVec 32 := Scf.iv c0_i32_6 c1_i32 k0_t1
  let c1_i32_72 : BitVec 32 := 1#32
  let v282 : BitVec 32 := Scalar.muli arg11 c1_i32_72
  let v283 : BitVec 32 := Scalar.addi c0_i32_73 v282
  let c784_i32 : BitVec 32 := 784#32
  let v284 : BitVec 32 := Scalar.muli v283 c784_i32
  let v285 : BitVec 32 := v284
  let v288 : Index := Scalar.indexCast v285
  let c0_76 : Index := 0#32
  ![v288.toNat, 0]
def k0_off2 (k0_t1 : Fin k0_t1_loop.trips) : Fin 2 → Nat :=
  let c0_i32_73 : BitVec 32 := 0#32
  let c0_i32_6 : BitVec 32 := 0#32
  let c1_i32 : BitVec 32 := 1#32
  let arg11 : BitVec 32 := Scf.iv c0_i32_6 c1_i32 k0_t1
  let c1_i32_72 : BitVec 32 := 1#32
  let v282 : BitVec 32 := Scalar.muli arg11 c1_i32_72
  let v283 : BitVec 32 := Scalar.addi c0_i32_73 v282
  let c784_i32 : BitVec 32 := 784#32
  let v284 : BitVec 32 := Scalar.muli v283 c784_i32
  let v285 : BitVec 32 := v284
  let v311 : Index := Scalar.indexCast v285
  let c0_88 : Index := 0#32
  ![v311.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3136x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1152x384_S1152x384_0_0 : ∀ a, (![0, 0] : Fin 2 → Nat) a + S1152x384.size a ≤ S1152x384.size a
  h_S1152x384 : 0 < S1152x384.numel
  bitsLt_bf16_f32 : FTy.bits .bf16 < FTy.bits .f32
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S1x3136x384_S1x3136x384_0_0_0 : ∀ a, (![0, 0, 0] : Fin 3 → Nat) a + S1x3136x384.size a ≤ S1x3136x384.size a
  squeezes_S1x3136x384_S3136x384 : S1x3136x384.Squeezes S3136x384
  h_S784x384 : 0 < S784x384.numel
  slices_S784x1152_o0_0_S784x384 : S784x1152.Slices ![0, 0] S784x384
  slices_S784x1152_o0_384_S784x384 : S784x1152.Slices ![0, 384] S784x384
  reduces_S784x384_S384 : S784x384.Reduces [0] S384
  shapeCasts_S384_S1x384 : S384.ShapeCasts S1x384
  h_S784x1152 : 0 < S784x1152.numel
  shapeCasts_S784x1152_S784x1152 : S784x1152.ShapeCasts S784x1152
  inb_S3136x1152_S3136x384_0_0 : ∀ a, (![0, 0] : Fin 2 → Nat) a + S3136x384.size a ≤ S3136x1152.size a
  h_S3136x384 : 0 < S3136x384.numel
  inb_S3136x1152_S3136x384_0_384 : ∀ a, (![0, 384] : Fin 2 → Nat) a + S3136x384.size a ≤ S3136x1152.size a
  inb_S3136x1152_S3136x384_0_768 : ∀ a, (![0, 768] : Fin 2 → Nat) a + S3136x384.size a ≤ S3136x1152.size a
  inb_S8x1x1_S8x1x1_0_0_0 : ∀ a, (![0, 0, 0] : Fin 3 → Nat) a + S8x1x1.size a ≤ S8x1x1.size a
  h_S8x1x1 : 0 < S8x1x1.numel
  inb_S384x384_S384x384_0_0 : ∀ a, (![0, 0] : Fin 2 → Nat) a + S384x384.size a ≤ S384x384.size a
  h_S384x384 : 0 < S384x384.numel
  slices_S384x384_o0_0_S48x48 : S384x384.Slices ![0, 0] S48x48
  slices_S1x384_o0_0_S1x48 : S1x384.Slices ![0, 0] S1x48
  transposes_S1x48_p1_0_S48x1 : S1x48.Transposes [1, 0] S48x1
  broadcasts_S48x1_S48x48 : S48x1.Broadcasts S48x48
  broadcasts_S1x48_S48x48 : S1x48.Broadcasts S48x48
  slices_S8x1x1_o0_0_0_S1x1x1 : S8x1x1.Slices ![0, 0, 0] S1x1x1
  inpos_S1x1x1_p0_0_0 : ∀ a, (![0, 0, 0] : Fin 3 → Nat) a < S1x1x1.size a
  reduces_S48x48_S48 : S48x48.Reduces [1] S48
  shapeCasts_S48_S48x1 : S48.ShapeCasts S48x1
  slices_S384x384_o0_0_S384x48 : S384x384.Slices ![0, 0] S384x48
  inb_S384x384_S48x384_0_0 : ∀ a, (![0, 0] : Fin 2 → Nat) a + S48x384.size a ≤ S384x384.size a
  h_S48x384 : 0 < S48x384.numel
  shapeCasts_S48x384_S48x384 : S48x384.ShapeCasts S48x384
  packedbf16_S384x384_S48x384_0_0 : (Rect.unit (s := S384x384) ![0, 0] S48x384.size inb_S384x384_S48x384_0_0).PackedRows (EltTy.packing .bf16)
  slices_S384x384_o48_48_S48x48 : S384x384.Slices ![48, 48] S48x48
  slices_S1x384_o0_48_S1x48 : S1x384.Slices ![0, 48] S1x48
  slices_S8x1x1_o1_0_0_S1x1x1 : S8x1x1.Slices ![1, 0, 0] S1x1x1
  slices_S384x384_o0_48_S384x48 : S384x384.Slices ![0, 48] S384x48
  inb_S384x384_S48x384_48_0 : ∀ a, (![48, 0] : Fin 2 → Nat) a + S48x384.size a ≤ S384x384.size a
  packedbf16_S384x384_S48x384_48_0 : (Rect.unit (s := S384x384) ![48, 0] S48x384.size inb_S384x384_S48x384_48_0).PackedRows (EltTy.packing .bf16)
  slices_S384x384_o96_96_S48x48 : S384x384.Slices ![96, 96] S48x48
  slices_S1x384_o0_96_S1x48 : S1x384.Slices ![0, 96] S1x48
  slices_S8x1x1_o2_0_0_S1x1x1 : S8x1x1.Slices ![2, 0, 0] S1x1x1
  slices_S384x384_o0_96_S384x48 : S384x384.Slices ![0, 96] S384x48
  inb_S384x384_S48x384_96_0 : ∀ a, (![96, 0] : Fin 2 → Nat) a + S48x384.size a ≤ S384x384.size a
  packedbf16_S384x384_S48x384_96_0 : (Rect.unit (s := S384x384) ![96, 0] S48x384.size inb_S384x384_S48x384_96_0).PackedRows (EltTy.packing .bf16)
  slices_S384x384_o144_144_S48x48 : S384x384.Slices ![144, 144] S48x48
  slices_S1x384_o0_144_S1x48 : S1x384.Slices ![0, 144] S1x48
  slices_S8x1x1_o3_0_0_S1x1x1 : S8x1x1.Slices ![3, 0, 0] S1x1x1
  slices_S384x384_o0_144_S384x48 : S384x384.Slices ![0, 144] S384x48
  inb_S384x384_S48x384_144_0 : ∀ a, (![144, 0] : Fin 2 → Nat) a + S48x384.size a ≤ S384x384.size a
  packedbf16_S384x384_S48x384_144_0 : (Rect.unit (s := S384x384) ![144, 0] S48x384.size inb_S384x384_S48x384_144_0).PackedRows (EltTy.packing .bf16)
  slices_S384x384_o192_192_S48x48 : S384x384.Slices ![192, 192] S48x48
  slices_S1x384_o0_192_S1x48 : S1x384.Slices ![0, 192] S1x48
  slices_S8x1x1_o4_0_0_S1x1x1 : S8x1x1.Slices ![4, 0, 0] S1x1x1
  slices_S384x384_o0_192_S384x48 : S384x384.Slices ![0, 192] S384x48
  inb_S384x384_S48x384_192_0 : ∀ a, (![192, 0] : Fin 2 → Nat) a + S48x384.size a ≤ S384x384.size a
  packedbf16_S384x384_S48x384_192_0 : (Rect.unit (s := S384x384) ![192, 0] S48x384.size inb_S384x384_S48x384_192_0).PackedRows (EltTy.packing .bf16)
  slices_S384x384_o240_240_S48x48 : S384x384.Slices ![240, 240] S48x48
  slices_S1x384_o0_240_S1x48 : S1x384.Slices ![0, 240] S1x48
  slices_S8x1x1_o5_0_0_S1x1x1 : S8x1x1.Slices ![5, 0, 0] S1x1x1
  slices_S384x384_o0_240_S384x48 : S384x384.Slices ![0, 240] S384x48
  inb_S384x384_S48x384_240_0 : ∀ a, (![240, 0] : Fin 2 → Nat) a + S48x384.size a ≤ S384x384.size a
  packedbf16_S384x384_S48x384_240_0 : (Rect.unit (s := S384x384) ![240, 0] S48x384.size inb_S384x384_S48x384_240_0).PackedRows (EltTy.packing .bf16)
  slices_S384x384_o288_288_S48x48 : S384x384.Slices ![288, 288] S48x48
  slices_S1x384_o0_288_S1x48 : S1x384.Slices ![0, 288] S1x48
  slices_S8x1x1_o6_0_0_S1x1x1 : S8x1x1.Slices ![6, 0, 0] S1x1x1
  slices_S384x384_o0_288_S384x48 : S384x384.Slices ![0, 288] S384x48
  inb_S384x384_S48x384_288_0 : ∀ a, (![288, 0] : Fin 2 → Nat) a + S48x384.size a ≤ S384x384.size a
  packedbf16_S384x384_S48x384_288_0 : (Rect.unit (s := S384x384) ![288, 0] S48x384.size inb_S384x384_S48x384_288_0).PackedRows (EltTy.packing .bf16)
  slices_S384x384_o336_336_S48x48 : S384x384.Slices ![336, 336] S48x48
  slices_S1x384_o0_336_S1x48 : S1x384.Slices ![0, 336] S1x48
  slices_S8x1x1_o7_0_0_S1x1x1 : S8x1x1.Slices ![7, 0, 0] S1x1x1
  slices_S384x384_o0_336_S384x48 : S384x384.Slices ![0, 336] S384x48
  inb_S384x384_S48x384_336_0 : ∀ a, (![336, 0] : Fin 2 → Nat) a + S48x384.size a ≤ S384x384.size a
  packedbf16_S384x384_S48x384_336_0 : (Rect.unit (s := S384x384) ![336, 0] S48x384.size inb_S384x384_S48x384_336_0).PackedRows (EltTy.packing .bf16)
  inb_S384_S384_0 : ∀ a, (![0] : Fin 1 → Nat) a + S384.size a ≤ S384.size a
  h_S384 : 0 < S384.numel
  broadcasts_S1x384_S3136x384 : S1x384.Broadcasts S3136x384
  h_S1x3136x384 : 0 < S1x3136x384.numel
  shapeCasts_S1x3136x384_S3136x384 : S1x3136x384.ShapeCasts S3136x384
  shapeCasts_S3136x384_S1x3136x384 : S3136x384.ShapeCasts S1x3136x384
  dot_S784x384_S1152x384_S784x1152_1_1_0_0_n_n_wf : DotDims.WF S784x384 S1152x384 S784x1152 [1] [1] [0] [0] [] []
  dot_S3136x384_S3136x384_S384x384_0_0_1_1_n_n_wf : DotDims.WF S3136x384 S3136x384 S384x384 [0] [0] [1] [1] [] []
  dot_S48x48_S384x48_S48x384_0_1_1_0_n_n_wf : DotDims.WF S48x48 S384x48 S48x384 [0] [1] [1] [0] [] []
  dot_S3136x384_S384x384_S3136x384_1_0_0_1_n_n_wf : DotDims.WF S3136x384 S384x384 S3136x384 [1] [0] [0] [1] [] []
  hrank0 : 0 < grid0.rank
  k0_t1_ok : k0_t1_loop.OK
  k0_mult1_dvd : ∀ k0_t1 : Fin k0_t1_loop.trips, 784 ∣ (k0_mult1 k0_t1).toNat
  k0_off1_inb : ∀ k0_t1 : Fin k0_t1_loop.trips, ∀ a, (k0_off1 k0_t1) a + S784x384.size a ≤ S3136x384.size a
  k0_off2_inb : ∀ k0_t1 : Fin k0_t1_loop.trips, ∀ a, (k0_off2 k0_t1) a + S784x1152.size a ≤ S3136x1152.size a
  k0_off2_packedbf16 : ∀ k0_t1 : Fin k0_t1_loop.trips, (Rect.unit (s := S3136x1152) (k0_off2 k0_t1) S784x1152.size (k0_off2_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3136x384.size a ≤ S32x3136x384.size a
  hwx0_0 : ∀ i : grid0.Coords, EltTy.bits .f32 = 32 ∨ (Rect.block (s := S32x3136x384) S1x3136x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x384.size a ≤ S1152x384.size a
  hwx0_1 : ∀ i : grid0.Coords, EltTy.bits .f32 = 32 ∨ (Rect.block (s := S1152x384) S1152x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x1.size a ≤ S8x1x1.size a
  hwx0_2 : ∀ i : grid0.Coords, EltTy.bits .f32 = 32 ∨ (Rect.block (s := S8x1x1) S8x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3136x384.size a ≤ S32x3136x384.size a
  hwx0_5 : ∀ i : grid0.Coords, EltTy.bits .f32 = 32 ∨ (Rect.block (s := S32x3136x384) S1x3136x384.size (cc0_transform_5 i) (hinb0_5 i)).WholeWords (EltTy.packing .f32)

variable [Facts₀]

def dot_S784x384_S1152x384_S784x1152_1_1_0_0_n_n : DotDims S784x384 S1152x384 S784x1152 where
  lhsContracting := [1]
  rhsContracting := [1]
  lhsNonContracting := [0]
  rhsNonContracting := [0]
  lhsBatch := []
  rhsBatch := []
  wf := dot_S784x384_S1152x384_S784x1152_1_1_0_0_n_n_wf
def dot_S3136x384_S3136x384_S384x384_0_0_1_1_n_n : DotDims S3136x384 S3136x384 S384x384 where
  lhsContracting := [0]
  rhsContracting := [0]
  lhsNonContracting := [1]
  rhsNonContracting := [1]
  lhsBatch := []
  rhsBatch := []
  wf := dot_S3136x384_S3136x384_S384x384_0_0_1_1_n_n_wf
def dot_S48x48_S384x48_S48x384_0_1_1_0_n_n : DotDims S48x48 S384x48 S48x384 where
  lhsContracting := [0]
  rhsContracting := [1]
  lhsNonContracting := [1]
  rhsNonContracting := [0]
  lhsBatch := []
  rhsBatch := []
  wf := dot_S48x48_S384x48_S48x384_0_1_1_0_n_n_wf
def dot_S3136x384_S384x384_S3136x384_1_0_0_1_n_n : DotDims S3136x384 S384x384 S3136x384 where
  lhsContracting := [1]
  rhsContracting := [0]
  lhsNonContracting := [0]
  rhsNonContracting := [1]
  lhsBatch := []
  rhsBatch := []
  wf := dot_S3136x384_S384x384_S3136x384_1_0_0_1_n_n_wf

abbrev win0_0 : Pipeline.Window sig grid0 :=
  Pipeline.Window.ofSpec (Memref.whole main_arg0) S1x3136x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1152x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x3136x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x3136x384 : Shape := ⟨3, ![32, 3136, 384]⟩
abbrev S1152x384 : Shape := ⟨2, ![1152, 384]⟩
abbrev S8x1x1 : Shape := ⟨3, ![8, 1, 1]⟩
abbrev S384x384 : Shape := ⟨2, ![384, 384]⟩
abbrev S384 : Shape := ⟨1, ![384]⟩
abbrev S32x3136x1152 : Shape := ⟨3, ![32, 3136, 1152]⟩
abbrev S32x3136x3x8x48 : Shape := ⟨5, ![32, 3136, 3, 8, 48]⟩
abbrev S3x32x8x48x3136 : Shape := ⟨5, ![3, 32, 8, 48, 3136]⟩
abbrev S1x32x8x48x3136 : Shape := ⟨5, ![1, 32, 8, 48, 3136]⟩
abbrev S32x8x48x3136 : Shape := ⟨4, ![32, 8, 48, 3136]⟩
abbrev S_ : Shape := ⟨0, ![]⟩
abbrev S32x8x48 : Shape := ⟨3, ![32, 8, 48]⟩
abbrev S32x8x48x1 : Shape := ⟨4, ![32, 8, 48, 1]⟩
abbrev S32x8x48x48 : Shape := ⟨4, ![32, 8, 48, 48]⟩
abbrev S1x8x1x1 : Shape := ⟨4, ![1, 8, 1, 1]⟩
abbrev S32x3136x8x48 : Shape := ⟨4, ![32, 3136, 8, 48]⟩
abbrev S1x1x384 : Shape := ⟨3, ![1, 1, 384]⟩

abbrev nBuf : Space → Nat
  | .hbm => 59
  | .vmem => 0
  | .smem => 0
  | _ => 0

abbrev bufTy : (tb : Table) → Fin (tcTables nBuf tb) → BufTy
  | .hbm, ⟨0, _⟩ => ⟨S32x3136x384, .f32⟩
  | .hbm, ⟨1, _⟩ => ⟨S1152x384, .f32⟩
  | .hbm, ⟨2, _⟩ => ⟨S8x1x1, .f32⟩
  | .hbm, ⟨3, _⟩ => ⟨S384x384, .f32⟩
  | .hbm, ⟨4, _⟩ => ⟨S384, .f32⟩
  | .hbm, ⟨5, _⟩ => ⟨S32x3136x1152, .f32⟩
  | .hbm, ⟨6, _⟩ => ⟨S32x3136x3x8x48, .f32⟩
  | .hbm, ⟨7, _⟩ => ⟨S3x32x8x48x3136, .f32⟩
  | .hbm, ⟨8, _⟩ => ⟨S1x32x8x48x3136, .f32⟩
  | .hbm, ⟨9, _⟩ => ⟨S32x8x48x3136, .f32⟩
  | .hbm, ⟨10, _⟩ => ⟨S1x32x8x48x3136, .f32⟩
  | .hbm, ⟨11, _⟩ => ⟨S32x8x48x3136, .f32⟩
  | .hbm, ⟨12, _⟩ => ⟨S1x32x8x48x3136, .f32⟩
  | .hbm, ⟨13, _⟩ => ⟨S32x8x48x3136, .f32⟩
  | .hbm, ⟨14, _⟩ => ⟨S32x8x48x3136, .f32⟩
  | .hbm, ⟨15, _⟩ => ⟨S_, .f32⟩
  | .hbm, ⟨16, _⟩ => ⟨S32x8x48, .f32⟩
  | .hbm, ⟨17, _⟩ => ⟨S32x8x48x1, .f32⟩
  | .hbm, ⟨18, _⟩ => ⟨S32x8x48x1, .f32⟩
  | .hbm, ⟨19, _⟩ => ⟨S_, .f32⟩
  | .hbm, ⟨20, _⟩ => ⟨S32x8x48x1, .f32⟩
  | .hbm, ⟨21, _⟩ => ⟨S32x8x48x1, .f32⟩
  | .hbm, ⟨22, _⟩ => ⟨S32x8x48x3136, .f32⟩
  | .hbm, ⟨23, _⟩ => ⟨S32x8x48x3136, .f32⟩
  | .hbm, ⟨24, _⟩ => ⟨S32x8x48x3136, .f32⟩
  | .hbm, ⟨25, _⟩ => ⟨S_, .f32⟩
  | .hbm, ⟨26, _⟩ => ⟨S32x8x48, .f32⟩
  | .hbm, ⟨27, _⟩ => ⟨S32x8x48x1, .f32⟩
  | .hbm, ⟨28, _⟩ => ⟨S32x8x48x1, .f32⟩
  | .hbm, ⟨29, _⟩ => ⟨S_, .f32⟩
  | .hbm, ⟨30, _⟩ => ⟨S32x8x48x1, .f32⟩
  | .hbm, ⟨31, _⟩ => ⟨S32x8x48x1, .f32⟩
  | .hbm, ⟨32, _⟩ => ⟨S32x8x48x3136, .f32⟩
  | .hbm, ⟨33, _⟩ => ⟨S32x8x48x3136, .f32⟩
  | .hbm, ⟨34, _⟩ => ⟨S32x8x48x48, .f32⟩
  | .hbm, ⟨35, _⟩ => ⟨S1x8x1x1, .f32⟩
  | .hbm, ⟨36, _⟩ => ⟨S32x8x48x48, .f32⟩
  | .hbm, ⟨37, _⟩ => ⟨S32x8x48x48, .f32⟩
  | .hbm, ⟨38, _⟩ => ⟨S_, .f32⟩
  | .hbm, ⟨39, _⟩ => ⟨S32x8x48, .f32⟩
  | .hbm, ⟨40, _⟩ => ⟨S_, .f32⟩
  | .hbm, ⟨41, _⟩ => ⟨S32x8x48, .f32⟩
  | .hbm, ⟨42, _⟩ => ⟨S32x8x48, .f32⟩
  | .hbm, ⟨43, _⟩ => ⟨S32x8x48x1, .f32⟩
  | .hbm, ⟨44, _⟩ => ⟨S32x8x48x48, .f32⟩
  | .hbm, ⟨45, _⟩ => ⟨S32x8x48x48, .f32⟩
  | .hbm, ⟨46, _⟩ => ⟨S32x8x48x48, .f32⟩
  | .hbm, ⟨47, _⟩ => ⟨S_, .f32⟩
  | .hbm, ⟨48, _⟩ => ⟨S32x8x48, .f32⟩
  | .hbm, ⟨49, _⟩ => ⟨S32x8x48x1, .f32⟩
  | .hbm, ⟨50, _⟩ => ⟨S32x8x48x48, .f32⟩
  | .hbm, ⟨51, _⟩ => ⟨S32x8x48x48, .f32⟩
  | .hbm, ⟨52, _⟩ => ⟨S32x8x48x3136, .f32⟩
  | .hbm, ⟨53, _⟩ => ⟨S32x3136x8x48, .f32⟩
  | .hbm, ⟨54, _⟩ => ⟨S32x3136x384, .f32⟩
  | .hbm, ⟨55, _⟩ => ⟨S32x3136x384, .f32⟩
  | .hbm, ⟨56, _⟩ => ⟨S1x1x384, .f32⟩
  | .hbm, ⟨57, _⟩ => ⟨S32x3136x384, .f32⟩
  | .hbm, ⟨58, _⟩ => ⟨S32x3136x384, .f32⟩
  | _, _ => ⟨S32x3136x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  shapeCasts_S32x3136x1152_S32x3136x3x8x48 : S32x3136x1152.ShapeCasts S32x3136x3x8x48
  transposes_S32x3136x3x8x48_S3x32x8x48x3136_2_0_3_4_1 : S32x3136x3x8x48.Transposes [2, 0, 3, 4, 1] S3x32x8x48x3136
  slices_S3x32x8x48x3136_S1x32x8x48x3136_0_0_0_0_0 : S3x32x8x48x3136.Slices ![0, 0, 0, 0, 0] S1x32x8x48x3136
  shapeCasts_S1x32x8x48x3136_S32x8x48x3136 : S1x32x8x48x3136.ShapeCasts S32x8x48x3136
  slices_S3x32x8x48x3136_S1x32x8x48x3136_1_0_0_0_0 : S3x32x8x48x3136.Slices ![1, 0, 0, 0, 0] S1x32x8x48x3136
  slices_S3x32x8x48x3136_S1x32x8x48x3136_2_0_0_0_0 : S3x32x8x48x3136.Slices ![2, 0, 0, 0, 0] S1x32x8x48x3136
  reducesTo_S32x8x48x3136_S32x8x48_d3 : S32x8x48x3136.ReducesTo [3] S32x8x48
  h_S_ : 0 < S_.numel
  bcast_S32x8x48_S32x8x48x1_0_1_2 : S32x8x48.BroadcastsInDim S32x8x48x1 (![0, 1, 2] : Fin 3 → Fin S32x8x48x1.rank)
  bcast_S_S32x8x48x1 : S_.BroadcastsInDim S32x8x48x1 (![] : Fin 0 → Fin S32x8x48x1.rank)
  bcast_S32x8x48x1_S32x8x48x3136_0_1_2_3 : S32x8x48x1.BroadcastsInDim S32x8x48x3136 (![0, 1, 2, 3] : Fin 4 → Fin S32x8x48x3136.rank)
  bcast_S8x1x1_S1x8x1x1_1_2_3 : S8x1x1.BroadcastsInDim S1x8x1x1 (![1, 2, 3] : Fin 3 → Fin S1x8x1x1.rank)
  bcast_S1x8x1x1_S32x8x48x48_0_1_2_3 : S1x8x1x1.BroadcastsInDim S32x8x48x48 (![0, 1, 2, 3] : Fin 4 → Fin S32x8x48x48.rank)
  reducesTo_S32x8x48x48_S32x8x48_d3 : S32x8x48x48.ReducesTo [3] S32x8x48
  bcast_S_S32x8x48 : S_.BroadcastsInDim S32x8x48 (![] : Fin 0 → Fin S32x8x48.rank)
  bcast_S32x8x48x1_S32x8x48x48_0_1_2_3 : S32x8x48x1.BroadcastsInDim S32x8x48x48 (![0, 1, 2, 3] : Fin 4 → Fin S32x8x48x48.rank)
  transposes_S32x8x48x3136_S32x3136x8x48_0_3_1_2 : S32x8x48x3136.Transposes [0, 3, 1, 2] S32x3136x8x48
  shapeCasts_S32x3136x8x48_S32x3136x384 : S32x3136x8x48.ShapeCasts S32x3136x384
  bcast_S384_S1x1x384_2 : S384.BroadcastsInDim S1x1x384 (![2] : Fin 1 → Fin S1x1x384.rank)
  bcast_S1x1x384_S32x3136x384_0_1_2 : S1x1x384.BroadcastsInDim S32x3136x384 (![0, 1, 2] : Fin 3 → Fin S32x3136x384.rank)
  dot_S32x3136x384_S1152x384_S32x3136x1152_2_1_01_0_n_n_wf : DotDims.WF S32x3136x384 S1152x384 S32x3136x1152 [2] [1] [0, 1] [0] [] []
  dot_S32x8x48x3136_S32x8x48x3136_S32x8x48x48_3_3_2_2_01_01_wf : DotDims.WF S32x8x48x3136 S32x8x48x3136 S32x8x48x48 [3] [3] [2] [2] [0, 1] [0, 1]
  dot_S32x8x48x48_S32x8x48x3136_S32x8x48x3136_3_2_2_3_01_01_wf : DotDims.WF S32x8x48x48 S32x8x48x3136 S32x8x48x3136 [3] [2] [2] [3] [0, 1] [0, 1]
  dot_S32x3136x384_S384x384_S32x3136x384_2_1_01_0_n_n_wf : DotDims.WF S32x3136x384 S384x384 S32x3136x384 [2] [1] [0, 1] [0] [] []

variable [Facts₀]

def dot_S32x3136x384_S1152x384_S32x3136x1152_2_1_01_0_n_n : DotDims S32x3136x384 S1152x384 S32x3136x1152 where
  lhsContracting := [2]
  rhsContracting := [1]
  lhsNonContracting := [0, 1]
  rhsNonContracting := [0]
  lhsBatch := []
  rhsBatch := []
  wf := dot_S32x3136x384_S1152x384_S32x3136x1152_2_1_01_0_n_n_wf
def dot_S32x8x48x3136_S32x8x48x3136_S32x8x48x48_3_3_2_2_01_01 : DotDims S32x8x48x3136 S32x8x48x3136 S32x8x48x48 where
  lhsContracting := [3]
  rhsContracting := [3]
  lhsNonContracting := [2]
  rhsNonContracting := [2]
  lhsBatch := [0, 1]
  rhsBatch := [0, 1]
  wf := dot_S32x8x48x3136_S32x8x48x3136_S32x8x48x48_3_3_2_2_01_01_wf
def dot_S32x8x48x48_S32x8x48x3136_S32x8x48x3136_3_2_2_3_01_01 : DotDims S32x8x48x48 S32x8x48x3136 S32x8x48x3136 where
  lhsContracting := [3]
  rhsContracting := [2]
  lhsNonContracting := [2]
  rhsNonContracting := [3]
  lhsBatch := [0, 1]
  rhsBatch := [0, 1]
  wf := dot_S32x8x48x48_S32x8x48x3136_S32x8x48x3136_3_2_2_3_01_01_wf
def dot_S32x3136x384_S384x384_S32x3136x384_2_1_01_0_n_n : DotDims S32x3136x384 S384x384 S32x3136x384 where
  lhsContracting := [2]
  rhsContracting := [1]
  lhsNonContracting := [0, 1]
  rhsNonContracting := [0]
  lhsBatch := []
  rhsBatch := []
  wf := dot_S32x3136x384_S384x384_S32x3136x384_2_1_01_0_n_n_wf

class Facts : Prop extends Facts₀ where

variable [Facts]
-- ==== Proof.RunK.lean ====
/-
  The kernel body at one grid point, run once on whole staging buffers.

  The five input blocks are held at given contents and come back unchanged; the four scratch buffers come back at
  some contents (the first of them, which keeps the projected tokens, is taken at named contents: every cell the body
  reads from it it has stored before, so the result does not depend on them); the output block is held at arbitrary
  contents and comes back with the body's stores written over it, as a list of pieces.
-/
import proofs.«109037_j50328426774879_2_alg».proof.Proof.Gen.Kernel.Frame
import proofs.«109037_j50328426774879_2_alg».proof.Proof.Gen.Kernel.Skeleton
import proofs.«109037_j50328426774879_2_alg».proof.Proof.Gen.Kernel.Loops
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The token rows of the input block — the block with its leading unit axis dropped — are the same cells of
    the same buffer as the block itself: holding one is holding the other. -/
theorem rows_view (c : Dev nD) (arg1 : Memref sig .tc .vmem S1x3136x384 .f32) (f : arg1.view.ty.Contents (Elt F)) :
    (arg1.view.loc (c : Thread nD τ) ↦[arg1.view.set]{fullShare} f : sProp 𝕄)
      = (((arg1.slice (Rect.unit (s := S1x3136x384) ![0, 0, 0] S1x3136x384.size inb_S1x3136x384_S1x3136x384_0_0_0) (fun _ => rfl)).squeeze S3136x384 squeezes_S1x3136x384_S3136x384).view.loc (c : Thread nD τ) ↦[((arg1.slice (Rect.unit (s := S1x3136x384) ![0, 0, 0] S1x3136x384.size inb_S1x3136x384_S1x3136x384_0_0_0) (fun _ => rfl)).squeeze S3136x384 squeezes_S1x3136x384_S3136x384).view.set]{fullShare} f) := by
  have hS : ((arg1.slice (Rect.unit (s := S1x3136x384) ![0, 0, 0] S1x3136x384.size inb_S1x3136x384_S1x3136x384_0_0_0) (fun _ => rfl)).squeeze S3136x384 squeezes_S1x3136x384_S3136x384).view.set = arg1.view.set := by
    have hu : (Rect.unit (s := S1x3136x384) ![0, 0, 0] S1x3136x384.size inb_S1x3136x384_S1x3136x384_0_0_0).set = Finset.univ := by
      ext y
      simp only [Finset.mem_univ, iff_true]
      exact View.mem_set_unit_zero (funext fun a => by fin_cases a <;> rfl) _ y
    exact (Memref.set_view_squeeze _ _).trans ((View.set_slice (v := arg1.view) _).trans (by rw [hu]; rfl))
  rw [hS]

/-- The same with the rows' memref under a name of its own. -/
theorem rows_view_mv (c : Dev nD) (arg1 : Memref sig .tc .vmem S1x3136x384 .f32) (mv : Memref sig .tc .vmem S3136x384 .f32)
    (hmv : ((arg1.slice (Rect.unit (s := S1x3136x384) ![0, 0, 0] S1x3136x384.size inb_S1x3136x384_S1x3136x384_0_0_0) (fun _ => rfl)).squeeze S3136x384 squeezes_S1x3136x384_S3136x384) = mv) (f : arg1.view.ty.Contents (Elt F)) :
    (arg1.view.loc (c : Thread nD τ) ↦[arg1.view.set]{fullShare} f : sProp 𝕄)
      = (mv.view.loc (c : Thread nD τ) ↦[mv.view.set]{fullShare}
          (cast (congrArg (fun m : Memref sig .tc .vmem S3136x384 .f32 => m.view.ty.Contents (Elt F)) hmv) (f : ((arg1.slice (Rect.unit (s := S1x3136x384) ![0, 0, 0] S1x3136x384.size inb_S1x3136x384_S1x3136x384_0_0_0) (fun _ => rfl)).squeeze S3136x384 squeezes_S1x3136x384_S3136x384).view.ty.Contents (Elt F)))) := by
  subst hmv; exact rows_view c arg1 f

set_option maxHeartbeats 4000000 in
/-- The pieces the body's stores leave in the output block (last first), with the body's triple. -/
noncomputable def kernelRun (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g7 : Vec F S3136x1152 .bf16) :
    { L6 : List (View.Piece (Elt F) S1x3136x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg7 fullShare g7 ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} f) ∗ (∃ f, arg8.view.loc (c : Thread nD τ) ↦[arg8.view.set]{fullShare} f)
                ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0__xca_kernel i arg1 harg1 arg2 harg2 arg3 harg3 arg4 harg4 arg5 harg5 arg6 harg6 arg7 harg7 arg8 harg8 arg9 harg9 arg10 harg10) K } := by
  have key : ∀ (mv : Memref sig .tc .vmem S3136x384 .f32) (hmv : ((arg1.slice (Rect.unit (s := S1x3136x384) ![0, 0, 0] S1x3136x384.size inb_S1x3136x384_S1x3136x384_0_0_0) (fun _ => rfl)).squeeze S3136x384 squeezes_S1x3136x384_S3136x384) = mv), { L6 : List (View.Piece (Elt F) S1x3136x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg7 fullShare g7 ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} f) ∗ (∃ f, arg8.view.loc (c : Thread nD τ) ↦[arg8.view.set]{fullShare} f)
                ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0__xca_kernel i arg1 harg1 arg2 harg2 arg3 harg3 arg4 harg4 arg5 harg5 arg6 harg6 arg7 harg7 arg8 harg8 arg9 harg9 arg10 harg10) K } := by
    intro mv hmv
    refine ⟨?_, fun E K => ?run⟩
    case run =>
      simp only [cc0__xca_kernel_eq_skeleton]; unfold cc0__xca_kernel_skel
      unfold owns
      simp only [rows_view_mv c arg1 mv hmv]
      iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, HS0⟩, ⟨%d7, %f7, -, HS1⟩, ⟨%d8, %f8, -, HS2⟩, ⟨%d9, %f9, -, HS3⟩, Hk⟩
      obtain rfl := harg1.eq_unread hf0; obtain rfl := harg2.eq_unread hf1; obtain rfl := harg3.eq_unread hf2
      obtain rfl := harg4.eq_unread hf3; obtain rfl := harg5.eq_unread hf4; obtain rfl := harg7.eq_unread hf6
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]; · iexists _; iexact H5
      isplitl [HS0]; · iexists _; iexact HS0
      isplitl [HS1]; · iexists _; iexact HS1
      isplitl [HS2]; · iexists _; iexact HS2
      iexists _; iexact HS3
  exact key _ rfl

end Cert.Kernel.Body

end
-- ==== Proof.LoopPieces1K.lean ====
import proofs.«109037_j50328426774879_2_alg».proof.Proof.Gen.Kernel.Loops
import proofs.«109037_j50328426774879_2_alg».proof.Proof.Gen.Kernel.Skeleton
import Idealize.ShloMosaic.Lib.Pipeline.Value
import Idealize.ShloMosaic.Lib.ValueIdx
import Idealize.ShloMosaic.Lib.Tactic

set_option maxRecDepth 16384

noncomputable section

namespace Cert.Kernel.LoopP

open Cert.Kernel Cert.Kernel.Gen
open Idealize.ShloMosaic Idealize.ShloMosaic.TcCoe Idealize.ShloMosaic.Tactic Idealize.ShloMosaic.ValueIdx
open Idealize.SL Idealize.SL.Sem

variable {F : FTy → Type} [FloatOps F]
variable (𝒱 : Variants) (c : Dev nD) (bd : Option 𝒱.V) (i : grid0.Coords)
  (arg1 : Memref sig .tc .vmem S1x3136x384 .f32) (harg1 : arg1.IsWhole)
  (arg2 : Memref sig .tc .vmem S1152x384 .f32) (harg2 : arg2.IsWhole)
  (arg3 : Memref sig .tc .vmem S8x1x1 .f32) (harg3 : arg3.IsWhole)
  (arg4 : Memref sig .tc .vmem S384x384 .f32) (harg4 : arg4.IsWhole)
  (arg5 : Memref sig .tc .vmem S384 .f32) (harg5 : arg5.IsWhole)
  (arg6 : Memref sig .tc .vmem S1x3136x384 .f32) (harg6 : arg6.IsWhole)
  (arg7 : Memref sig .tc .vmem S3136x1152 .bf16) (harg7 : arg7.IsWhole)
  (arg8 : Memref sig .tc .vmem S384x384 .bf16) (harg8 : arg8.IsWhole)
  (arg9 : Memref sig .tc .vmem S1x384 .f32) (harg9 : arg9.IsWhole)
  (arg10 : Memref sig .tc .vmem S1x384 .f32) (harg10 : arg10.IsWhole)
  (v0 : Vec F S1152x384 .f32)
  (mv_v287 : Memref sig .tc .vmem S3136x384 .f32)
  (hcanon_v287 : (arg1.slice (Rect.unit (s := S1x3136x384) ![0, 0, 0] S1x3136x384.size inb_S1x3136x384_S1x3136x384_0_0_0) (fun _ => rfl)).squeeze S3136x384 squeezes_S1x3136x384_S3136x384 = mv_v287)
  (X_v287 : BufTy.Contents (Elt F) mv_v287.view.ty)

local notation "TRIP" => trip_k0_t1 (F := F) 𝒱 c bd i arg1 harg1 arg2 harg2 arg3 harg3 arg4 harg4 arg5 harg5 arg6 harg6 arg7 harg7 arg8 harg8 arg9 harg9 arg10 harg10 v0 mv_v287 hcanon_v287 X_v287
local notation "PB" => pb_k0_t1 (F := F) 𝒱 c bd i arg1 harg1 arg2 harg2 arg3 harg3 arg4 harg4 arg5 harg5 arg6 harg6 arg7 harg7 arg8 harg8 arg9 harg9 arg10 harg10 v0 mv_v287 hcanon_v287 X_v287

/-! ## One trip's pieces

A trip of the loop over the four chunks of tokens loads the chunk's slab of 784 rows, stores the slab's product
with the weights at the chunk's rows, and replaces each of the two running rows by itself plus the column sums of
squares of the query, respectively key, block of that product. -/

/-- The slab of 784 token rows that trip `k` loads. -/
abbrev slab (k : Fin k0_t1_loop.trips) : Vec F S784x384 .f32 :=
  mv_v287.view.readAt (Elt F) (Rect.unit (s := S3136x384) (k0_off1 k) S784x384.size (k0_off1_inb k)).toLoadRect X_v287

/-- The rows of the kept product that trip `k` writes. -/
abbrev rows (k : Fin k0_t1_loop.trips) : Rect S3136x1152 :=
  Rect.unit (s := S3136x1152) (k0_off2 k) S784x1152.size (k0_off2_inb k)

/-- The whole of a running row. -/
abbrev whole1 : Rect S1x384 := Rect.unit (s := S1x384) ![0, 0] S1x384.size inb_S1x384_S1x384_0_0

theorem trip7 (k : Fin k0_t1_loop.trips) (f7 : BufTy.Contents (Elt F) arg7.view.ty)
    (f9 : BufTy.Contents (Elt F) arg9.view.ty) (f10 : BufTy.Contents (Elt F) arg10.view.ty) :
    (TRIP k).1 f7 f9 f10 = [⟨rows k, k0_pay8 v0 (slab mv_v287 X_v287 k)⟩] := by
  unfold trip_k0_t1
  dsimp only

theorem trip9 (k : Fin k0_t1_loop.trips) (f7 : BufTy.Contents (Elt F) arg7.view.ty)
    (f9 : BufTy.Contents (Elt F) arg9.view.ty) (f10 : BufTy.Contents (Elt F) arg10.view.ty) :
    (TRIP k).2.1 f7 f9 f10
      = [⟨whole1, k0_pay6 v0 (slab mv_v287 X_v287 k) (arg9.view.readAt (Elt F) whole1.toLoadRect f9)⟩] := by
  unfold trip_k0_t1
  dsimp only

theorem trip10 (k : Fin k0_t1_loop.trips) (f7 : BufTy.Contents (Elt F) arg7.view.ty)
    (f9 : BufTy.Contents (Elt F) arg9.view.ty) (f10 : BufTy.Contents (Elt F) arg10.view.ty) :
    (TRIP k).2.2.1 f7 f9 f10
      = [⟨whole1, k0_pay7 v0 (slab mv_v287 X_v287 k) (arg10.view.readAt (Elt F) whole1.toLoadRect f10)⟩] := by
  unfold trip_k0_t1
  dsimp only

theorem trips_eq : k0_t1_loop.trips = 4 := by decide

end Cert.Kernel.LoopP

end
-- ==== Proof.LoopPieces2K.lean ====
import proofs.«109037_j50328426774879_2_alg».proof.Proof.Gen.Kernel.Loops
import proofs.«109037_j50328426774879_2_alg».proof.Proof.Gen.Kernel.Skeleton
import Idealize.ShloMosaic.Lib.Pipeline.Value
import Idealize.ShloMosaic.Lib.ValueIdx
import Idealize.ShloMosaic.Lib.Tactic
import proofs.«109037_j50328426774879_2_alg».proof.Proof.LoopPieces1K
set_option maxRecDepth 16384

noncomputable section

namespace Cert.Kernel.LoopP

open Cert.Kernel Cert.Kernel.Gen
open Idealize.ShloMosaic Idealize.ShloMosaic.TcCoe Idealize.ShloMosaic.Tactic Idealize.ShloMosaic.ValueIdx
open Idealize.SL Idealize.SL.Sem

variable {F : FTy → Type} [FloatOps F]
variable (𝒱 : Variants) (c : Dev nD) (bd : Option 𝒱.V) (i : grid0.Coords)
  (arg1 : Memref sig .tc .vmem S1x3136x384 .f32) (harg1 : arg1.IsWhole)
  (arg2 : Memref sig .tc .vmem S1152x384 .f32) (harg2 : arg2.IsWhole)
  (arg3 : Memref sig .tc .vmem S8x1x1 .f32) (harg3 : arg3.IsWhole)
  (arg4 : Memref sig .tc .vmem S384x384 .f32) (harg4 : arg4.IsWhole)
  (arg5 : Memref sig .tc .vmem S384 .f32) (harg5 : arg5.IsWhole)
  (arg6 : Memref sig .tc .vmem S1x3136x384 .f32) (harg6 : arg6.IsWhole)
  (arg7 : Memref sig .tc .vmem S3136x1152 .bf16) (harg7 : arg7.IsWhole)
  (arg8 : Memref sig .tc .vmem S384x384 .bf16) (harg8 : arg8.IsWhole)
  (arg9 : Memref sig .tc .vmem S1x384 .f32) (harg9 : arg9.IsWhole)
  (arg10 : Memref sig .tc .vmem S1x384 .f32) (harg10 : arg10.IsWhole)
  (v0 : Vec F S1152x384 .f32)
  (mv_v287 : Memref sig .tc .vmem S3136x384 .f32)
  (hcanon_v287 : (arg1.slice (Rect.unit (s := S1x3136x384) ![0, 0, 0] S1x3136x384.size inb_S1x3136x384_S1x3136x384_0_0_0) (fun _ => rfl)).squeeze S3136x384 squeezes_S1x3136x384_S3136x384 = mv_v287)
  (X_v287 : BufTy.Contents (Elt F) mv_v287.view.ty)

local notation "TRIP" => trip_k0_t1 (F := F) 𝒱 c bd i arg1 harg1 arg2 harg2 arg3 harg3 arg4 harg4 arg5 harg5 arg6 harg6 arg7 harg7 arg8 harg8 arg9 harg9 arg10 harg10 v0 mv_v287 hcanon_v287 X_v287
local notation "PB" => pb_k0_t1 (F := F) 𝒱 c bd i arg1 harg1 arg2 harg2 arg3 harg3 arg4 harg4 arg5 harg5 arg6 harg6 arg7 harg7 arg8 harg8 arg9 harg9 arg10 harg10 v0 mv_v287 hcanon_v287 X_v287

variable (G7 G7' : BufTy.Contents (Elt F) arg7.view.ty) (G9 : BufTy.Contents (Elt F) arg9.view.ty)
  (G10 : BufTy.Contents (Elt F) arg10.view.ty)

/-! ## The pieces after `n` trips

The kept product's pieces are the trips' row blocks, the last trip's first; they do not depend on what the buffer
held. A running row's pieces are whole-row stores, each payload computed from the row as the earlier trips left it. -/

/-- The row blocks of the first `n` trips, the last first. -/
def l7 : ℕ → List (View.Piece (Elt F) S3136x1152 .bf16)
  | 0 => []
  | n + 1 => if h : n < k0_t1_loop.trips then
      ⟨rows ⟨n, h⟩, k0_pay8 v0 (slab mv_v287 X_v287 ⟨n, h⟩)⟩ :: l7 n else l7 n

/-- The whole-row stores of the first `n` trips into a running row held by `arg`, the last first: trip `n` stores
    `pay` of its slab and of the row read back after the earlier trips. -/
def lrow (arg : Memref sig .tc .vmem S1x384 .f32) (pay : Vec F S784x384 .f32 → Vec F S1x384 .f32 → FVec F S1x384 .f32)
    (G : BufTy.Contents (Elt F) arg.view.ty) : ℕ → List (View.Piece (Elt F) S1x384 .f32)
  | 0 => []
  | n + 1 => if h : n < k0_t1_loop.trips then
      ⟨whole1, pay (slab mv_v287 X_v287 ⟨n, h⟩)
        (arg.view.readAt (Elt F) whole1.toLoadRect (arg.view.writes (Elt F) G (lrow arg pay G n)))⟩ :: lrow arg pay G n
    else lrow arg pay G n

theorem l7_succ (n : ℕ) (h : n < k0_t1_loop.trips) :
    l7 v0 mv_v287 X_v287 (n + 1) = ⟨rows ⟨n, h⟩, k0_pay8 v0 (slab mv_v287 X_v287 ⟨n, h⟩)⟩ :: l7 v0 mv_v287 X_v287 n := by
  rw [l7, dif_pos h]

theorem l7_succ_of_not (n : ℕ) (h : ¬n < k0_t1_loop.trips) : l7 v0 mv_v287 X_v287 (n + 1) = l7 v0 mv_v287 X_v287 n := by
  rw [l7, dif_neg h]

theorem lrow_succ (arg : Memref sig .tc .vmem S1x384 .f32) (pay : Vec F S784x384 .f32 → Vec F S1x384 .f32 → FVec F S1x384 .f32)
    (G : BufTy.Contents (Elt F) arg.view.ty) (n : ℕ) (h : n < k0_t1_loop.trips) :
    lrow mv_v287 X_v287 arg pay G (n + 1) = ⟨whole1, pay (slab mv_v287 X_v287 ⟨n, h⟩)
        (arg.view.readAt (Elt F) whole1.toLoadRect (arg.view.writes (Elt F) G (lrow mv_v287 X_v287 arg pay G n)))⟩
        :: lrow mv_v287 X_v287 arg pay G n := by
  rw [lrow, dif_pos h]

theorem lrow_succ_of_not (arg : Memref sig .tc .vmem S1x384 .f32) (pay : Vec F S784x384 .f32 → Vec F S1x384 .f32 → FVec F S1x384 .f32)
    (G : BufTy.Contents (Elt F) arg.view.ty) (n : ℕ) (h : ¬n < k0_t1_loop.trips) :
    lrow mv_v287 X_v287 arg pay G (n + 1) = lrow mv_v287 X_v287 arg pay G n := by
  rw [lrow, dif_neg h]

/-- THE PIECES THE LOOP'S INVARIANT CARRIES, in closed form. -/
theorem pb_eq (n : ℕ) :
    PB G7 G9 G10 n = (l7 v0 mv_v287 X_v287 n, lrow mv_v287 X_v287 arg9 (k0_pay6 v0) G9 n, lrow mv_v287 X_v287 arg10 (k0_pay7 v0) G10 n) := by
  induction n with
  | zero => rfl
  | succ n ih =>
    by_cases h : n < k0_t1_loop.trips
    · rw [pb_k0_t1_succ (F := F) 𝒱 c bd i arg1 harg1 arg2 harg2 arg3 harg3 arg4 harg4 arg5 harg5 arg6 harg6 arg7 harg7 arg8 harg8 arg9 harg9 arg10 harg10 v0 mv_v287 hcanon_v287 X_v287 G7 G9 G10 ⟨n, h⟩]
      dsimp only [tripL_k0_t1]
      rw [trip7, trip9, trip10, ih, l7_succ _ _ _ n h, lrow_succ _ _ _ _ _ n h, lrow_succ _ _ _ _ _ n h]
      rfl
    · rw [pb_k0_t1.eq_2]
      unfold pb_k0_t1Step
      rw [dif_neg h, ih, l7_succ_of_not _ _ _ n h, lrow_succ_of_not _ _ _ _ _ n h, lrow_succ_of_not _ _ _ _ _ n h]

/-! ## After the four trips -/

theorem trips_eq' : Scf.trips k0_t1_loop.lb k0_t1_loop.ub k0_t1_loop.st = 4 := trips_eq

/-- The four trips. -/
abbrev t0 : Fin k0_t1_loop.trips := ⟨0, by decide⟩
abbrev t1 : Fin k0_t1_loop.trips := ⟨1, by decide⟩
abbrev t2 : Fin k0_t1_loop.trips := ⟨2, by decide⟩
abbrev t3 : Fin k0_t1_loop.trips := ⟨3, by decide⟩

theorem l7_four : l7 v0 mv_v287 X_v287 4 =
    [⟨rows t3, k0_pay8 v0 (slab mv_v287 X_v287 t3)⟩, ⟨rows t2, k0_pay8 v0 (slab mv_v287 X_v287 t2)⟩,
     ⟨rows t1, k0_pay8 v0 (slab mv_v287 X_v287 t1)⟩, ⟨rows t0, k0_pay8 v0 (slab mv_v287 X_v287 t0)⟩] := by
  show l7 v0 mv_v287 X_v287 (3 + 1) = _
  rw [l7_succ _ _ _ 3 (by decide)]
  show _ :: l7 v0 mv_v287 X_v287 (2 + 1) = _
  rw [l7_succ _ _ _ 2 (by decide)]
  show _ :: _ :: l7 v0 mv_v287 X_v287 (1 + 1) = _
  rw [l7_succ _ _ _ 1 (by decide)]
  show _ :: _ :: _ :: l7 v0 mv_v287 X_v287 (0 + 1) = _
  rw [l7_succ _ _ _ 0 (by decide)]
  rfl

/-- The four row blocks tile the kept product: block `k` holds rows `784 k … 784 k + 783`. -/
theorem cover7 (y : S3136x1152.Idx) : ∃ p ∈ l7 v0 mv_v287 X_v287 4, y ∈ p.1.set := by
  rw [l7_four]
  have h0 : (y 0).val < 3136 := (y 0).isLt
  have h1 : (y 1).val < 1152 := (y 1).isLt
  have key : ∀ k : Fin k0_t1_loop.trips, 784 * k.val ≤ (y 0).val → (y 0).val < 784 * k.val + 784 → y ∈ (rows k).set := by
    intro k hlo hhi
    rw [Rect.mem_set_unit]
    intro a
    rw [k0_off2_eq]
    match a with
    | ⟨0, _⟩ => exact ⟨hlo, hhi⟩
    | ⟨1, _⟩ => exact ⟨Nat.zero_le _, by show (y 1).val < 0 + 1152; omega⟩
  by_cases c3 : 784 * 3 ≤ (y 0).val
  · exact ⟨_, List.Mem.head _, key t3 c3 (by show (y 0).val < 784 * 3 + 784; omega)⟩
  by_cases c2 : 784 * 2 ≤ (y 0).val
  · exact ⟨_, List.Mem.tail _ (List.Mem.head _), key t2 c2 (by show (y 0).val < 784 * 2 + 784; omega)⟩
  by_cases c1 : 784 * 1 ≤ (y 0).val
  · exact ⟨_, List.Mem.tail _ (List.Mem.tail _ (List.Mem.head _)), key t1 c1 (by show (y 0).val < 784 * 1 + 784; omega)⟩
  · exact ⟨_, List.Mem.tail _ (List.Mem.tail _ (List.Mem.tail _ (List.Mem.head _))),
      key t0 (by show 784 * 0 ≤ (y 0).val; omega) (by show (y 0).val < 784 * 0 + 784; omega)⟩

/-- So what the buffer reads after the four trips is determined by the pieces alone, whatever it held before. -/
theorem read7 : arg7.view.read (Elt F) (arg7.view.writes (Elt F) G7 (l7 v0 mv_v287 X_v287 4)) = View.canon (l7 v0 mv_v287 X_v287 4) :=
  View.read_writes_eq_canon _ _ _ (cover7 v0 mv_v287 X_v287)

theorem readAt7 (B : LoadRect S3136x1152) :
    arg7.view.readAt (Elt F) B (arg7.view.writes (Elt F) G7 (l7 v0 mv_v287 X_v287 4))
      = fun j => View.canon (l7 v0 mv_v287 X_v287 4) (B.idx j) :=
  funext fun j => by rw [View.readAt_apply, read7]

/-- A load of the kept product after the four trips does not see the contents the buffer started from. -/
theorem readAt7_indep (B : LoadRect S3136x1152) :
    arg7.view.readAt (Elt F) B (arg7.view.writes (Elt F) G7 (l7 v0 mv_v287 X_v287 4))
      = arg7.view.readAt (Elt F) B (arg7.view.writes (Elt F) G7' (l7 v0 mv_v287 X_v287 4)) :=
  (readAt7 arg7 v0 mv_v287 X_v287 G7 B).trans (readAt7 arg7 v0 mv_v287 X_v287 G7' B).symm

/-! ## The running rows -/

theorem hz2 : (![0, 0] : Fin 2 → Nat) = fun _ => 0 := funext fun a => by fin_cases a <;> rfl

/-- The running row after `n` trips, from the row `a0` it starts at. -/
def accRow (pay : Vec F S784x384 .f32 → Vec F S1x384 .f32 → FVec F S1x384 .f32) (a0 : Vec F S1x384 .f32) : ℕ → Vec F S1x384 .f32
  | 0 => a0
  | n + 1 => if h : n < k0_t1_loop.trips then pay (slab mv_v287 X_v287 ⟨n, h⟩) (accRow pay a0 n) else accRow pay a0 n

theorem accRow_succ (pay : Vec F S784x384 .f32 → Vec F S1x384 .f32 → FVec F S1x384 .f32) (a0 : Vec F S1x384 .f32) (n : ℕ)
    (h : n < k0_t1_loop.trips) :
    accRow mv_v287 X_v287 pay a0 (n + 1) = pay (slab mv_v287 X_v287 ⟨n, h⟩) (accRow mv_v287 X_v287 pay a0 n) := by
  rw [accRow, dif_pos h]

theorem accRow_succ_of_not (pay : Vec F S784x384 .f32 → Vec F S1x384 .f32 → FVec F S1x384 .f32) (a0 : Vec F S1x384 .f32) (n : ℕ)
    (h : ¬n < k0_t1_loop.trips) : accRow mv_v287 X_v287 pay a0 (n + 1) = accRow mv_v287 X_v287 pay a0 n := by
  rw [accRow, dif_neg h]

/-- A whole-row store, last, leaves its payload whatever the row held. -/
theorem read_whole_store (arg : Memref sig .tc .vmem S1x384 .f32) (f : BufTy.Contents (Elt F) arg.view.ty)
    (w : Vec F S1x384 .f32) (L : List (View.Piece (Elt F) S1x384 .f32)) :
    arg.view.read (Elt F) (arg.view.writes (Elt F) f (⟨whole1, w⟩ :: L)) = w :=
  (View.read_writes_eq_canon _ _ _ (fun y => ⟨⟨whole1, w⟩, List.Mem.head _, View.mem_set_unit_zero hz2 inb_S1x384_S1x384_0_0 y⟩)).trans
    (View.canon_cons_unit_zero hz2 inb_S1x384_S1x384_0_0 w L)

/-- A whole-row load reads the row. -/
theorem readAt_whole (arg : Memref sig .tc .vmem S1x384 .f32) (f : BufTy.Contents (Elt F) arg.view.ty) :
    arg.view.readAt (Elt F) whole1.toLoadRect f = arg.view.read (Elt F) f := by
  rw [View.readAt_eq_ld, View.ld_unit_zero hz2]

/-- The row after the pieces of `n` trips is the running row. -/
theorem read_lrow (arg : Memref sig .tc .vmem S1x384 .f32) (pay : Vec F S784x384 .f32 → Vec F S1x384 .f32 → FVec F S1x384 .f32)
    (G : BufTy.Contents (Elt F) arg.view.ty) (n : ℕ) :
    arg.view.read (Elt F) (arg.view.writes (Elt F) G (lrow mv_v287 X_v287 arg pay G n))
      = accRow mv_v287 X_v287 pay (arg.view.read (Elt F) G) n := by
  induction n with
  | zero => rfl
  | succ n ih =>
    by_cases h : n < k0_t1_loop.trips
    · rw [lrow_succ _ _ arg pay G n h, accRow_succ _ _ pay _ n h, read_whole_store, readAt_whole, ih]
    · rw [lrow_succ_of_not _ _ arg pay G n h, accRow_succ_of_not _ _ pay _ n h, ih]

theorem accRow_four (pay : Vec F S784x384 .f32 → Vec F S1x384 .f32 → FVec F S1x384 .f32) (a0 : Vec F S1x384 .f32) :
    accRow mv_v287 X_v287 pay a0 4
      = pay (slab mv_v287 X_v287 t3) (pay (slab mv_v287 X_v287 t2) (pay (slab mv_v287 X_v287 t1) (pay (slab mv_v287 X_v287 t0) a0))) := by
  show accRow mv_v287 X_v287 pay a0 (3 + 1) = _
  rw [accRow_succ _ _ _ _ 3 (by decide)]
  show pay _ (accRow mv_v287 X_v287 pay a0 (2 + 1)) = _
  rw [accRow_succ _ _ _ _ 2 (by decide)]
  show pay _ (pay _ (accRow mv_v287 X_v287 pay a0 (1 + 1))) = _
  rw [accRow_succ _ _ _ _ 1 (by decide)]
  show pay _ (pay _ (pay _ (accRow mv_v287 X_v287 pay a0 (0 + 1)))) = _
  rw [accRow_succ _ _ _ _ 0 (by decide)]
  rfl

/-- THE RUNNING ROW AFTER THE LOOP, loaded whole: the four trips' updates of the row the loop started from. -/
theorem readAt_row_four (arg : Memref sig .tc .vmem S1x384 .f32) (pay : Vec F S784x384 .f32 → Vec F S1x384 .f32 → FVec F S1x384 .f32)
    (G : BufTy.Contents (Elt F) arg.view.ty) :
    arg.view.readAt (Elt F) whole1.toLoadRect (arg.view.writes (Elt F) G (lrow mv_v287 X_v287 arg pay G 4))
      = pay (slab mv_v287 X_v287 t3) (pay (slab mv_v287 X_v287 t2) (pay (slab mv_v287 X_v287 t1)
          (pay (slab mv_v287 X_v287 t0) (arg.view.read (Elt F) G)))) := by
  rw [readAt_whole, read_lrow, accRow_four]

/-- The row the loop starts from after a whole-row fill is the fill. -/
theorem read_fill (arg : Memref sig .tc .vmem S1x384 .f32) (f : BufTy.Contents (Elt F) arg.view.ty) (w : Vec F S1x384 .f32) :
    arg.view.read (Elt F) (arg.view.writes (Elt F) f [⟨whole1, w⟩]) = w :=
  read_whole_store arg f w []

end Cert.Kernel.LoopP

end
-- ==== Proof.IndepK.lean ====
/-
  What the body leaves in the output block, as one function of the five input blocks; and that it does not depend
  on what the first scratch buffer held before: the four trips of the loop over the token chunks write every row of it
  before any row is read.
-/
import proofs.«109037_j50328426774879_2_alg».proof.Proof.RunK
import proofs.«109037_j50328426774879_2_alg».proof.Proof.LoopPieces2K

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One staging buffer of the output window, through which its contents are stated. -/
abbrev VO : View sig .tc .vmem S1x3136x384 .f32 := (Memref.whole cc0_stg5_0 : Memref sig .tc .vmem S1x3136x384 .f32).view

/-- The body's one store covers the output block. -/
theorem cover (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g7 : Vec F S3136x1152 .bf16) (y : S1x3136x384.Idx) :
    ∃ pc ∈ (kernelRun c i arg1 harg1 arg2 harg2 arg3 harg3 arg4 harg4 arg5 harg5 arg6 harg6 arg7 harg7 arg8 harg8 arg9 harg9 arg10 harg10 x0 x1 x2 x3 x4 g7).1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 g7).1 S1x3136x384.size (by sl_kernel_rfl) y

/-- What the run leaves in the output's staging buffer: its pieces read back over junk. -/
def outBlock (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g7 : Vec F S3136x1152 .bf16) : Vec F S1x3136x384 .f32 :=
  VO.read (Elt F) (VO.writes (Elt F) VO.junk (kernelRun c i arg1 harg1 arg2 harg2 arg3 harg3 arg4 harg4 arg5 harg5 arg6 harg6 arg7 harg7 arg8 harg8 arg9 harg9 arg10 harg10 x0 x1 x2 x3 x4 g7).1)

/-- The block does not depend on what the first scratch buffer held before the body ran: after the four trips
    every row of it is one of the trips' stores, and only those rows are read. -/
theorem outBlock_indep (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g g' : Vec F S3136x1152 .bf16) :
    outBlock c i arg1 harg1 arg2 harg2 arg3 harg3 arg4 harg4 arg5 harg5 arg6 harg6 arg7 harg7 arg8 harg8 arg9 harg9 arg10 harg10 x0 x1 x2 x3 x4 g = outBlock c i arg1 harg1 arg2 harg2 arg3 harg3 arg4 harg4 arg5 harg5 arg6 harg6 arg7 harg7 arg8 harg8 arg9 harg9 arg10 harg10 x0 x1 x2 x3 x4 g' := by
  unfold outBlock kernelRun
  dsimp only
  sl_unfold_words
  rw [LoopP.trips_eq']
  simp only [LoopP.pb_eq]
  simp only [LoopP.readAt7_indep arg7 _ _ _ (harg7.unread g) arg7.view.junk,
    LoopP.readAt7_indep arg7 _ _ _ (harg7.unread g') arg7.view.junk]

end Cert.Kernel.Body

end
-- ==== Proof.BodyK.lean ====
/-
  The proof data of the one pipeline and the body obligation at every grid point.

  At grid point `t` (batch entry `t`) the body finds its five input blocks in their staging buffers, runs once, and
  leaves in the output's staging buffer what its one covering store wrote: a function of the five input blocks.
  The four scratch buffers are handed over at arbitrary contents and taken back at arbitrary contents.
-/
import proofs.«109037_j50328426774879_2_alg».proof.Proof.IndepK
import proofs.«109037_j50328426774879_2_alg».proof.Proof.Gen.Kernel.Points
import proofs.«109037_j50328426774879_2_alg».proof.Proof.Gen.Kernel.Launch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0 (t : Fin cfg0.N) : Memref sig .tc .vmem S1x3136x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1152x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x3136x384 .f32 := win0_5.stage (cfg0.slots t 5)
abbrev hs5 (t : Fin cfg0.N) : (ms5 t).IsWhole := hstage0_5 ((cfg0.slots t 5).cast nbuf0_5)

/-- The scratch operands: whole scoped buffers of the kernel's own. -/
abbrev scM0 : Memref sig .tc .vmem S3136x1152 .bf16 := Memref.whole cc0_scratch0
abbrev scM1 : Memref sig .tc .vmem S384x384 .bf16 := Memref.whole cc0_scratch1
abbrev scM2 : Memref sig .tc .vmem S1x384 .f32 := Memref.whole cc0_scratch2
abbrev scM3 : Memref sig .tc .vmem S1x384 .f32 := Memref.whole cc0_scratch3

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Some contents of the first scratch buffer (which ones does not matter: `outBlock_indep`). -/
def junk7 : Vec F S3136x1152 .bf16 := scM0.view.read (Elt F) scM0.view.junk

/-- What the output's staging buffer holds after the body at point `t`. -/
def outAt (c : Dev nD) (t : Fin cfg0.N) : Vec F S1x3136x384 .f32 :=
  outBlock c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) junk7

/-- The proof data: the arrays as the region finds them; after the body each input's buffer at its block and the
    output's at `outAt`; the invariant the scratch buffers at anything and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 2000000 in
/-- The body at any point: the inputs' memrefs hold their blocks; the run applies; the scratch buffers pass through
    at some contents; the output's buffer ends at the pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  unfold outAt outBlock
  iintro ⟨⟨⟨⟨%d7, HS0⟩, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ _ _ _ _ (iblk m c 0 t) (iblk m c 1 t) (iblk m c 2 t) (iblk m c 3 t) (iblk m c 4 t) d7).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, ⟨%g0, HS0⟩, ⟨%g1, HS1⟩, ⟨%g2, HS2⟩, ⟨%g3, HS3⟩⟩
  isplitl [HS0 HS1 HS2 HS3 Hg]
  · isplitr [Hg]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_of_cover _ _ _ _ _ (cover c _ _ _ _ _ _ _ _ _ _ _ _ _ _ _ _ _ _ _ _ _ _ _ _ _ _ d7)).trans
    (outBlock_indep c _ _ _ _ _ _ _ _ _ _ _ _ _ _ _ _ _ _ _ _ _ _ _ _ _ _ d7 junk7)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.RunKI.lean ====
/-
  The kernel body at one grid point, run once on whole staging buffers.

  The five input blocks are held at given contents and come back unchanged; the four scratch buffers come back at
  some contents (the first of them, which keeps the projected tokens, is taken at named contents: every cell the body
  reads from it it has stored before, so the result does not depend on them); the output block is held at arbitrary
  contents and comes back with the body's stores written over it, as a list of pieces.
-/
import proofs.«109037_j50328426774879_2_alg».proof.Proof.Gen.KernelIdeal.Frame
import proofs.«109037_j50328426774879_2_alg».proof.Proof.Gen.KernelIdeal.Skeleton
import proofs.«109037_j50328426774879_2_alg».proof.Proof.Gen.KernelIdeal.Loops
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The token rows of the input block — the block with its leading unit axis dropped — are the same cells of
    the same buffer as the block itself: holding one is holding the other. -/
theorem rows_view (c : Dev nD) (arg1 : Memref sig .tc .vmem S1x3136x384 .f32) (f : arg1.view.ty.Contents (Elt F)) :
    (arg1.view.loc (c : Thread nD τ) ↦[arg1.view.set]{fullShare} f : sProp 𝕄)
      = (((arg1.slice (Rect.unit (s := S1x3136x384) ![0, 0, 0] S1x3136x384.size inb_S1x3136x384_S1x3136x384_0_0_0) (fun _ => rfl)).squeeze S3136x384 squeezes_S1x3136x384_S3136x384).view.loc (c : Thread nD τ) ↦[((arg1.slice (Rect.unit (s := S1x3136x384) ![0, 0, 0] S1x3136x384.size inb_S1x3136x384_S1x3136x384_0_0_0) (fun _ => rfl)).squeeze S3136x384 squeezes_S1x3136x384_S3136x384).view.set]{fullShare} f) := by
  have hS : ((arg1.slice (Rect.unit (s := S1x3136x384) ![0, 0, 0] S1x3136x384.size inb_S1x3136x384_S1x3136x384_0_0_0) (fun _ => rfl)).squeeze S3136x384 squeezes_S1x3136x384_S3136x384).view.set = arg1.view.set := by
    have hu : (Rect.unit (s := S1x3136x384) ![0, 0, 0] S1x3136x384.size inb_S1x3136x384_S1x3136x384_0_0_0).set = Finset.univ := by
      ext y
      simp only [Finset.mem_univ, iff_true]
      exact View.mem_set_unit_zero (funext fun a => by fin_cases a <;> rfl) _ y
    exact (Memref.set_view_squeeze _ _).trans ((View.set_slice (v := arg1.view) _).trans (by rw [hu]; rfl))
  rw [hS]

/-- The same with the rows' memref under a name of its own. -/
theorem rows_view_mv (c : Dev nD) (arg1 : Memref sig .tc .vmem S1x3136x384 .f32) (mv : Memref sig .tc .vmem S3136x384 .f32)
    (hmv : ((arg1.slice (Rect.unit (s := S1x3136x384) ![0, 0, 0] S1x3136x384.size inb_S1x3136x384_S1x3136x384_0_0_0) (fun _ => rfl)).squeeze S3136x384 squeezes_S1x3136x384_S3136x384) = mv) (f : arg1.view.ty.Contents (Elt F)) :
    (arg1.view.loc (c : Thread nD τ) ↦[arg1.view.set]{fullShare} f : sProp 𝕄)
      = (mv.view.loc (c : Thread nD τ) ↦[mv.view.set]{fullShare}
          (cast (congrArg (fun m : Memref sig .tc .vmem S3136x384 .f32 => m.view.ty.Contents (Elt F)) hmv) (f : ((arg1.slice (Rect.unit (s := S1x3136x384) ![0, 0, 0] S1x3136x384.size inb_S1x3136x384_S1x3136x384_0_0_0) (fun _ => rfl)).squeeze S3136x384 squeezes_S1x3136x384_S3136x384).view.ty.Contents (Elt F)))) := by
  subst hmv; exact rows_view c arg1 f

set_option maxHeartbeats 4000000 in
/-- The pieces the body's stores leave in the output block (last first), with the body's triple. -/
noncomputable def kernelRun (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g7 : Vec F S3136x1152 .bf16) :
    { L6 : List (View.Piece (Elt F) S1x3136x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg7 fullShare g7 ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} f) ∗ (∃ f, arg8.view.loc (c : Thread nD τ) ↦[arg8.view.set]{fullShare} f)
                ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0__xca_kernel i arg1 harg1 arg2 harg2 arg3 harg3 arg4 harg4 arg5 harg5 arg6 harg6 arg7 harg7 arg8 harg8 arg9 harg9 arg10 harg10) K } := by
  have key : ∀ (mv : Memref sig .tc .vmem S3136x384 .f32) (hmv : ((arg1.slice (Rect.unit (s := S1x3136x384) ![0, 0, 0] S1x3136x384.size inb_S1x3136x384_S1x3136x384_0_0_0) (fun _ => rfl)).squeeze S3136x384 squeezes_S1x3136x384_S3136x384) = mv), { L6 : List (View.Piece (Elt F) S1x3136x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg7 fullShare g7 ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} f) ∗ (∃ f, arg8.view.loc (c : Thread nD τ) ↦[arg8.view.set]{fullShare} f)
                ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0__xca_kernel i arg1 harg1 arg2 harg2 arg3 harg3 arg4 harg4 arg5 harg5 arg6 harg6 arg7 harg7 arg8 harg8 arg9 harg9 arg10 harg10) K } := by
    intro mv hmv
    refine ⟨?_, fun E K => ?run⟩
    case run =>
      simp only [cc0__xca_kernel_eq_skeleton]; unfold cc0__xca_kernel_skel
      unfold owns
      simp only [rows_view_mv c arg1 mv hmv]
      iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, HS0⟩, ⟨%d7, %f7, -, HS1⟩, ⟨%d8, %f8, -, HS2⟩, ⟨%d9, %f9, -, HS3⟩, Hk⟩
      obtain rfl := harg1.eq_unread hf0; obtain rfl := harg2.eq_unread hf1; obtain rfl := harg3.eq_unread hf2
      obtain rfl := harg4.eq_unread hf3; obtain rfl := harg5.eq_unread hf4; obtain rfl := harg7.eq_unread hf6
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]; · iexists _; iexact H5
      isplitl [HS0]; · iexists _; iexact HS0
      isplitl [HS1]; · iexists _; iexact HS1
      isplitl [HS2]; · iexists _; iexact HS2
      iexists _; iexact HS3
  exact key _ rfl

end Cert.KernelIdeal.Body

end
-- ==== Proof.LoopPieces1.lean ====
import proofs.«109037_j50328426774879_2_alg».proof.Proof.Gen.KernelIdeal.Loops
import proofs.«109037_j50328426774879_2_alg».proof.Proof.Gen.KernelIdeal.Skeleton
import Idealize.ShloMosaic.Lib.Pipeline.Value
import Idealize.ShloMosaic.Lib.ValueIdx
import Idealize.ShloMosaic.Lib.Tactic

set_option maxRecDepth 16384

noncomputable section

namespace Cert.KernelIdeal.LoopP

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (𝒱 : Variants) (c : Dev nD) (bd : Option 𝒱.V) (i : grid0.Coords)
  (arg1 : Memref sig .tc .vmem S1x3136x384 .f32) (harg1 : arg1.IsWhole)
  (arg2 : Memref sig .tc .vmem S1152x384 .f32) (harg2 : arg2.IsWhole)
  (arg3 : Memref sig .tc .vmem S8x1x1 .f32) (harg3 : arg3.IsWhole)
  (arg4 : Memref sig .tc .vmem S384x384 .f32) (harg4 : arg4.IsWhole)
  (arg5 : Memref sig .tc .vmem S384 .f32) (harg5 : arg5.IsWhole)
  (arg6 : Memref sig .tc .vmem S1x3136x384 .f32) (harg6 : arg6.IsWhole)
  (arg7 : Memref sig .tc .vmem S3136x1152 .bf16) (harg7 : arg7.IsWhole)
  (arg8 : Memref sig .tc .vmem S384x384 .bf16) (harg8 : arg8.IsWhole)
  (arg9 : Memref sig .tc .vmem S1x384 .f32) (harg9 : arg9.IsWhole)
  (arg10 : Memref sig .tc .vmem S1x384 .f32) (harg10 : arg10.IsWhole)
  (v0 : Vec F S1152x384 .f32)
  (mv_v287 : Memref sig .tc .vmem S3136x384 .f32)
  (hcanon_v287 : (arg1.slice (Rect.unit (s := S1x3136x384) ![0, 0, 0] S1x3136x384.size inb_S1x3136x384_S1x3136x384_0_0_0) (fun _ => rfl)).squeeze S3136x384 squeezes_S1x3136x384_S3136x384 = mv_v287)
  (X_v287 : BufTy.Contents (Elt F) mv_v287.view.ty)

local notation "TRIP" => trip_k0_t1 (F := F) 𝒱 c bd i arg1 harg1 arg2 harg2 arg3 harg3 arg4 harg4 arg5 harg5 arg6 harg6 arg7 harg7 arg8 harg8 arg9 harg9 arg10 harg10 v0 mv_v287 hcanon_v287 X_v287
local notation "PB" => pb_k0_t1 (F := F) 𝒱 c bd i arg1 harg1 arg2 harg2 arg3 harg3 arg4 harg4 arg5 harg5 arg6 harg6 arg7 harg7 arg8 harg8 arg9 harg9 arg10 harg10 v0 mv_v287 hcanon_v287 X_v287

/-! ## One trip's pieces

A trip of the loop over the four chunks of tokens loads the chunk's slab of 784 rows, stores the slab's product
with the weights at the chunk's rows, and replaces each of the two running rows by itself plus the column sums of
squares of the query, respectively key, block of that product. -/

/-- The slab of 784 token rows that trip `k` loads. -/
abbrev slab (k : Fin k0_t1_loop.trips) : Vec F S784x384 .f32 :=
  mv_v287.view.readAt (Elt F) (Rect.unit (s := S3136x384) (k0_off1 k) S784x384.size (k0_off1_inb k)).toLoadRect X_v287

/-- The rows of the kept product that trip `k` writes. -/
abbrev rows (k : Fin k0_t1_loop.trips) : Rect S3136x1152 :=
  Rect.unit (s := S3136x1152) (k0_off2 k) S784x1152.size (k0_off2_inb k)

/-- The whole of a running row. -/
abbrev whole1 : Rect S1x384 := Rect.unit (s := S1x384) ![0, 0] S1x384.size inb_S1x384_S1x384_0_0

theorem trip7 (k : Fin k0_t1_loop.trips) (f7 : BufTy.Contents (Elt F) arg7.view.ty)
    (f9 : BufTy.Contents (Elt F) arg9.view.ty) (f10 : BufTy.Contents (Elt F) arg10.view.ty) :
    (TRIP k).1 f7 f9 f10 = [⟨rows k, k0_pay8 v0 (slab mv_v287 X_v287 k)⟩] := by
  unfold trip_k0_t1
  dsimp only

theorem trip9 (k : Fin k0_t1_loop.trips) (f7 : BufTy.Contents (Elt F) arg7.view.ty)
    (f9 : BufTy.Contents (Elt F) arg9.view.ty) (f10 : BufTy.Contents (Elt F) arg10.view.ty) :
    (TRIP k).2.1 f7 f9 f10
      = [⟨whole1, k0_pay6 v0 (slab mv_v287 X_v287 k) (arg9.view.readAt (Elt F) whole1.toLoadRect f9)⟩] := by
  unfold trip_k0_t1
  dsimp only

theorem trip10 (k : Fin k0_t1_loop.trips) (f7 : BufTy.Contents (Elt F) arg7.view.ty)
    (f9 : BufTy.Contents (Elt F) arg9.view.ty) (f10 : BufTy.Contents (Elt F) arg10.view.ty) :
    (TRIP k).2.2.1 f7 f9 f10
      = [⟨whole1, k0_pay7 v0 (slab mv_v287 X_v287 k) (arg10.view.readAt (Elt F) whole1.toLoadRect f10)⟩] := by
  unfold trip_k0_t1
  dsimp only

theorem trips_eq : k0_t1_loop.trips = 4 := by decide

end Cert.KernelIdeal.LoopP

end
-- ==== Proof.LoopPieces2.lean ====
import proofs.«109037_j50328426774879_2_alg».proof.Proof.Gen.KernelIdeal.Loops
import proofs.«109037_j50328426774879_2_alg».proof.Proof.Gen.KernelIdeal.Skeleton
import Idealize.ShloMosaic.Lib.Pipeline.Value
import Idealize.ShloMosaic.Lib.ValueIdx
import Idealize.ShloMosaic.Lib.Tactic
import proofs.«109037_j50328426774879_2_alg».proof.Proof.LoopPieces1
set_option maxRecDepth 16384

noncomputable section

namespace Cert.KernelIdeal.LoopP

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (𝒱 : Variants) (c : Dev nD) (bd : Option 𝒱.V) (i : grid0.Coords)
  (arg1 : Memref sig .tc .vmem S1x3136x384 .f32) (harg1 : arg1.IsWhole)
  (arg2 : Memref sig .tc .vmem S1152x384 .f32) (harg2 : arg2.IsWhole)
  (arg3 : Memref sig .tc .vmem S8x1x1 .f32) (harg3 : arg3.IsWhole)
  (arg4 : Memref sig .tc .vmem S384x384 .f32) (harg4 : arg4.IsWhole)
  (arg5 : Memref sig .tc .vmem S384 .f32) (harg5 : arg5.IsWhole)
  (arg6 : Memref sig .tc .vmem S1x3136x384 .f32) (harg6 : arg6.IsWhole)
  (arg7 : Memref sig .tc .vmem S3136x1152 .bf16) (harg7 : arg7.IsWhole)
  (arg8 : Memref sig .tc .vmem S384x384 .bf16) (harg8 : arg8.IsWhole)
  (arg9 : Memref sig .tc .vmem S1x384 .f32) (harg9 : arg9.IsWhole)
  (arg10 : Memref sig .tc .vmem S1x384 .f32) (harg10 : arg10.IsWhole)
  (v0 : Vec F S1152x384 .f32)
  (mv_v287 : Memref sig .tc .vmem S3136x384 .f32)
  (hcanon_v287 : (arg1.slice (Rect.unit (s := S1x3136x384) ![0, 0, 0] S1x3136x384.size inb_S1x3136x384_S1x3136x384_0_0_0) (fun _ => rfl)).squeeze S3136x384 squeezes_S1x3136x384_S3136x384 = mv_v287)
  (X_v287 : BufTy.Contents (Elt F) mv_v287.view.ty)

local notation "TRIP" => trip_k0_t1 (F := F) 𝒱 c bd i arg1 harg1 arg2 harg2 arg3 harg3 arg4 harg4 arg5 harg5 arg6 harg6 arg7 harg7 arg8 harg8 arg9 harg9 arg10 harg10 v0 mv_v287 hcanon_v287 X_v287
local notation "PB" => pb_k0_t1 (F := F) 𝒱 c bd i arg1 harg1 arg2 harg2 arg3 harg3 arg4 harg4 arg5 harg5 arg6 harg6 arg7 harg7 arg8 harg8 arg9 harg9 arg10 harg10 v0 mv_v287 hcanon_v287 X_v287

variable (G7 G7' : BufTy.Contents (Elt F) arg7.view.ty) (G9 : BufTy.Contents (Elt F) arg9.view.ty)
  (G10 : BufTy.Contents (Elt F) arg10.view.ty)

/-! ## The pieces after `n` trips

The kept product's pieces are the trips' row blocks, the last trip's first; they do not depend on what the buffer
held. A running row's pieces are whole-row stores, each payload computed from the row as the earlier trips left it. -/

/-- The row blocks of the first `n` trips, the last first. -/
def l7 : ℕ → List (View.Piece (Elt F) S3136x1152 .bf16)
  | 0 => []
  | n + 1 => if h : n < k0_t1_loop.trips then
      ⟨rows ⟨n, h⟩, k0_pay8 v0 (slab mv_v287 X_v287 ⟨n, h⟩)⟩ :: l7 n else l7 n

/-- The whole-row stores of the first `n` trips into a running row held by `arg`, the last first: trip `n` stores
    `pay` of its slab and of the row read back after the earlier trips. -/
def lrow (arg : Memref sig .tc .vmem S1x384 .f32) (pay : Vec F S784x384 .f32 → Vec F S1x384 .f32 → FVec F S1x384 .f32)
    (G : BufTy.Contents (Elt F) arg.view.ty) : ℕ → List (View.Piece (Elt F) S1x384 .f32)
  | 0 => []
  | n + 1 => if h : n < k0_t1_loop.trips then
      ⟨whole1, pay (slab mv_v287 X_v287 ⟨n, h⟩)
        (arg.view.readAt (Elt F) whole1.toLoadRect (arg.view.writes (Elt F) G (lrow arg pay G n)))⟩ :: lrow arg pay G n
    else lrow arg pay G n

theorem l7_succ (n : ℕ) (h : n < k0_t1_loop.trips) :
    l7 v0 mv_v287 X_v287 (n + 1) = ⟨rows ⟨n, h⟩, k0_pay8 v0 (slab mv_v287 X_v287 ⟨n, h⟩)⟩ :: l7 v0 mv_v287 X_v287 n := by
  rw [l7, dif_pos h]

theorem l7_succ_of_not (n : ℕ) (h : ¬n < k0_t1_loop.trips) : l7 v0 mv_v287 X_v287 (n + 1) = l7 v0 mv_v287 X_v287 n := by
  rw [l7, dif_neg h]

theorem lrow_succ (arg : Memref sig .tc .vmem S1x384 .f32) (pay : Vec F S784x384 .f32 → Vec F S1x384 .f32 → FVec F S1x384 .f32)
    (G : BufTy.Contents (Elt F) arg.view.ty) (n : ℕ) (h : n < k0_t1_loop.trips) :
    lrow mv_v287 X_v287 arg pay G (n + 1) = ⟨whole1, pay (slab mv_v287 X_v287 ⟨n, h⟩)
        (arg.view.readAt (Elt F) whole1.toLoadRect (arg.view.writes (Elt F) G (lrow mv_v287 X_v287 arg pay G n)))⟩
        :: lrow mv_v287 X_v287 arg pay G n := by
  rw [lrow, dif_pos h]

theorem lrow_succ_of_not (arg : Memref sig .tc .vmem S1x384 .f32) (pay : Vec F S784x384 .f32 → Vec F S1x384 .f32 → FVec F S1x384 .f32)
    (G : BufTy.Contents (Elt F) arg.view.ty) (n : ℕ) (h : ¬n < k0_t1_loop.trips) :
    lrow mv_v287 X_v287 arg pay G (n + 1) = lrow mv_v287 X_v287 arg pay G n := by
  rw [lrow, dif_neg h]

/-- THE PIECES THE LOOP'S INVARIANT CARRIES, in closed form. -/
theorem pb_eq (n : ℕ) :
    PB G7 G9 G10 n = (l7 v0 mv_v287 X_v287 n, lrow mv_v287 X_v287 arg9 (k0_pay6 v0) G9 n, lrow mv_v287 X_v287 arg10 (k0_pay7 v0) G10 n) := by
  induction n with
  | zero => rfl
  | succ n ih =>
    by_cases h : n < k0_t1_loop.trips
    · rw [pb_k0_t1_succ (F := F) 𝒱 c bd i arg1 harg1 arg2 harg2 arg3 harg3 arg4 harg4 arg5 harg5 arg6 harg6 arg7 harg7 arg8 harg8 arg9 harg9 arg10 harg10 v0 mv_v287 hcanon_v287 X_v287 G7 G9 G10 ⟨n, h⟩]
      dsimp only [tripL_k0_t1]
      rw [trip7, trip9, trip10, ih, l7_succ _ _ _ n h, lrow_succ _ _ _ _ _ n h, lrow_succ _ _ _ _ _ n h]
      rfl
    · rw [pb_k0_t1.eq_2]
      unfold pb_k0_t1Step
      rw [dif_neg h, ih, l7_succ_of_not _ _ _ n h, lrow_succ_of_not _ _ _ _ _ n h, lrow_succ_of_not _ _ _ _ _ n h]

/-! ## After the four trips -/

theorem trips_eq' : Scf.trips k0_t1_loop.lb k0_t1_loop.ub k0_t1_loop.st = 4 := trips_eq

/-- The four trips. -/
abbrev t0 : Fin k0_t1_loop.trips := ⟨0, by decide⟩
abbrev t1 : Fin k0_t1_loop.trips := ⟨1, by decide⟩
abbrev t2 : Fin k0_t1_loop.trips := ⟨2, by decide⟩
abbrev t3 : Fin k0_t1_loop.trips := ⟨3, by decide⟩

theorem l7_four : l7 v0 mv_v287 X_v287 4 =
    [⟨rows t3, k0_pay8 v0 (slab mv_v287 X_v287 t3)⟩, ⟨rows t2, k0_pay8 v0 (slab mv_v287 X_v287 t2)⟩,
     ⟨rows t1, k0_pay8 v0 (slab mv_v287 X_v287 t1)⟩, ⟨rows t0, k0_pay8 v0 (slab mv_v287 X_v287 t0)⟩] := by
  show l7 v0 mv_v287 X_v287 (3 + 1) = _
  rw [l7_succ _ _ _ 3 (by decide)]
  show _ :: l7 v0 mv_v287 X_v287 (2 + 1) = _
  rw [l7_succ _ _ _ 2 (by decide)]
  show _ :: _ :: l7 v0 mv_v287 X_v287 (1 + 1) = _
  rw [l7_succ _ _ _ 1 (by decide)]
  show _ :: _ :: _ :: l7 v0 mv_v287 X_v287 (0 + 1) = _
  rw [l7_succ _ _ _ 0 (by decide)]
  rfl

/-- The four row blocks tile the kept product: block `k` holds rows `784 k … 784 k + 783`. -/
theorem cover7 (y : S3136x1152.Idx) : ∃ p ∈ l7 v0 mv_v287 X_v287 4, y ∈ p.1.set := by
  rw [l7_four]
  have h0 : (y 0).val < 3136 := (y 0).isLt
  have h1 : (y 1).val < 1152 := (y 1).isLt
  have key : ∀ k : Fin k0_t1_loop.trips, 784 * k.val ≤ (y 0).val → (y 0).val < 784 * k.val + 784 → y ∈ (rows k).set := by
    intro k hlo hhi
    rw [Rect.mem_set_unit]
    intro a
    rw [k0_off2_eq]
    match a with
    | ⟨0, _⟩ => exact ⟨hlo, hhi⟩
    | ⟨1, _⟩ => exact ⟨Nat.zero_le _, by show (y 1).val < 0 + 1152; omega⟩
  by_cases c3 : 784 * 3 ≤ (y 0).val
  · exact ⟨_, List.Mem.head _, key t3 c3 (by show (y 0).val < 784 * 3 + 784; omega)⟩
  by_cases c2 : 784 * 2 ≤ (y 0).val
  · exact ⟨_, List.Mem.tail _ (List.Mem.head _), key t2 c2 (by show (y 0).val < 784 * 2 + 784; omega)⟩
  by_cases c1 : 784 * 1 ≤ (y 0).val
  · exact ⟨_, List.Mem.tail _ (List.Mem.tail _ (List.Mem.head _)), key t1 c1 (by show (y 0).val < 784 * 1 + 784; omega)⟩
  · exact ⟨_, List.Mem.tail _ (List.Mem.tail _ (List.Mem.tail _ (List.Mem.head _))),
      key t0 (by show 784 * 0 ≤ (y 0).val; omega) (by show (y 0).val < 784 * 0 + 784; omega)⟩

/-- So what the buffer reads after the four trips is determined by the pieces alone, whatever it held before. -/
theorem read7 : arg7.view.read (Elt F) (arg7.view.writes (Elt F) G7 (l7 v0 mv_v287 X_v287 4)) = View.canon (l7 v0 mv_v287 X_v287 4) :=
  View.read_writes_eq_canon _ _ _ (cover7 v0 mv_v287 X_v287)

theorem readAt7 (B : LoadRect S3136x1152) :
    arg7.view.readAt (Elt F) B (arg7.view.writes (Elt F) G7 (l7 v0 mv_v287 X_v287 4))
      = fun j => View.canon (l7 v0 mv_v287 X_v287 4) (B.idx j) :=
  funext fun j => by rw [View.readAt_apply, read7]

/-- A load of the kept product after the four trips does not see the contents the buffer started from. -/
theorem readAt7_indep (B : LoadRect S3136x1152) :
    arg7.view.readAt (Elt F) B (arg7.view.writes (Elt F) G7 (l7 v0 mv_v287 X_v287 4))
      = arg7.view.readAt (Elt F) B (arg7.view.writes (Elt F) G7' (l7 v0 mv_v287 X_v287 4)) :=
  (readAt7 arg7 v0 mv_v287 X_v287 G7 B).trans (readAt7 arg7 v0 mv_v287 X_v287 G7' B).symm

/-! ## The running rows -/

theorem hz2 : (![0, 0] : Fin 2 → Nat) = fun _ => 0 := funext fun a => by fin_cases a <;> rfl

/-- The running row after `n` trips, from the row `a0` it starts at. -/
def accRow (pay : Vec F S784x384 .f32 → Vec F S1x384 .f32 → FVec F S1x384 .f32) (a0 : Vec F S1x384 .f32) : ℕ → Vec F S1x384 .f32
  | 0 => a0
  | n + 1 => if h : n < k0_t1_loop.trips then pay (slab mv_v287 X_v287 ⟨n, h⟩) (accRow pay a0 n) else accRow pay a0 n

theorem accRow_succ (pay : Vec F S784x384 .f32 → Vec F S1x384 .f32 → FVec F S1x384 .f32) (a0 : Vec F S1x384 .f32) (n : ℕ)
    (h : n < k0_t1_loop.trips) :
    accRow mv_v287 X_v287 pay a0 (n + 1) = pay (slab mv_v287 X_v287 ⟨n, h⟩) (accRow mv_v287 X_v287 pay a0 n) := by
  rw [accRow, dif_pos h]

theorem accRow_succ_of_not (pay : Vec F S784x384 .f32 → Vec F S1x384 .f32 → FVec F S1x384 .f32) (a0 : Vec F S1x384 .f32) (n : ℕ)
    (h : ¬n < k0_t1_loop.trips) : accRow mv_v287 X_v287 pay a0 (n + 1) = accRow mv_v287 X_v287 pay a0 n := by
  rw [accRow, dif_neg h]

/-- A whole-row store, last, leaves its payload whatever the row held. -/
theorem read_whole_store (arg : Memref sig .tc .vmem S1x384 .f32) (f : BufTy.Contents (Elt F) arg.view.ty)
    (w : Vec F S1x384 .f32) (L : List (View.Piece (Elt F) S1x384 .f32)) :
    arg.view.read (Elt F) (arg.view.writes (Elt F) f (⟨whole1, w⟩ :: L)) = w :=
  (View.read_writes_eq_canon _ _ _ (fun y => ⟨⟨whole1, w⟩, List.Mem.head _, View.mem_set_unit_zero hz2 inb_S1x384_S1x384_0_0 y⟩)).trans
    (View.canon_cons_unit_zero hz2 inb_S1x384_S1x384_0_0 w L)

/-- A whole-row load reads the row. -/
theorem readAt_whole (arg : Memref sig .tc .vmem S1x384 .f32) (f : BufTy.Contents (Elt F) arg.view.ty) :
    arg.view.readAt (Elt F) whole1.toLoadRect f = arg.view.read (Elt F) f := by
  rw [View.readAt_eq_ld, View.ld_unit_zero hz2]

/-- The row after the pieces of `n` trips is the running row. -/
theorem read_lrow (arg : Memref sig .tc .vmem S1x384 .f32) (pay : Vec F S784x384 .f32 → Vec F S1x384 .f32 → FVec F S1x384 .f32)
    (G : BufTy.Contents (Elt F) arg.view.ty) (n : ℕ) :
    arg.view.read (Elt F) (arg.view.writes (Elt F) G (lrow mv_v287 X_v287 arg pay G n))
      = accRow mv_v287 X_v287 pay (arg.view.read (Elt F) G) n := by
  induction n with
  | zero => rfl
  | succ n ih =>
    by_cases h : n < k0_t1_loop.trips
    · rw [lrow_succ _ _ arg pay G n h, accRow_succ _ _ pay _ n h, read_whole_store, readAt_whole, ih]
    · rw [lrow_succ_of_not _ _ arg pay G n h, accRow_succ_of_not _ _ pay _ n h, ih]

theorem accRow_four (pay : Vec F S784x384 .f32 → Vec F S1x384 .f32 → FVec F S1x384 .f32) (a0 : Vec F S1x384 .f32) :
    accRow mv_v287 X_v287 pay a0 4
      = pay (slab mv_v287 X_v287 t3) (pay (slab mv_v287 X_v287 t2) (pay (slab mv_v287 X_v287 t1) (pay (slab mv_v287 X_v287 t0) a0))) := by
  show accRow mv_v287 X_v287 pay a0 (3 + 1) = _
  rw [accRow_succ _ _ _ _ 3 (by decide)]
  show pay _ (accRow mv_v287 X_v287 pay a0 (2 + 1)) = _
  rw [accRow_succ _ _ _ _ 2 (by decide)]
  show pay _ (pay _ (accRow mv_v287 X_v287 pay a0 (1 + 1))) = _
  rw [accRow_succ _ _ _ _ 1 (by decide)]
  show pay _ (pay _ (pay _ (accRow mv_v287 X_v287 pay a0 (0 + 1)))) = _
  rw [accRow_succ _ _ _ _ 0 (by decide)]
  rfl

/-- THE RUNNING ROW AFTER THE LOOP, loaded whole: the four trips' updates of the row the loop started from. -/
theorem readAt_row_four (arg : Memref sig .tc .vmem S1x384 .f32) (pay : Vec F S784x384 .f32 → Vec F S1x384 .f32 → FVec F S1x384 .f32)
    (G : BufTy.Contents (Elt F) arg.view.ty) :
    arg.view.readAt (Elt F) whole1.toLoadRect (arg.view.writes (Elt F) G (lrow mv_v287 X_v287 arg pay G 4))
      = pay (slab mv_v287 X_v287 t3) (pay (slab mv_v287 X_v287 t2) (pay (slab mv_v287 X_v287 t1)
          (pay (slab mv_v287 X_v287 t0) (arg.view.read (Elt F) G)))) := by
  rw [readAt_whole, read_lrow, accRow_four]

/-- The row the loop starts from after a whole-row fill is the fill. -/
theorem read_fill (arg : Memref sig .tc .vmem S1x384 .f32) (f : BufTy.Contents (Elt F) arg.view.ty) (w : Vec F S1x384 .f32) :
    arg.view.read (Elt F) (arg.view.writes (Elt F) f [⟨whole1, w⟩]) = w :=
  read_whole_store arg f w []

end Cert.KernelIdeal.LoopP

end
-- ==== Proof.IndepKI.lean ====
/-
  What the body leaves in the output block, as one function of the five input blocks; and that it does not depend
  on what the first scratch buffer held before: the four trips of the loop over the token chunks write every row of it
  before any row is read.
-/
import proofs.«109037_j50328426774879_2_alg».proof.Proof.RunKI
import proofs.«109037_j50328426774879_2_alg».proof.Proof.LoopPieces2

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One staging buffer of the output window, through which its contents are stated. -/
abbrev VO : View sig .tc .vmem S1x3136x384 .f32 := (Memref.whole cc0_stg5_0 : Memref sig .tc .vmem S1x3136x384 .f32).view

/-- The body's one store covers the output block. -/
theorem cover (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g7 : Vec F S3136x1152 .bf16) (y : S1x3136x384.Idx) :
    ∃ pc ∈ (kernelRun c i arg1 harg1 arg2 harg2 arg3 harg3 arg4 harg4 arg5 harg5 arg6 harg6 arg7 harg7 arg8 harg8 arg9 harg9 arg10 harg10 x0 x1 x2 x3 x4 g7).1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 g7).1 S1x3136x384.size (by sl_kernel_rfl) y

/-- What the run leaves in the output's staging buffer: its pieces read back over junk. -/
def outBlock (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g7 : Vec F S3136x1152 .bf16) : Vec F S1x3136x384 .f32 :=
  VO.read (Elt F) (VO.writes (Elt F) VO.junk (kernelRun c i arg1 harg1 arg2 harg2 arg3 harg3 arg4 harg4 arg5 harg5 arg6 harg6 arg7 harg7 arg8 harg8 arg9 harg9 arg10 harg10 x0 x1 x2 x3 x4 g7).1)

/-- The block does not depend on what the first scratch buffer held before the body ran: after the four trips
    every row of it is one of the trips' stores, and only those rows are read. -/
theorem outBlock_indep (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec F S1x3136x384 .f32) (x1 : Vec F S1152x384 .f32) (x2 : Vec F S8x1x1 .f32) (x3 : Vec F S384x384 .f32) (x4 : Vec F S384 .f32)
    (g g' : Vec F S3136x1152 .bf16) :
    outBlock c i arg1 harg1 arg2 harg2 arg3 harg3 arg4 harg4 arg5 harg5 arg6 harg6 arg7 harg7 arg8 harg8 arg9 harg9 arg10 harg10 x0 x1 x2 x3 x4 g = outBlock c i arg1 harg1 arg2 harg2 arg3 harg3 arg4 harg4 arg5 harg5 arg6 harg6 arg7 harg7 arg8 harg8 arg9 harg9 arg10 harg10 x0 x1 x2 x3 x4 g' := by
  unfold outBlock kernelRun
  dsimp only
  sl_unfold_words
  rw [LoopP.trips_eq']
  simp only [LoopP.pb_eq]
  simp only [LoopP.readAt7_indep arg7 _ _ _ (harg7.unread g) arg7.view.junk,
    LoopP.readAt7_indep arg7 _ _ _ (harg7.unread g') arg7.view.junk]

end Cert.KernelIdeal.Body

end
-- ==== Proof.BodyKI.lean ====
/-
  The proof data of the one pipeline and the body obligation at every grid point.

  At grid point `t` (batch entry `t`) the body finds its five input blocks in their staging buffers, runs once, and
  leaves in the output's staging buffer what its one covering store wrote: a function of the five input blocks.
  The four scratch buffers are handed over at arbitrary contents and taken back at arbitrary contents.
-/
import proofs.«109037_j50328426774879_2_alg».proof.Proof.IndepKI
import proofs.«109037_j50328426774879_2_alg».proof.Proof.Gen.KernelIdeal.Points
import proofs.«109037_j50328426774879_2_alg».proof.Proof.Gen.KernelIdeal.Launch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0 (t : Fin cfg0.N) : Memref sig .tc .vmem S1x3136x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1152x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x3136x384 .f32 := win0_5.stage (cfg0.slots t 5)
abbrev hs5 (t : Fin cfg0.N) : (ms5 t).IsWhole := hstage0_5 ((cfg0.slots t 5).cast nbuf0_5)

/-- The scratch operands: whole scoped buffers of the kernel's own. -/
abbrev scM0 : Memref sig .tc .vmem S3136x1152 .bf16 := Memref.whole cc0_scratch0
abbrev scM1 : Memref sig .tc .vmem S384x384 .bf16 := Memref.whole cc0_scratch1
abbrev scM2 : Memref sig .tc .vmem S1x384 .f32 := Memref.whole cc0_scratch2
abbrev scM3 : Memref sig .tc .vmem S1x384 .f32 := Memref.whole cc0_scratch3

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Some contents of the first scratch buffer (which ones does not matter: `outBlock_indep`). -/
def junk7 : Vec F S3136x1152 .bf16 := scM0.view.read (Elt F) scM0.view.junk

/-- What the output's staging buffer holds after the body at point `t`. -/
def outAt (c : Dev nD) (t : Fin cfg0.N) : Vec F S1x3136x384 .f32 :=
  outBlock c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) junk7

/-- The proof data: the arrays as the region finds them; after the body each input's buffer at its block and the
    output's at `outAt`; the invariant the scratch buffers at anything and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 2000000 in
/-- The body at any point: the inputs' memrefs hold their blocks; the run applies; the scratch buffers pass through
    at some contents; the output's buffer ends at the pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  unfold outAt outBlock
  iintro ⟨⟨⟨⟨%d7, HS0⟩, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ _ _ _ _ (iblk m c 0 t) (iblk m c 1 t) (iblk m c 2 t) (iblk m c 3 t) (iblk m c 4 t) d7).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, ⟨%g0, HS0⟩, ⟨%g1, HS1⟩, ⟨%g2, HS2⟩, ⟨%g3, HS3⟩⟩
  isplitl [HS0 HS1 HS2 HS3 Hg]
  · isplitr [Hg]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_of_cover _ _ _ _ _ (cover c _ _ _ _ _ _ _ _ _ _ _ _ _ _ _ _ _ _ _ _ _ _ _ _ _ _ d7)).trans
    (outBlock_indep c _ _ _ _ _ _ _ _ _ _ _ _ _ _ _ _ _ _ _ _ _ _ _ _ _ _ d7 junk7)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  Cross-covariance attention, as real-valued formulas.

  For a batch entry `b`, tokens `n < 3136`, channels `e < 384` split as 8 heads of 48:
  the tokens are projected to queries, keys and values by one weight matrix (three column blocks of 384);
  each query / key channel is scaled by the inverse of its Euclidean norm over the tokens (clamped below by `ε`);
  the 48×48 matrix of inner products over the tokens, times the head's temperature, is soft-maxed along its rows;
  the attention matrix mixes the value channels of the head, and one more matrix with a bias projects the result.

  Two arrangements of the same sums are written down: `outK` normalises the inner products AFTER summing over the
  tokens and folds the attention matrix into the projection weights before meeting the values; `outR` normalises
  each factor first and applies the attention to the values before projecting. `Algebra.lean` proves them equal.
-/
import Mathlib.Analysis.SpecialFunctions.Exp
import Mathlib.Analysis.SpecialFunctions.Sqrt

noncomputable section

namespace Cert.Xca

open Finset

/-- Channel `48 h + c`: channel `c` of head `h`. -/
def hc (h : Fin 8) (c : Fin 48) : Fin 384 := ⟨48 * h.val + c.val, by omega⟩

/-- The head of a channel, and the channel's place in its head. -/
def headOf (j : Fin 384) : Fin 8 := ⟨j.val / 48, by omega⟩
def chanOf (j : Fin 384) : Fin 48 := ⟨j.val % 48, Nat.mod_lt _ (by decide)⟩

theorem hc_headOf_chanOf (j : Fin 384) : hc (headOf j) (chanOf j) = j := by
  apply Fin.ext; simp only [hc, headOf, chanOf]; omega

theorem headOf_hc (h : Fin 8) (c : Fin 48) : headOf (hc h c) = h := by
  apply Fin.ext; simp only [hc, headOf]; omega

theorem chanOf_hc (h : Fin 8) (c : Fin 48) : chanOf (hc h c) = c := by
  apply Fin.ext; simp only [hc, chanOf]; omega

/-- Column `384 s + e` of the 1152-wide projection: `s = 0, 1, 2` for queries, keys, values. -/
def col (s : Fin 3) (e : Fin 384) : Fin 1152 := ⟨384 * s.val + e.val, by omega⟩

/-- The five argument arrays, as real numbers. -/
structure Args where
  x : Fin 32 → Fin 3136 → Fin 384 → ℝ
  w : Fin 1152 → Fin 384 → ℝ
  tmp : Fin 8 → ℝ
  pw : Fin 384 → Fin 384 → ℝ
  pb : Fin 384 → ℝ

variable (A : Args) (ε : ℝ)

/-- The projection `x · wᵀ`. -/
def qkv (b : Fin 32) (n : Fin 3136) (c : Fin 1152) : ℝ := ∑ d : Fin 384, A.x b n d * A.w c d

/-- Its query (`s = 0`), key (`s = 1`) and value (`s = 2`) blocks. -/
def proj (s : Fin 3) (b : Fin 32) (n : Fin 3136) (e : Fin 384) : ℝ := qkv A b n (col s e)

/-- The sum over the tokens of a channel's squares, and the channel's norm clamped below by `ε`. -/
def sumSq (s : Fin 3) (b : Fin 32) (e : Fin 384) : ℝ := ∑ n : Fin 3136, proj A s b n e * proj A s b n e
def norm (s : Fin 3) (b : Fin 32) (e : Fin 384) : ℝ := max (Real.sqrt (sumSq A s b e)) ε

/-- The largest entry of a row of 48. -/
def rowMax (f : Fin 48 → ℝ) : ℝ := Finset.univ.sup' Finset.univ_nonempty f

/-- The soft-max of a row of 48. -/
def softmax (f : Fin 48 → ℝ) (d : Fin 48) : ℝ :=
  Real.exp (f d - rowMax f) / ∑ d' : Fin 48, Real.exp (f d' - rowMax f)

/-! ## First arrangement: normalise after the sum over the tokens; fold the attention into the weights -/

/-- The inner products over the tokens of query channel `e₁` and key channel `e₂`. -/
def gram (b : Fin 32) (e₁ e₂ : Fin 384) : ℝ := ∑ n : Fin 3136, proj A 0 b n e₁ * proj A 1 b n e₂

def scoreK (b : Fin 32) (h : Fin 8) (c d : Fin 48) : ℝ :=
  gram A b (hc h c) (hc h d) / (norm A ε 0 b (hc h c) * norm A ε 1 b (hc h d)) * A.tmp h

def attnK (b : Fin 32) (h : Fin 8) (c d : Fin 48) : ℝ := softmax (scoreK A ε b h c) d

/-- Row `48 h + d` of the folded weights: the attention matrix of head `h`, transposed, times the head's
    columns of the projection weights. -/
def foldW (b : Fin 32) (h : Fin 8) (d : Fin 48) (e : Fin 384) : ℝ :=
  ∑ c : Fin 48, attnK A ε b h c d * A.pw e (hc h c)

def outK (b : Fin 32) (n : Fin 3136) (e : Fin 384) : ℝ :=
  (∑ h : Fin 8, ∑ d : Fin 48, proj A 2 b n (hc h d) * foldW A ε b h d e) + A.pb e

/-! ## Second arrangement: normalise each factor; attend, then project -/

def unit (s : Fin 3) (b : Fin 32) (h : Fin 8) (c : Fin 48) (n : Fin 3136) : ℝ :=
  proj A s b n (hc h c) / norm A ε s b (hc h c)

def scoreR (b : Fin 32) (h : Fin 8) (c d : Fin 48) : ℝ :=
  (∑ n : Fin 3136, unit A ε 0 b h c n * unit A ε 1 b h d n) * A.tmp h

def attnR (b : Fin 32) (h : Fin 8) (c d : Fin 48) : ℝ := softmax (scoreR A ε b h c) d

def ctx (b : Fin 32) (h : Fin 8) (c : Fin 48) (n : Fin 3136) : ℝ :=
  ∑ d : Fin 48, attnR A ε b h c d * proj A 2 b n (hc h d)

def outR (b : Fin 32) (n : Fin 3136) (e : Fin 384) : ℝ :=
  (∑ j : Fin 384, ctx A ε b (headOf j) (chanOf j) n * A.pw e j) + A.pb e

end Cert.Xca

end
-- ==== Proof.RefValue1.lean ====
/-
  The reference's value, first part: from the arguments to the normalised query and key channels.

  Each lemma reads one intermediate array of the printed reference at an index given by its coordinates and
  says which real number of the specification it holds: the projection `x · wᵀ`, its query / key / value blocks
  (through the reshape of a column `384 s + 48 h + c` into `(s, h, c)`, the transpose and the slices), the sum of
  squares over the tokens, the clamped norm, and the channel divided by its norm.
-/
import proofs.«109037_j50328426774879_2_alg».proof.Proof.Spec
import proofs.«109037_j50328426774879_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Xca.Ref

open Cert.ReferenceIdeal Cert.ReferenceIdeal.Read Idealize.ShloMosaic Idealize.ShloMosaic.ValueIdx
open scoped BigOperators

/-! ## Coercions of real numbers into the extended reals -/

/-- The coercion commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum of two numbers. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- A quotient of real numbers by a nonzero one, computed in the extended reals. -/
theorem div_coe_coe (x y : ℝ) (hy : y ≠ 0) : Ideal.div (x : EReal) (y : EReal) = ((x / y : ℝ) : EReal) := by
  rw [Ideal.div_coe hy, ← EReal.coe_mul, mul_one_div]

/-- The word of the zero the sums start from. -/
theorem zero_word : (FloatOps.ofBits (F := Ideal) .f32 0x00000000#32) = (0 : EReal) := Ideal.ofBits_zero_f32

/-- The word of minus infinity, the value the row maximum starts from. -/
theorem bot_word : (FloatOps.ofBits (F := Ideal) .f32 0xFF800000#32) = (⊥ : EReal) := by
  simp [Ideal.ofBits, Ideal.ieee]

/-! ## The index maps of the layout operations, at coordinates -/

section Idx

theorem lidx_v0 (b : Fin 32) (n : Fin 3136) (c : Fin 1152) (k : Fin 384) :
    lidx_main_v0 (ix3 b n c) k = ix3 b n k := by
  funext a; match a with | ⟨0, _⟩ => rfl | ⟨1, _⟩ => rfl | ⟨2, _⟩ => rfl

theorem ridx_v0 (b : Fin 32) (n : Fin 3136) (c : Fin 1152) (k : Fin 384) :
    ridx_main_v0 (ix3 b n c) k = ix2 c k := by
  funext a; match a with | ⟨0, _⟩ => rfl | ⟨1, _⟩ => rfl

/-- The reshape: entry `(b, n, s, h, c)` is column `384 s + 48 h + c` of row `(b, n)`. -/
theorem idx_v1 (b : Fin 32) (n : Fin 3136) (s : Fin 3) (h : Fin 8) (c : Fin 48) :
    idx_main_v1 (ix5 b n s h c) = ix3 b n (col s (hc h c)) := by
  have hb := b.isLt; have hn := n.isLt; have hs := s.isLt; have hh := h.isLt; have hc' := c.isLt
  funext a
  match a with
  | ⟨0, _⟩ => exact Fin.ext (by show ((((b.val * 3136 + n.val) * 3 + s.val) * 8 + h.val) * 48 + c.val) / 3612672 = b.val; omega)
  | ⟨1, _⟩ => exact Fin.ext (by show ((((b.val * 3136 + n.val) * 3 + s.val) * 8 + h.val) * 48 + c.val) / 1152 % 3136 = n.val; omega)
  | ⟨2, _⟩ => exact Fin.ext (by show ((((b.val * 3136 + n.val) * 3 + s.val) * 8 + h.val) * 48 + c.val) % 1152 = 384 * s.val + (48 * h.val + c.val); omega)

theorem idx_v2 (s : Fin 3) (b : Fin 32) (h : Fin 8) (c : Fin 48) (n : Fin 3136) :
    idx_main_v2 (ix5 s b h c n) = ix5 b n s h c := by
  funext a; match a with | ⟨0, _⟩ => rfl | ⟨1, _⟩ => rfl | ⟨2, _⟩ => rfl | ⟨3, _⟩ => rfl | ⟨4, _⟩ => rfl

theorem idx_v3 (b : Fin 32) (h : Fin 8) (c : Fin 48) (n : Fin 3136) :
    idx_main_v3 (ix5 (0 : Fin 1) b h c n) = ix5 (0 : Fin 3) b h c n := by
  funext a; match a with | ⟨0, _⟩ => rfl | ⟨1, _⟩ => rfl | ⟨2, _⟩ => rfl | ⟨3, _⟩ => rfl | ⟨4, _⟩ => rfl

theorem idx_v5 (b : Fin 32) (h : Fin 8) (c : Fin 48) (n : Fin 3136) :
    idx_main_v5 (ix5 (0 : Fin 1) b h c n) = ix5 (1 : Fin 3) b h c n := by
  funext a; match a with | ⟨0, _⟩ => rfl | ⟨1, _⟩ => rfl | ⟨2, _⟩ => rfl | ⟨3, _⟩ => rfl | ⟨4, _⟩ => rfl

theorem idx_v7 (b : Fin 32) (h : Fin 8) (c : Fin 48) (n : Fin 3136) :
    idx_main_v7 (ix5 (0 : Fin 1) b h c n) = ix5 (2 : Fin 3) b h c n := by
  funext a; match a with | ⟨0, _⟩ => rfl | ⟨1, _⟩ => rfl | ⟨2, _⟩ => rfl | ⟨3, _⟩ => rfl | ⟨4, _⟩ => rfl

/-- Dropping the leading unit axis. -/
theorem idx_v4 (b : Fin 32) (h : Fin 8) (c : Fin 48) (n : Fin 3136) :
    idx_main_v4 (ix4 b h c n) = ix5 (0 : Fin 1) b h c n := by
  have hb := b.isLt; have hh := h.isLt; have hc' := c.isLt; have hn := n.isLt
  funext a
  match a with
  | ⟨0, _⟩ => rfl
  | ⟨1, _⟩ => exact Fin.ext (by show (((b.val * 8 + h.val) * 48 + c.val) * 3136 + n.val) / 1204224 % 32 = b.val; omega)
  | ⟨2, _⟩ => exact Fin.ext (by show (((b.val * 8 + h.val) * 48 + c.val) * 3136 + n.val) / 150528 % 8 = h.val; omega)
  | ⟨3, _⟩ => exact Fin.ext (by show (((b.val * 8 + h.val) * 48 + c.val) * 3136 + n.val) / 3136 % 48 = c.val; omega)
  | ⟨4, _⟩ => exact Fin.ext (by show (((b.val * 8 + h.val) * 48 + c.val) * 3136 + n.val) % 3136 = n.val; omega)

theorem idx_v6 (b : Fin 32) (h : Fin 8) (c : Fin 48) (n : Fin 3136) :
    idx_main_v6 (ix4 b h c n) = ix5 (0 : Fin 1) b h c n := idx_v4 b h c n

theorem idx_v8 (b : Fin 32) (h : Fin 8) (c : Fin 48) (n : Fin 3136) :
    idx_main_v8 (ix4 b h c n) = ix5 (0 : Fin 1) b h c n := idx_v4 b h c n

end Idx

/-! ## The stages, read at coordinates -/

section Stages

variable (A : Args) (ε : ℝ)
  (x0 : (⟨S32x3136x384, .f32⟩ : BufTy).Contents (Elt Ideal)) (x1 : (⟨S1152x384, .f32⟩ : BufTy).Contents (Elt Ideal))

theorem sumSq_nonneg (s : Fin 3) (b : Fin 32) (e : Fin 384) : 0 ≤ sumSq A s b e :=
  Finset.sum_nonneg fun n _ => mul_self_nonneg _

theorem norm_pos (hε0 : 0 < ε) (s : Fin 3) (b : Fin 32) (e : Fin 384) : 0 < norm A ε s b e :=
  lt_of_lt_of_le hε0 (le_max_right _ _)

/-- The projection `x · wᵀ`. -/
theorem v0_eq (hx : ∀ b n d, x0 (ix3 b n d) = ((A.x b n d : ℝ) : EReal)) (hw : ∀ c d, x1 (ix2 c d) = ((A.w c d : ℝ) : EReal))
    (b : Fin 32) (n : Fin 3136) (c : Fin 1152) :
    val_main_v0 (F := Ideal) x0 x1 (ix3 b n c) = ((qkv A b n c : ℝ) : EReal) := by
  rw [val_main_v0_apply, qkv, coe_sum]
  refine Finset.sum_congr rfl fun k _ => ?_
  rw [lidx_v0, ridx_v0, hx, hw, EReal.coe_mul]

/-- After the reshape and the transpose: block `s`, head `h`, channel `c`, token `n`. -/
theorem v2_eq (hx : ∀ b n d, x0 (ix3 b n d) = ((A.x b n d : ℝ) : EReal)) (hw : ∀ c d, x1 (ix2 c d) = ((A.w c d : ℝ) : EReal))
    (s : Fin 3) (b : Fin 32) (h : Fin 8) (c : Fin 48) (n : Fin 3136) :
    val_main_v2 (F := Ideal) x0 x1 (ix5 s b h c n) = ((proj A s b n (hc h c) : ℝ) : EReal) := by
  rw [val_main_v2_apply, idx_v2, val_main_v1_apply, idx_v1, v0_eq A x0 x1 hx hw]
  rfl

/-! ### The query block -/

theorem v4_eq (hx : ∀ b n d, x0 (ix3 b n d) = ((A.x b n d : ℝ) : EReal)) (hw : ∀ c d, x1 (ix2 c d) = ((A.w c d : ℝ) : EReal))
    (b : Fin 32) (h : Fin 8) (c : Fin 48) (n : Fin 3136) :
    val_main_v4 (F := Ideal) x0 x1 (ix4 b h c n) = ((proj A 0 b n (hc h c) : ℝ) : EReal) := by
  rw [val_main_v4_apply, idx_v4, val_main_v3_apply, idx_v3, v2_eq A x0 x1 hx hw]

theorem v9_eq (hx : ∀ b n d, x0 (ix3 b n d) = ((A.x b n d : ℝ) : EReal)) (hw : ∀ c d, x1 (ix2 c d) = ((A.w c d : ℝ) : EReal))
    (b : Fin 32) (h : Fin 8) (c : Fin 48) (n : Fin 3136) :
    val_main_v9 (F := Ideal) x0 x1 (ix4 b h c n)
      = ((proj A 0 b n (hc h c) * proj A 0 b n (hc h c) : ℝ) : EReal) := by
  rw [val_main_v9_apply, v4_eq A x0 x1 hx hw, Ideal.mulf_def, EReal.coe_mul]

theorem idx_v10 (b : Fin 32) (h : Fin 8) (c : Fin 48) (k : Fin 3136) :
    idx_main_v10 (ix3 b h c) k = ix4 b h c k := by
  funext a; match a with | ⟨0, _⟩ => rfl | ⟨1, _⟩ => rfl | ⟨2, _⟩ => rfl | ⟨3, _⟩ => rfl

/-- The sum of the squares over the tokens. -/
theorem v10_eq (hx : ∀ b n d, x0 (ix3 b n d) = ((A.x b n d : ℝ) : EReal)) (hw : ∀ c d, x1 (ix2 c d) = ((A.w c d : ℝ) : EReal))
    (b : Fin 32) (h : Fin 8) (c : Fin 48) :
    val_main_v10 (F := Ideal) x0 x1 (ix3 b h c) = ((sumSq A 0 b (hc h c) : ℝ) : EReal) := by
  rw [val_main_v10_apply, val_main_cst_apply, zero_word, zero_add, sumSq, coe_sum]
  refine Finset.sum_congr rfl fun k _ => ?_
  rw [idx_v10, v9_eq A x0 x1 hx hw]

theorem idx_v11 (b : Fin 32) (h : Fin 8) (c : Fin 48) (z : Fin 1) :
    idx_main_v11 (ix4 b h c z) = ix3 b h c := by
  funext a; match a with | ⟨0, _⟩ => rfl | ⟨1, _⟩ => rfl | ⟨2, _⟩ => rfl

/-- Its square root: the sum is not negative. -/
theorem v12_eq (hx : ∀ b n d, x0 (ix3 b n d) = ((A.x b n d : ℝ) : EReal)) (hw : ∀ c d, x1 (ix2 c d) = ((A.w c d : ℝ) : EReal))
    (b : Fin 32) (h : Fin 8) (c : Fin 48) (z : Fin 1) :
    val_main_v12 (F := Ideal) x0 x1 (ix4 b h c z) = ((Real.sqrt (sumSq A 0 b (hc h c)) : ℝ) : EReal) := by
  rw [val_main_v12_apply, val_main_v11_apply, idx_v11, v10_eq A x0 x1 hx hw, Ideal.hostUnary_sqrt_def,
    Ideal.sqrt_coe, if_neg (not_lt.mpr (sumSq_nonneg A 0 b _))]

theorem v13_eq (hε : Ideal.ofBits .f32 0x2B8CBCCC#32 = ((ε : ℝ) : EReal)) (i : S32x8x48x1.Idx) :
    val_main_v13 (F := Ideal) i = ((ε : ℝ) : EReal) := by
  rw [val_main_v13_apply, val_main_cst_0_apply]; exact hε

/-- The norm, clamped below by `ε`. -/
theorem v14_eq (hx : ∀ b n d, x0 (ix3 b n d) = ((A.x b n d : ℝ) : EReal)) (hw : ∀ c d, x1 (ix2 c d) = ((A.w c d : ℝ) : EReal))
    (hε : Ideal.ofBits .f32 0x2B8CBCCC#32 = ((ε : ℝ) : EReal))
    (b : Fin 32) (h : Fin 8) (c : Fin 48) (z : Fin 1) :
    val_main_v14 (F := Ideal) x0 x1 (ix4 b h c z) = ((norm A ε 0 b (hc h c) : ℝ) : EReal) := by
  rw [val_main_v14_apply, v12_eq A x0 x1 hx hw, v13_eq ε hε, Ideal.maximumf_def, ← coe_max]
  rfl

theorem idx_v15 (b : Fin 32) (h : Fin 8) (c : Fin 48) (n : Fin 3136) :
    idx_main_v15 (ix4 b h c n) = ix4 b h c (0 : Fin 1) := by
  funext a; match a with | ⟨0, _⟩ => rfl | ⟨1, _⟩ => rfl | ⟨2, _⟩ => rfl | ⟨3, _⟩ => rfl

/-- The channel divided by its norm, which is at least `ε` and so not zero. -/
theorem v16_eq (hx : ∀ b n d, x0 (ix3 b n d) = ((A.x b n d : ℝ) : EReal)) (hw : ∀ c d, x1 (ix2 c d) = ((A.w c d : ℝ) : EReal))
    (hε0 : 0 < ε) (hε : Ideal.ofBits .f32 0x2B8CBCCC#32 = ((ε : ℝ) : EReal))
    (b : Fin 32) (h : Fin 8) (c : Fin 48) (n : Fin 3136) :
    val_main_v16 (F := Ideal) x0 x1 (ix4 b h c n) = ((unit A ε 0 b h c n : ℝ) : EReal) := by
  rw [val_main_v16_apply, v4_eq A x0 x1 hx hw, val_main_v15_apply, idx_v15, v14_eq A ε x0 x1 hx hw hε,
    Ideal.hostDivf_def, div_coe_coe _ _ (norm_pos A ε hε0 0 b (hc h c)).ne']
  rfl

/-! ### The key block -/

theorem v6_eq (hx : ∀ b n d, x0 (ix3 b n d) = ((A.x b n d : ℝ) : EReal)) (hw : ∀ c d, x1 (ix2 c d) = ((A.w c d : ℝ) : EReal))
    (b : Fin 32) (h : Fin 8) (c : Fin 48) (n : Fin 3136) :
    val_main_v6 (F := Ideal) x0 x1 (ix4 b h c n) = ((proj A 1 b n (hc h c) : ℝ) : EReal) := by
  rw [val_main_v6_apply, idx_v6, val_main_v5_apply, idx_v5, v2_eq A x0 x1 hx hw]

theorem v17_eq (hx : ∀ b n d, x0 (ix3 b n d) = ((A.x b n d : ℝ) : EReal)) (hw : ∀ c d, x1 (ix2 c d) = ((A.w c d : ℝ) : EReal))
    (b : Fin 32) (h : Fin 8) (c : Fin 48) (n : Fin 3136) :
    val_main_v17 (F := Ideal) x0 x1 (ix4 b h c n)
      = ((proj A 1 b n (hc h c) * proj A 1 b n (hc h c) : ℝ) : EReal) := by
  rw [val_main_v17_apply, v6_eq A x0 x1 hx hw, Ideal.mulf_def, EReal.coe_mul]

theorem idx_v18 (b : Fin 32) (h : Fin 8) (c : Fin 48) (k : Fin 3136) :
    idx_main_v18 (ix3 b h c) k = ix4 b h c k := by
  funext a; match a with | ⟨0, _⟩ => rfl | ⟨1, _⟩ => rfl | ⟨2, _⟩ => rfl | ⟨3, _⟩ => rfl

/-- The sum of the squares over the tokens. -/
theorem v18_eq (hx : ∀ b n d, x0 (ix3 b n d) = ((A.x b n d : ℝ) : EReal)) (hw : ∀ c d, x1 (ix2 c d) = ((A.w c d : ℝ) : EReal))
    (b : Fin 32) (h : Fin 8) (c : Fin 48) :
    val_main_v18 (F := Ideal) x0 x1 (ix3 b h c) = ((sumSq A 1 b (hc h c) : ℝ) : EReal) := by
  rw [val_main_v18_apply, val_main_cst_1_apply, zero_word, zero_add, sumSq, coe_sum]
  refine Finset.sum_congr rfl fun k _ => ?_
  rw [idx_v18, v17_eq A x0 x1 hx hw]

theorem idx_v19 (b : Fin 32) (h : Fin 8) (c : Fin 48) (z : Fin 1) :
    idx_main_v19 (ix4 b h c z) = ix3 b h c := by
  funext a; match a with | ⟨0, _⟩ => rfl | ⟨1, _⟩ => rfl | ⟨2, _⟩ => rfl

/-- Its square root: the sum is not negative. -/
theorem v20_eq (hx : ∀ b n d, x0 (ix3 b n d) = ((A.x b n d : ℝ) : EReal)) (hw : ∀ c d, x1 (ix2 c d) = ((A.w c d : ℝ) : EReal))
    (b : Fin 32) (h : Fin 8) (c : Fin 48) (z : Fin 1) :
    val_main_v20 (F := Ideal) x0 x1 (ix4 b h c z) = ((Real.sqrt (sumSq A 1 b (hc h c)) : ℝ) : EReal) := by
  rw [val_main_v20_apply, val_main_v19_apply, idx_v19, v18_eq A x0 x1 hx hw, Ideal.hostUnary_sqrt_def,
    Ideal.sqrt_coe, if_neg (not_lt.mpr (sumSq_nonneg A 1 b _))]

theorem v21_eq (hε : Ideal.ofBits .f32 0x2B8CBCCC#32 = ((ε : ℝ) : EReal)) (i : S32x8x48x1.Idx) :
    val_main_v21 (F := Ideal) i = ((ε : ℝ) : EReal) := by
  rw [val_main_v21_apply, val_main_cst_2_apply]; exact hε

/-- The norm, clamped below by `ε`. -/
theorem v22_eq (hx : ∀ b n d, x0 (ix3 b n d) = ((A.x b n d : ℝ) : EReal)) (hw : ∀ c d, x1 (ix2 c d) = ((A.w c d : ℝ) : EReal))
    (hε : Ideal.ofBits .f32 0x2B8CBCCC#32 = ((ε : ℝ) : EReal))
    (b : Fin 32) (h : Fin 8) (c : Fin 48) (z : Fin 1) :
    val_main_v22 (F := Ideal) x0 x1 (ix4 b h c z) = ((norm A ε 1 b (hc h c) : ℝ) : EReal) := by
  rw [val_main_v22_apply, v20_eq A x0 x1 hx hw, v21_eq ε hε, Ideal.maximumf_def, ← coe_max]
  rfl

theorem idx_v23 (b : Fin 32) (h : Fin 8) (c : Fin 48) (n : Fin 3136) :
    idx_main_v23 (ix4 b h c n) = ix4 b h c (0 : Fin 1) := by
  funext a; match a with | ⟨0, _⟩ => rfl | ⟨1, _⟩ => rfl | ⟨2, _⟩ => rfl | ⟨3, _⟩ => rfl

/-- The channel divided by its norm, which is at least `ε` and so not zero. -/
theorem v24_eq (hx : ∀ b n d, x0 (ix3 b n d) = ((A.x b n d : ℝ) : EReal)) (hw : ∀ c d, x1 (ix2 c d) = ((A.w c d : ℝ) : EReal))
    (hε0 : 0 < ε) (hε : Ideal.ofBits .f32 0x2B8CBCCC#32 = ((ε : ℝ) : EReal))
    (b : Fin 32) (h : Fin 8) (c : Fin 48) (n : Fin 3136) :
    val_main_v24 (F := Ideal) x0 x1 (ix4 b h c n) = ((unit A ε 1 b h c n : ℝ) : EReal) := by
  rw [val_main_v24_apply, v6_eq A x0 x1 hx hw, val_main_v23_apply, idx_v23, v22_eq A ε x0 x1 hx hw hε,
    Ideal.hostDivf_def, div_coe_coe _ _ (norm_pos A ε hε0 1 b (hc h c)).ne']
  rfl

/-! ### The value block -/

theorem v8_eq (hx : ∀ b n d, x0 (ix3 b n d) = ((A.x b n d : ℝ) : EReal)) (hw : ∀ c d, x1 (ix2 c d) = ((A.w c d : ℝ) : EReal))
    (b : Fin 32) (h : Fin 8) (c : Fin 48) (n : Fin 3136) :
    val_main_v8 (F := Ideal) x0 x1 (ix4 b h c n) = ((proj A 2 b n (hc h c) : ℝ) : EReal) := by
  rw [val_main_v8_apply, idx_v8, val_main_v7_apply, idx_v7, v2_eq A x0 x1 hx hw]

end Stages

end Cert.Xca.Ref

end
-- ==== Proof.RefValue2.lean ====
/-
  The reference's value, second part: from the normalised channels to the attention matrix.

  The inner products over the tokens of the normalised query and key channels, times the head's temperature, are the
  scores; a row's maximum is the fold of the maximum from minus infinity over its 48 entries, which for real entries
  is the coercion of their largest one; the exponentials of the differences are summed along the row (a positive
  sum), and their quotient by that sum is the soft-max.
-/
import proofs.«109037_j50328426774879_2_alg».proof.Proof.RefValue1

noncomputable section

namespace Cert.Xca.Ref

open Cert.ReferenceIdeal Cert.ReferenceIdeal.Gen Cert.ReferenceIdeal.Read Idealize.ShloMosaic Idealize.ShloMosaic.ValueIdx
open scoped BigOperators

/-- From minus infinity, the fold of the maximum over a nonempty set of real numbers is their largest one. -/
theorem fold_max_coe {ι : Type*} (s : Finset ι) (H : s.Nonempty) (f : ι → ℝ) :
    s.fold max (⊥ : EReal) (fun k => ((f k : ℝ) : EReal)) = ((s.sup' H f : ℝ) : EReal) := by
  induction H using Finset.Nonempty.cons_induction with
  | singleton a => rw [Finset.fold_singleton, Finset.sup'_singleton, max_eq_left bot_le]
  | cons a s ha hs ih => rw [Finset.fold_cons, ih, Finset.sup'_cons hs, coe_max]

/-! ## Index maps -/

section Idx

theorem lidx_v25 (b : Fin 32) (h : Fin 8) (c d : Fin 48) (k : Fin 3136) :
    lidx_main_v25 (ix4 b h c d) k = ix4 b h c k := by
  funext a; match a with | ⟨0, _⟩ => rfl | ⟨1, _⟩ => rfl | ⟨2, _⟩ => rfl | ⟨3, _⟩ => rfl

theorem ridx_v25 (b : Fin 32) (h : Fin 8) (c d : Fin 48) (k : Fin 3136) :
    ridx_main_v25 (ix4 b h c d) k = ix4 b h d k := by
  funext a; match a with | ⟨0, _⟩ => rfl | ⟨1, _⟩ => rfl | ⟨2, _⟩ => rfl | ⟨3, _⟩ => rfl

theorem idx_v27 (b : Fin 32) (h : Fin 8) (c d : Fin 48) :
    idx_main_v27 (ix4 b h c d) = ix4 (0 : Fin 1) h (0 : Fin 1) (0 : Fin 1) := by
  funext a; match a with | ⟨0, _⟩ => rfl | ⟨1, _⟩ => rfl | ⟨2, _⟩ => rfl | ⟨3, _⟩ => rfl

theorem idx_v26 (h : Fin 8) (z0 z1 z2 : Fin 1) :
    idx_main_v26 (ix4 z0 h z1 z2) = ix3 h (0 : Fin 1) (0 : Fin 1) := by
  funext a; match a with | ⟨0, _⟩ => rfl | ⟨1, _⟩ => rfl | ⟨2, _⟩ => rfl

/-- A row index with the entry's place `k` put back on the reduced axis. -/
theorem lift_v29 (hR : S32x8x48x48.Reduces [3] S32x8x48) (b : Fin 32) (h : Fin 8) (c : Fin 48)
    (k : Fin (S32x8x48x48.size 3)) : hR.lift (ix3 b h c) k = ix4 b h c (⟨k.val, k.isLt⟩ : Fin 48) := by
  funext a; apply Fin.ext
  fin_cases a <;> rfl

theorem idx_v32 (b : Fin 32) (h : Fin 8) (c : Fin 48) (z : Fin 1) :
    idx_main_v32 (ix4 b h c z) = ix3 b h c := by
  funext a; match a with | ⟨0, _⟩ => rfl | ⟨1, _⟩ => rfl | ⟨2, _⟩ => rfl

theorem idx_v33 (b : Fin 32) (h : Fin 8) (c d : Fin 48) :
    idx_main_v33 (ix4 b h c d) = ix4 b h c (0 : Fin 1) := by
  funext a; match a with | ⟨0, _⟩ => rfl | ⟨1, _⟩ => rfl | ⟨2, _⟩ => rfl | ⟨3, _⟩ => rfl

theorem idx_v36 (b : Fin 32) (h : Fin 8) (c : Fin 48) (k : Fin 48) :
    idx_main_v36 (ix3 b h c) k = ix4 b h c k := by
  funext a; match a with | ⟨0, _⟩ => rfl | ⟨1, _⟩ => rfl | ⟨2, _⟩ => rfl | ⟨3, _⟩ => rfl

theorem idx_v37 (b : Fin 32) (h : Fin 8) (c : Fin 48) (z : Fin 1) :
    idx_main_v37 (ix4 b h c z) = ix3 b h c := by
  funext a; match a with | ⟨0, _⟩ => rfl | ⟨1, _⟩ => rfl | ⟨2, _⟩ => rfl

theorem idx_v38 (b : Fin 32) (h : Fin 8) (c d : Fin 48) :
    idx_main_v38 (ix4 b h c d) = ix4 b h c (0 : Fin 1) := by
  funext a; match a with | ⟨0, _⟩ => rfl | ⟨1, _⟩ => rfl | ⟨2, _⟩ => rfl | ⟨3, _⟩ => rfl

end Idx

/-! ## The stages, read at coordinates -/

section Stages

variable (A : Args) (ε : ℝ)
  (x0 : (⟨S32x3136x384, .f32⟩ : BufTy).Contents (Elt Ideal)) (x1 : (⟨S1152x384, .f32⟩ : BufTy).Contents (Elt Ideal))
  (x2 : (⟨S8x1x1, .f32⟩ : BufTy).Contents (Elt Ideal))

/-- The inner products over the tokens of the normalised query and key channels. -/
theorem v25_eq (hx : ∀ b n d, x0 (ix3 b n d) = ((A.x b n d : ℝ) : EReal)) (hw : ∀ c d, x1 (ix2 c d) = ((A.w c d : ℝ) : EReal))
    (hε0 : 0 < ε) (hε : Ideal.ofBits .f32 0x2B8CBCCC#32 = ((ε : ℝ) : EReal))
    (b : Fin 32) (h : Fin 8) (c d : Fin 48) :
    val_main_v25 (F := Ideal) x0 x1 (ix4 b h c d)
      = ((∑ n : Fin 3136, unit A ε 0 b h c n * unit A ε 1 b h d n : ℝ) : EReal) := by
  rw [val_main_v25_apply, coe_sum]
  refine Finset.sum_congr rfl fun k _ => ?_
  rw [lidx_v25, ridx_v25, v16_eq A ε x0 x1 hx hw hε0 hε, v24_eq A ε x0 x1 hx hw hε0 hε, EReal.coe_mul]

/-- The head's temperature, spread over the batch and the 48 × 48 entries. -/
theorem v27_eq (ht : ∀ h, x2 (ix3 h (0 : Fin 1) (0 : Fin 1)) = ((A.tmp h : ℝ) : EReal))
    (b : Fin 32) (h : Fin 8) (c d : Fin 48) :
    val_main_v27 (F := Ideal) x2 (ix4 b h c d) = ((A.tmp h : ℝ) : EReal) := by
  rw [val_main_v27_apply, idx_v27, val_main_v26_apply, idx_v26, ht]

/-- The scores. -/
theorem v28_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c d : Fin 48) :
    val_main_v28 (F := Ideal) x0 x1 x2 (ix4 b h c d) = ((scoreR A ε b h c d : ℝ) : EReal) := by
  rw [val_main_v28_apply, v25_eq A ε x0 x1 hx hw hε0 hε, v27_eq A x2 ht, Ideal.mulf_def, ← EReal.coe_mul]
  rfl

/-- A row's maximum: the fold of the maximum from minus infinity over the row's 48 scores. -/
theorem v29_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c : Fin 48) :
    val_main_v29 (F := Ideal) x0 x1 x2 (ix3 b h c) = ((rowMax (scoreR A ε b h c) : ℝ) : EReal) := by
  have hR : S32x8x48x48.Reduces [3] S32x8x48 := by decide
  unfold val_main_v29
  rw [Host.reduce_eq_fold_single FloatOps.maximumf _ _ reducesTo_S32x8x48x48_S32x8x48_d3 hR h_S_,
    val_main_cst_3_apply, bot_word]
  have hf : (val_main_v28 (F := Ideal) x0 x1 x2 ∘ hR.lift (ix3 b h c))
      = fun k : Fin 48 => ((scoreR A ε b h c k : ℝ) : EReal) :=
    funext fun k => by rw [Function.comp_apply, lift_v29, v28_eq A ε x0 x1 x2 hx hw ht hε0 hε]; rfl
  refine Eq.trans ?_ (fold_max_coe (Finset.univ : Finset (Fin 48)) Finset.univ_nonempty (scoreR A ε b h c))
  exact congrArg (fun f => Finset.fold max (⊥ : EReal) f (Finset.univ : Finset (Fin 48))) hf

theorem v30_eq (i : S32x8x48.Idx) : val_main_v30 (F := Ideal) i = (⊥ : EReal) := by
  rw [val_main_v30_apply, val_main_cst_4_apply, bot_word]

theorem v31_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c : Fin 48) :
    val_main_v31 (F := Ideal) x0 x1 x2 (ix3 b h c) = ((rowMax (scoreR A ε b h c) : ℝ) : EReal) := by
  rw [val_main_v31_apply, v30_eq, v29_eq A ε x0 x1 x2 hx hw ht hε0 hε, Ideal.maximumf_def, max_eq_right bot_le]

theorem v33_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c d : Fin 48) :
    val_main_v33 (F := Ideal) x0 x1 x2 (ix4 b h c d) = ((rowMax (scoreR A ε b h c) : ℝ) : EReal) := by
  rw [val_main_v33_apply, idx_v33, val_main_v32_apply, idx_v32, v31_eq A ε x0 x1 x2 hx hw ht hε0 hε]

/-- The exponential of a score minus its row's maximum. -/
theorem v35_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c d : Fin 48) :
    val_main_v35 (F := Ideal) x0 x1 x2 (ix4 b h c d)
      = ((Real.exp (scoreR A ε b h c d - rowMax (scoreR A ε b h c)) : ℝ) : EReal) := by
  rw [val_main_v35_apply, val_main_v34_apply, v28_eq A ε x0 x1 x2 hx hw ht hε0 hε, v33_eq A ε x0 x1 x2 hx hw ht hε0 hε, Ideal.subf_def, ← EReal.coe_sub,
    Ideal.hostUnary_exp_def, Ideal.exp_coe]

/-- The row's sum of exponentials. -/
theorem v36_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c : Fin 48) :
    val_main_v36 (F := Ideal) x0 x1 x2 (ix3 b h c)
      = ((∑ d' : Fin 48, Real.exp (scoreR A ε b h c d' - rowMax (scoreR A ε b h c)) : ℝ) : EReal) := by
  rw [val_main_v36_apply, val_main_cst_5_apply, zero_word, zero_add, coe_sum]
  refine Finset.sum_congr rfl fun k _ => ?_
  rw [idx_v36, v35_eq A ε x0 x1 x2 hx hw ht hε0 hε]

theorem v38_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c d : Fin 48) :
    val_main_v38 (F := Ideal) x0 x1 x2 (ix4 b h c d)
      = ((∑ d' : Fin 48, Real.exp (scoreR A ε b h c d' - rowMax (scoreR A ε b h c)) : ℝ) : EReal) := by
  rw [val_main_v38_apply, idx_v38, val_main_v37_apply, idx_v37, v36_eq A ε x0 x1 x2 hx hw ht hε0 hε]

/-- The attention matrix: the soft-max of a row of scores; the sum of exponentials is positive. -/
theorem v39_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c d : Fin 48) :
    val_main_v39 (F := Ideal) x0 x1 x2 (ix4 b h c d) = ((attnR A ε b h c d : ℝ) : EReal) := by
  have hpos : 0 < ∑ d' : Fin 48, Real.exp (scoreR A ε b h c d' - rowMax (scoreR A ε b h c)) :=
    Finset.sum_pos (fun _ _ => Real.exp_pos _) Finset.univ_nonempty
  rw [val_main_v39_apply, v35_eq A ε x0 x1 x2 hx hw ht hε0 hε, v38_eq A ε x0 x1 x2 hx hw ht hε0 hε, Ideal.hostDivf_def, div_coe_coe _ _ hpos.ne']
  rfl

end Stages

end Cert.Xca.Ref

end
-- ==== Proof.RefValue.lean ====
/-
  The reference's value, last part: the attention matrix meets the values, and the result is projected.

  Row `c` of a head's attention matrix mixes the head's value channels into the attended values; the transpose and the
  reshape put channel `c` of head `h` at flat channel `48 h + c`, so flat channel `j` holds the attended value of head
  `j / 48`, channel `j % 48`; the last matrix product and the bias give the output.
-/
import proofs.«109037_j50328426774879_2_alg».proof.Proof.RefValue2

noncomputable section

namespace Cert.Xca.Ref

open Cert.ReferenceIdeal Cert.ReferenceIdeal.Gen Cert.ReferenceIdeal.Read Idealize.ShloMosaic Idealize.ShloMosaic.ValueIdx
open scoped BigOperators

/-! ## Index maps -/

section Idx

theorem lidx_v40 (b : Fin 32) (h : Fin 8) (c : Fin 48) (n : Fin 3136) (k : Fin 48) :
    lidx_main_v40 (ix4 b h c n) k = ix4 b h c k := by
  funext a; match a with | ⟨0, _⟩ => rfl | ⟨1, _⟩ => rfl | ⟨2, _⟩ => rfl | ⟨3, _⟩ => rfl

theorem ridx_v40 (b : Fin 32) (h : Fin 8) (c : Fin 48) (n : Fin 3136) (k : Fin 48) :
    ridx_main_v40 (ix4 b h c n) k = ix4 b h k n := by
  funext a; match a with | ⟨0, _⟩ => rfl | ⟨1, _⟩ => rfl | ⟨2, _⟩ => rfl | ⟨3, _⟩ => rfl

theorem idx_v41 (b : Fin 32) (n : Fin 3136) (h : Fin 8) (c : Fin 48) :
    idx_main_v41 (ix4 b n h c) = ix4 b h c n := by
  funext a; match a with | ⟨0, _⟩ => rfl | ⟨1, _⟩ => rfl | ⟨2, _⟩ => rfl | ⟨3, _⟩ => rfl

/-- The reshape: flat channel `j` is channel `j % 48` of head `j / 48`. -/
theorem idx_v42 (b : Fin 32) (n : Fin 3136) (j : Fin 384) :
    idx_main_v42 (ix3 b n j) = ix4 b n (headOf j) (chanOf j) := by
  have hb := b.isLt; have hn := n.isLt; have hj := j.isLt
  funext a
  match a with
  | ⟨0, _⟩ => exact Fin.ext (by show ((b.val * 3136 + n.val) * 384 + j.val) / 1204224 = b.val; omega)
  | ⟨1, _⟩ => exact Fin.ext (by show ((b.val * 3136 + n.val) * 384 + j.val) / 384 % 3136 = n.val; omega)
  | ⟨2, _⟩ => exact Fin.ext (by show ((b.val * 3136 + n.val) * 384 + j.val) / 48 % 8 = j.val / 48; omega)
  | ⟨3, _⟩ => exact Fin.ext (by show ((b.val * 3136 + n.val) * 384 + j.val) % 48 = j.val % 48; omega)

theorem lidx_v43 (b : Fin 32) (n : Fin 3136) (e : Fin 384) (k : Fin 384) :
    lidx_main_v43 (ix3 b n e) k = ix3 b n k := by
  funext a; match a with | ⟨0, _⟩ => rfl | ⟨1, _⟩ => rfl | ⟨2, _⟩ => rfl

theorem ridx_v43 (b : Fin 32) (n : Fin 3136) (e : Fin 384) (k : Fin 384) :
    ridx_main_v43 (ix3 b n e) k = ix2 e k := by
  funext a; match a with | ⟨0, _⟩ => rfl | ⟨1, _⟩ => rfl

theorem idx_v45 (b : Fin 32) (n : Fin 3136) (e : Fin 384) :
    idx_main_v45 (ix3 b n e) = ix3 (0 : Fin 1) (0 : Fin 1) e := by
  funext a; match a with | ⟨0, _⟩ => rfl | ⟨1, _⟩ => rfl | ⟨2, _⟩ => rfl

theorem idx_v44 (z0 z1 : Fin 1) (e : Fin 384) :
    idx_main_v44 (ix3 z0 z1 e) = ix1 e := by
  funext a; match a with | ⟨0, _⟩ => rfl

end Idx

/-! ## The stages, read at coordinates -/

section Stages

variable (A : Args) (ε : ℝ)
  (x0 : (⟨S32x3136x384, .f32⟩ : BufTy).Contents (Elt Ideal)) (x1 : (⟨S1152x384, .f32⟩ : BufTy).Contents (Elt Ideal))
  (x2 : (⟨S8x1x1, .f32⟩ : BufTy).Contents (Elt Ideal)) (x3 : (⟨S384x384, .f32⟩ : BufTy).Contents (Elt Ideal))
  (x4 : (⟨S384, .f32⟩ : BufTy).Contents (Elt Ideal))

/-- The attended values: a row of the attention matrix applied to the head's value channels. -/
theorem v40_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (h : Fin 8) (c : Fin 48) (n : Fin 3136) :
    val_main_v40 (F := Ideal) x0 x1 x2 (ix4 b h c n) = ((ctx A ε b h c n : ℝ) : EReal) := by
  rw [val_main_v40_apply, ctx, coe_sum]
  refine Finset.sum_congr rfl fun k _ => ?_
  rw [lidx_v40, ridx_v40, v39_eq A ε x0 x1 x2 hx hw ht hε0 hε, v8_eq A x0 x1 hx hw, EReal.coe_mul]

/-- Back in token-major order with the heads' channels flattened. -/
theorem v42_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (b : Fin 32) (n : Fin 3136) (j : Fin 384) :
    val_main_v42 (F := Ideal) x0 x1 x2 (ix3 b n j) = ((ctx A ε b (headOf j) (chanOf j) n : ℝ) : EReal) := by
  rw [val_main_v42_apply, idx_v42, val_main_v41_apply, idx_v41, v40_eq A ε x0 x1 x2 hx hw ht hε0 hε]

/-- The output projection, before the bias. -/
theorem v43_eq (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hε0 : 0 < ε) (hε : Ideal.ofBits .f32 0x2B8CBCCC#32 = ((ε : ℝ) : EReal))
    (hp : ∀ e j, x3 (ix2 e j) = ((A.pw e j : ℝ) : EReal))
    (b : Fin 32) (n : Fin 3136) (e : Fin 384) :
    val_main_v43 (F := Ideal) x0 x1 x2 x3 (ix3 b n e)
      = ((∑ j : Fin 384, ctx A ε b (headOf j) (chanOf j) n * A.pw e j : ℝ) : EReal) := by
  rw [val_main_v43_apply, coe_sum]
  refine Finset.sum_congr rfl fun k _ => ?_
  rw [lidx_v43, ridx_v43, v42_eq A ε x0 x1 x2 hx hw ht hε0 hε, hp, EReal.coe_mul]

/-- The bias, spread over the batch and the tokens. -/
theorem v45_eq (hb : ∀ e, x4 (ix1 e) = ((A.pb e : ℝ) : EReal))
    (b : Fin 32) (n : Fin 3136) (e : Fin 384) :
    val_main_v45 (F := Ideal) x4 (ix3 b n e) = ((A.pb e : ℝ) : EReal) := by
  rw [val_main_v45_apply, idx_v45, val_main_v44_apply, idx_v44, hb]

end Stages

/-- THE REFERENCE'S VALUE: on finite arguments, every element of the reference's result is the specification's
    second arrangement of cross-covariance attention, a real number. -/
theorem ref_value (A : Args) (ε : ℝ) (hε0 : 0 < ε) (hε : Ideal.ofBits .f32 0x2B8CBCCC#32 = ((ε : ℝ) : EReal))
    (x0 : (⟨S32x3136x384, .f32⟩ : BufTy).Contents (Elt Ideal)) (x1 : (⟨S1152x384, .f32⟩ : BufTy).Contents (Elt Ideal))
    (x2 : (⟨S8x1x1, .f32⟩ : BufTy).Contents (Elt Ideal)) (x3 : (⟨S384x384, .f32⟩ : BufTy).Contents (Elt Ideal))
    (x4 : (⟨S384, .f32⟩ : BufTy).Contents (Elt Ideal))
    (hx : ∀ b n d, x0 (ix3 b n d) = ((A.x b n d : ℝ) : EReal)) (hw : ∀ c d, x1 (ix2 c d) = ((A.w c d : ℝ) : EReal))
    (ht : ∀ h, x2 (ix3 h (0 : Fin 1) (0 : Fin 1)) = ((A.tmp h : ℝ) : EReal))
    (hp : ∀ e j, x3 (ix2 e j) = ((A.pw e j : ℝ) : EReal)) (hb : ∀ e, x4 (ix1 e) = ((A.pb e : ℝ) : EReal))
    (b : Fin 32) (n : Fin 3136) (e : Fin 384) :
    val_main_v46 (F := Ideal) x0 x1 x2 x3 x4 (ix3 b n e) = ((outR A ε b n e : ℝ) : EReal) := by
  rw [val_main_v46_apply, v43_eq A ε x0 x1 x2 x3 hx hw ht hε0 hε hp, v45_eq A x4 hb, Ideal.addf_def, ← EReal.coe_add]
  rfl

end Cert.Xca.Ref

end
-- ==== Proof.Algebra.lean ====
/-
  The two arrangements of cross-covariance attention agree.

  Scores: dividing each factor of an inner product by its own norm is the same as dividing the inner product by
  the product of the norms, because the norms do not depend on the token the sum runs over.  Hence the two
  attention matrices are the same.

  Outputs: the flat sum over the 384 channels is a double sum over (head, channel in the head); after that both
  sides are triple sums of the same products `attn h c d * value h d * weight e (h, c)`, summed over `c` and `d` in
  the two possible orders.
-/
import proofs.«109037_j50328426774879_2_alg».proof.Proof.Spec
import Mathlib.Algebra.BigOperators.Fin
import Mathlib.Algebra.BigOperators.Field

noncomputable section

namespace Cert.Xca

open Finset

variable (A : Args) (ε : ℝ)

/-- The pairs (head, channel in the head) are the 384 channels. -/
def hcEquiv : Fin 8 × Fin 48 ≃ Fin 384 where
  toFun p := hc p.1 p.2
  invFun j := (headOf j, chanOf j)
  left_inv p := by
    rcases p with ⟨h, c⟩
    simp only [headOf_hc, chanOf_hc]
  right_inv j := hc_headOf_chanOf j

/-- A sum over the channels is a sum over the heads of a sum over the head's channels. -/
theorem sum_channels (f : Fin 384 → ℝ) :
    ∑ j : Fin 384, f j = ∑ h : Fin 8, ∑ c : Fin 48, f (hc h c) := by
  rw [← Fintype.sum_prod_type']
  exact (Fintype.sum_equiv hcEquiv (fun p => f (hc p.1 p.2)) f (fun _ => rfl)).symm

theorem scoreK_eq_scoreR (b : Fin 32) (h : Fin 8) (c d : Fin 48) :
    scoreK A ε b h c d = scoreR A ε b h c d := by
  unfold scoreK scoreR gram unit
  rw [Finset.sum_div]
  congr 1
  apply Finset.sum_congr rfl
  intro n _
  rw [div_mul_div_comm]

theorem attnK_eq_attnR (b : Fin 32) (h : Fin 8) (c d : Fin 48) :
    attnK A ε b h c d = attnR A ε b h c d := by
  unfold attnK attnR
  have : scoreK A ε b h c = scoreR A ε b h c := funext (scoreK_eq_scoreR A ε b h c)
  rw [this]

theorem outK_eq_outR (A : Args) (ε : ℝ) (hε : 0 < ε) (b : Fin 32) (n : Fin 3136) (e : Fin 384) :
    outK A ε b n e = outR A ε b n e := by
  unfold outK outR
  congr 1
  rw [sum_channels]
  apply Finset.sum_congr rfl
  intro h _
  simp only [headOf_hc, chanOf_hc, foldW, ctx, Finset.mul_sum, Finset.sum_mul]
  rw [Finset.sum_comm]
  apply Finset.sum_congr rfl
  intro c _
  apply Finset.sum_congr rfl
  intro d _
  rw [attnK_eq_attnR]
  ring

end Cert.Xca

end
-- ==== Proof.Finite.lean ====
/-
  From the finiteness precondition to real-valued arguments.

  The precondition is the conjunction, over the five argument arrays, of "every entry has absolute value
  below +∞". An extended real x with max x (-x) < ⊤ is neither ⊤ nor ⊥, hence the image of a real number,
  namely of its real part. Collecting the real parts of the five arrays gives the real-valued arguments
  the formulas of the specification are stated over.
-/
import proofs.«109037_j50328426774879_2_alg».proof.Proof.Spec
import proofs.«109037_j50328426774879_2_alg».proof.Pre_finite_inputs
import Idealize.ShloMosaic.Lib.ReduceAll
import Idealize.ShloMosaic.Lib.ValueIdx
import Idealize.ShloMosaic.PureOps.Ideal

noncomputable section

namespace Cert.Xca.Finite

open Idealize.ShloMosaic Idealize.ShloMosaic.ValueIdx Cert.Pre_finite_inputs

/-- The scalar shape has one index. -/
instance subsingleton_scalar_idx : Subsingleton S_.Idx := ⟨fun a b => funext fun d => d.elim0⟩

/-- The f32 pattern 0x7F800000 denotes +∞. -/
theorem inf_eq_top : Ideal.ofBits .f32 0x7F800000#32 = (⊤ : EReal) := by simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value is below +∞ is the image of its real part. -/
theorem coe_toReal_of_abs_lt_top (x : EReal) (h : max x (-x) < ⊤) : x = ((x.toReal : ℝ) : EReal) := by
  have h1 : x ≠ ⊤ := fun e => by rw [e] at h; simp at h
  have h2 : x ≠ ⊥ := fun e => by rw [e] at h; simp at h
  exact (EReal.coe_toReal h1 h2).symm

/-- One `all(|x| < +∞)`, read back: every entry of the array is the image of its real part. -/
theorem entry_real {s : Shape} {axes : List (Fin s.rank)} (x : FVec Ideal s .f32)
    (bc : S_.BroadcastsInDim s (![] : Fin 0 → Fin s.rank)) (hr : s.ReducesTo axes S_) (h0 : 0 < S_.numel)
    (h : Host.reduce IntOp.andi (cmpf .olt (Host.absf x) (broadcastInDim s ![] bc (constant S_ .f32 0x7F800000#32)))
          (constantI S_ 1 1#1) hr h0 ix0 = 1#1) (i : s.Idx) : x i = (((x i).toReal : ℝ) : EReal) := by
  have e := Host.reduce_andi_all _ _ hr h0 ix0 h i
  apply coe_toReal_of_abs_lt_top
  have e' : Ideal.cmp .olt (max (x i) (-(x i))) (Ideal.ofBits .f32 0x7F800000#32) = 1#1 := e
  rw [inf_eq_top] at e'
  unfold Ideal.cmp at e'
  rw [ofBool_eq_one] at e'
  simpa using e'

/-- THE PRECONDITION DECODED: arrays on which the finiteness predicate is all ones are the images of
    real-valued arrays, entry by entry. -/
theorem args_of_finite [Cert.Pre_finite_inputs.Facts]
    (x0 : FVec Ideal S32x3136x384 .f32) (x1 : FVec Ideal S1152x384 .f32) (x2 : FVec Ideal S8x1x1 .f32)
    (x3 : FVec Ideal S384x384 .f32) (x4 : FVec Ideal S384 .f32)
    (h : Cert.Pre_finite_inputs.fn (F := Ideal) x0 x1 x2 x3 x4 = fun _ => 1#1) :
    ∃ A : Cert.Xca.Args,
      (∀ b n d, x0 (ix3 b n d) = ((A.x b n d : ℝ) : EReal)) ∧
      (∀ c d, x1 (ix2 c d) = ((A.w c d : ℝ) : EReal)) ∧
      (∀ k, x2 (ix3 k 0 0) = ((A.tmp k : ℝ) : EReal)) ∧
      (∀ e j, x3 (ix2 e j) = ((A.pw e j : ℝ) : EReal)) ∧
      (∀ e, x4 (ix1 e) = ((A.pb e : ℝ) : EReal)) := by
  have e := congrFun h ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  refine ⟨⟨fun b n d => (x0 (ix3 b n d)).toReal, fun c d => (x1 (ix2 c d)).toReal,
           fun k => (x2 (ix3 k 0 0)).toReal, fun e j => (x3 (ix2 e j)).toReal,
           fun e => (x4 (ix1 e)).toReal⟩, ?_, ?_, ?_, ?_, ?_⟩
  · intro b n d; exact entry_real x0 _ _ _ h0 _
  · intro c d; exact entry_real x1 _ _ _ h1 _
  · intro k; exact entry_real x2 _ _ _ h2 _
  · intro e j; exact entry_real x3 _ _ _ h3 _
  · intro e; exact entry_real x4 _ _ _ h4 _

end Cert.Xca.Finite

end
-- ==== Proof.Consts.lean ====
/-
  The two float constants the kernel spells, as the extended reals their binary32 patterns denote.

  The pattern 0x2B8CBCCC has sign bit 0, exponent field 0x57 = 87 and fraction field 0x0CBCCC = 834764, so it is
  the normal number (2^23 + 834764) · 2^(87 - 127 - 23) = 9223372 / 2^63, a little under 10⁻¹²: the lower clamp of
  the norms.  The pattern 0xFF800000 has sign bit 1, an all-ones exponent and a zero fraction: minus infinity,
  the starting value of a running maximum.
-/
import Idealize.ShloMosaic.PureOps.Ideal

noncomputable section

namespace Cert.Xca

open Idealize.ShloMosaic

/-- The clamp: the dyadic rational `9223372 / 2^63`. -/
def eps : ℝ := 9223372 / 2 ^ 63

theorem eps_pos : 0 < eps := by
  unfold eps; positivity

/-- The pattern `0x2B8CBCCC` denotes `eps`. -/
theorem ofBits_eps : Ideal.ofBits .f32 0x2B8CBCCC#32 = ((eps : ℝ) : EReal) := by
  simp [Ideal.ofBits, Ideal.ieee, eps, -EReal.coe_mul]; norm_num

/-- The pattern `0xFF800000` denotes minus infinity. -/
theorem ofBits_neg_inf : Ideal.ofBits .f32 0xFF800000#32 = (⊥ : EReal) := by
  simp [Ideal.ofBits, Ideal.ieee]

end Cert.Xca

end
-- ==== Proof.KernelBlocks.lean ====
/-
  From the grid's blocks to the whole arrays: what does not depend on what the body computes.

  The grid has 32 points, one per batch entry. At point `t` the first input window's block is batch entry `t` of
  the first argument (its index map is `(t, 0, 0)` over blocks of one batch entry); the other four input windows
  are the whole arrays at every point (their index maps are zero); the output window's block is batch entry `t` of
  the result, so every index `(b, n, e)` of the result lies in the block of point `b`.
  On finite arguments the reference's function of the arguments is, index by index, the first arrangement of the
  specification at the real parts of the arguments: it is the second arrangement, and the two agree.
-/
import proofs.«109037_j50328426774879_2_alg».proof.Proof.Gen.KernelIdeal.Frame
import proofs.«109037_j50328426774879_2_alg».proof.Proof.Gen.Pre_finite_inputs
import proofs.«109037_j50328426774879_2_alg».proof.Proof.RefValue
import proofs.«109037_j50328426774879_2_alg».proof.Proof.Algebra
import proofs.«109037_j50328426774879_2_alg».proof.Proof.Finite
import proofs.«109037_j50328426774879_2_alg».proof.Proof.Consts
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The function of the arguments the result array ends holding -/

/-- The reference's function, of the kernel's own argument arrays. -/
def G (c : Dev nD) : Buf (Elt Ideal) ((c : Thread nD τ).loc main_v0) :=
  Cert.ReferenceIdeal.Read.val_main_v46 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- On finite arguments the reference's function is the first arrangement at the arguments' real parts. -/
theorem ref_outK [Cert.Pre_finite_inputs.Facts]
    (x0 : FVec Ideal S32x3136x384 .f32) (x1 : FVec Ideal S1152x384 .f32) (x2 : FVec Ideal S8x1x1 .f32)
    (x3 : FVec Ideal S384x384 .f32) (x4 : FVec Ideal S384 .f32)
    (hfin : Cert.Pre_finite_inputs.fn (F := Ideal) x0 x1 x2 x3 x4 = fun _ => 1#1) :
    ∃ A : Cert.Xca.Args,
      (∀ b n d, x0 (ix3 b n d) = ((A.x b n d : ℝ) : EReal)) ∧
      (∀ c d, x1 (ix2 c d) = ((A.w c d : ℝ) : EReal)) ∧
      (∀ k, x2 (ix3 k (0 : Fin 1) (0 : Fin 1)) = ((A.tmp k : ℝ) : EReal)) ∧
      (∀ e j, x3 (ix2 e j) = ((A.pw e j : ℝ) : EReal)) ∧
      (∀ e, x4 (ix1 e) = ((A.pb e : ℝ) : EReal)) ∧
      ∀ (b : Fin 32) (n : Fin 3136) (e : Fin 384),
        Cert.ReferenceIdeal.Read.val_main_v46 (F := Ideal) x0 x1 x2 x3 x4 (ix3 b n e)
          = ((Cert.Xca.outK A Cert.Xca.eps b n e : ℝ) : EReal) := by
  obtain ⟨A, hx, hw, ht, hp, hb⟩ := Cert.Xca.Finite.args_of_finite x0 x1 x2 x3 x4 hfin
  refine ⟨A, hx, hw, ht, hp, hb, fun b n e => ?_⟩
  rw [Cert.Xca.Ref.ref_value A Cert.Xca.eps Cert.Xca.eps_pos Cert.Xca.ofBits_eps x0 x1 x2 x3 x4 hx hw ht hp hb b n e,
    Cert.Xca.outK_eq_outR A Cert.Xca.eps Cert.Xca.eps_pos]

/-! ## The windows' index maps over the grid -/

/-- The grid point as a batch entry. -/
def batchOf (t : Fin cfg0.N) : Fin 32 := ⟨t.val, by have h := t.isLt; have e : cfg0.N = 32 := N_0; omega⟩

/-- The first input window and the output window move along the batch axis with the grid point; the other
    windows stay at block zero. Decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The input blocks read the argument arrays -/

/-- The first input block at point `t` is batch entry `t` of the first argument. -/
theorem iblk0_apply (c : Dev nD) (t : Fin cfg0.N) (n : Fin 3136) (d : Fin 384) :
    (iblk m c 0 t : Vec Ideal S1x3136x384 .f32) (ix3 (0 : Fin 1) n d)
      = (m ((c : Thread nD τ).loc main_arg0) : S32x3136x384.Idx → EReal) (ix3 (batchOf t) n d) := by
  obtain ⟨e0, e1, e2, -⟩ := idx_facts t
  have hn := n.isLt; have hd := d.isLt
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val; rw [e0]; omega
  | ⟨1, _⟩ => show win0_0.index t (1 : Fin 3) * 3136 + 1 * n.val = n.val; rw [e1]; omega
  | ⟨2, _⟩ => show win0_0.index t (2 : Fin 3) * 384 + 1 * d.val = d.val; rw [e2]; omega

/-- The weights' block is the whole array at every point. -/
theorem iblk1_apply (c : Dev nD) (t : Fin cfg0.N) (r : Fin 1152) (d : Fin 384) :
    (iblk m c 1 t : Vec Ideal S1152x384 .f32) (ix2 r d)
      = (m ((c : Thread nD τ).loc main_arg1) : S1152x384.Idx → EReal) (ix2 r d) := by
  obtain ⟨-, -, -, e0, e1, -⟩ := idx_facts t
  have hr := r.isLt; have hd := d.isLt
  unfold iblk
  rw [View.read_apply]
  show V m c main_arg1 _ = m (c.tc.loc main_arg1) _
  unfold V
  congr 1
  funext a
  apply Fin.ext
  match a with
  | ⟨0, _⟩ => show win0_1.index t (0 : Fin 2) * 1152 + 1 * r.val = r.val; rw [e0]; omega
  | ⟨1, _⟩ => show win0_1.index t (1 : Fin 2) * 384 + 1 * d.val = d.val; rw [e1]; omega

/-- The temperatures' block is the whole array at every point. -/
theorem iblk2_apply (c : Dev nD) (t : Fin cfg0.N) (h : Fin 8) :
    (iblk m c 2 t : Vec Ideal S8x1x1 .f32) (ix3 h (0 : Fin 1) (0 : Fin 1))
      = (m ((c : Thread nD τ).loc main_arg2) : S8x1x1.Idx → EReal) (ix3 h (0 : Fin 1) (0 : Fin 1)) := by
  obtain ⟨-, -, -, -, -, e0, e1, e2, -⟩ := idx_facts t
  have hh := h.isLt
  unfold iblk
  rw [View.read_apply]
  show V m c main_arg2 _ = m (c.tc.loc main_arg2) _
  unfold V
  congr 1
  funext a
  apply Fin.ext
  match a with
  | ⟨0, _⟩ => show win0_2.index t (0 : Fin 3) * 8 + 1 * h.val = h.val; rw [e0]; omega
  | ⟨1, _⟩ => show win0_2.index t (1 : Fin 3) * 1 + 1 * 0 = 0; rw [e1]
  | ⟨2, _⟩ => show win0_2.index t (2 : Fin 3) * 1 + 1 * 0 = 0; rw [e2]

/-- The projection weights' block is the whole array at every point. -/
theorem iblk3_apply (c : Dev nD) (t : Fin cfg0.N) (e j : Fin 384) :
    (iblk m c 3 t : Vec Ideal S384x384 .f32) (ix2 e j)
      = (m ((c : Thread nD τ).loc main_arg3) : S384x384.Idx → EReal) (ix2 e j) := by
  obtain ⟨-, -, -, -, -, -, -, -, e0, e1, -⟩ := idx_facts t
  have he := e.isLt; have hj := j.isLt
  unfold iblk
  rw [View.read_apply]
  show V m c main_arg3 _ = m (c.tc.loc main_arg3) _
  unfold V
  congr 1
  funext a
  apply Fin.ext
  match a with
  | ⟨0, _⟩ => show win0_3.index t (0 : Fin 2) * 384 + 1 * e.val = e.val; rw [e0]; omega
  | ⟨1, _⟩ => show win0_3.index t (1 : Fin 2) * 384 + 1 * j.val = j.val; rw [e1]; omega

/-- The bias's block is the whole array at every point. -/
theorem iblk4_apply (c : Dev nD) (t : Fin cfg0.N) (e : Fin 384) :
    (iblk m c 4 t : Vec Ideal S384 .f32) (ix1 e)
      = (m ((c : Thread nD τ).loc main_arg4) : S384.Idx → EReal) (ix1 e) := by
  obtain ⟨-, -, -, -, -, -, -, -, -, -, e0, -⟩ := idx_facts t
  have he := e.isLt
  unfold iblk
  rw [View.read_apply]
  show V m c main_arg4 _ = m (c.tc.loc main_arg4) _
  unfold V
  congr 1
  funext a
  apply Fin.ext
  match a with
  | ⟨0, _⟩ => show win0_4.index t (0 : Fin 1) * 384 + 1 * e.val = e.val; rw [e0]; omega

/-! ## The output's blocks -/

/-- Entry `(0, n, e)` of the output's block at point `t` is entry `(t, n, e)` of the result array. -/
theorem emb5 (t : Fin cfg0.N) (n : Fin 3136) (e : Fin 384) :
    ((cfg0.win 5).blk t).view.emb (ix3 (0 : Fin 1) n e) = (ix3 (batchOf t) n e : S32x3136x384.Idx) := by
  obtain ⟨-, -, -, -, -, -, -, -, -, -, -, e0, e1, e2⟩ := idx_facts t
  have hn := n.isLt; have he := e.isLt
  funext a
  apply Fin.ext
  match a with
  | ⟨0, _⟩ => show win0_5.index t (0 : Fin 3) * 1 + 1 * 0 = t.val; rw [e0]; omega
  | ⟨1, _⟩ => show win0_5.index t (1 : Fin 3) * 3136 + 1 * n.val = n.val; rw [e1]; omega
  | ⟨2, _⟩ => show win0_5.index t (2 : Fin 3) * 384 + 1 * e.val = e.val; rw [e2]; omega

/-- An index of the result is in point `t`'s block iff each coordinate is in the block's range on its axis. -/
theorem mem_blk5 (t : Fin cfg0.N) (i : S32x3136x384.Idx) :
    i ∈ ((cfg0.win 5).blk t).view.set ↔ ∀ a : Fin 3, win0_5.index t a * S1x3136x384.size a ≤ (i a).val
      ∧ (i a).val < win0_5.index t a * S1x3136x384.size a + S1x3136x384.size a := by
  show i ∈ ((View.whole main_v0).slice (win0_5.rect t)).set ↔ _
  rw [View.set_slice_whole, Rect.mem_set_unit]
  exact Iff.rfl

/-- Every index `(b, n, e)` of the result lies in the block of point `b`, which is written back. -/
theorem cover5 (i : S32x3136x384.Idx) :
    ∃ t : Fin cfg0.N, (cfg0.win 5).flush t = true ∧ i ∈ ((cfg0.win 5).blk t).view.set := by
  have h0 : (i 0).val < 32 := (i 0).isLt
  have h1 : (i 1).val < 3136 := (i 1).isLt
  have h2 : (i 2).val < 384 := (i 2).isLt
  have hN : cfg0.N = 32 := N_0
  refine ⟨⟨(i 0).val, by omega⟩, flush0_5 _, ?_⟩
  rw [mem_blk5]
  obtain ⟨-, -, -, -, -, -, -, -, -, -, -, e0, e1, e2⟩ := idx_facts ⟨(i 0).val, by omega⟩
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 3136 ≤ (i 1).val ∧ (i 1).val < win0_5.index _ (1 : Fin 3) * 3136 + 3136; rw [e1]; omega
  | ⟨2, _⟩ => show win0_5.index _ (2 : Fin 3) * 384 ≤ (i 2).val ∧ (i 2).val < win0_5.index _ (2 : Fin 3) * 384 + 384; rw [e2]; omega

end Cert.KernelIdeal.KValue

end
-- ==== Proof.HeadLib.lean ====
/-
  One head of the attention, read entry by entry at the extended reals.

  Every entry that enters a head is a real number: the inner products, the clamped norms (which are positive, so
  their product is not zero), the head's temperature and the projection weights.  Hence every stage stays real,
  and the extended-real operations agree with the real ones:
  * the score is the inner product divided by the product of the two norms, times the temperature;
  * a row's maximum, a fold of `max` from minus infinity over the row's 48 reals, is the largest of them;
  * the exponentials of the differences are positive reals, so their sum over a row is a positive real and the
    quotient is the real quotient: the row's soft-max;
  * contracting the attention matrix's first axis against a head's 48 columns of the projection weights sums
    48 products of reals: an entry of the folded weights.
-/
import proofs.«109037_j50328426774879_2_alg».proof.Proof.Spec
import proofs.«109037_j50328426774879_2_alg».proof.Proof.Consts
import proofs.«109037_j50328426774879_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Xca.Heads

open Cert.KernelIdeal Cert.KernelIdeal.Gen Idealize.ShloMosaic Idealize.ShloMosaic.ValueIdx

/-! ## Sums and maxima of real entries -/

/-- A finite sum of reals, taken in the extended reals, is the real sum. -/
theorem coe_sum {ι : Type*} (t : Finset ι) (f : ι → ℝ) :
    ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- The fold of `max` from minus infinity over finitely many reals (at least one) is the largest of them. -/
theorem fold_max_coe {ι : Type*} (t : Finset ι) (ht : t.Nonempty) (f : ι → ℝ) :
    t.fold max (⊥ : EReal) (fun k => ((f k : ℝ) : EReal)) = ((t.sup' ht f : ℝ) : EReal) := by
  induction ht using Finset.Nonempty.cons_induction with
  | singleton a => rw [Finset.fold_singleton, Finset.sup'_singleton, max_eq_left bot_le]
  | cons a t ha ht ih => rw [Finset.fold_cons, ih, Finset.sup'_cons ht, EReal.coe_strictMono.monotone.map_max]

/-! ## Layout operations at an index -/

section Layout
variable {α : Type}

/-- A 48×48 block on the diagonal of a 384×384 matrix, cut from `(o, o)`. -/
theorem slice_diag_apply (o : Nat) (X : S384x384.Idx → α) (hs : S384x384.Slices ![o, o] S48x48)
    (c d : Fin 48) (c' d' : Fin 384) (hc' : c'.val = o + c.val) (hd' : d'.val = o + d.val) :
    extractStridedSlice S48x48 ![o, o] X hs (ix2 c d) = X (ix2 c' d') :=
  extractStridedSlice_apply _ _ _ _ _ (fun ax => by
    match ax with
    | ⟨0, _⟩ => exact hc'
    | ⟨1, _⟩ => exact hd')

/-- A vector of 48 viewed as a column reads, at `(i, 0)`, the vector at `i`. -/
theorem col_cast_apply (x : S48.Idx → α) (h : S48.ShapeCasts S48x1) (i : Fin 48) (u : Fin 1) :
    shapeCast S48x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of 48 broadcast over 48 columns reads, at `(p, c)`, the column at `p`. -/
theorem col_bcast_apply (v : S48x1.Idx → α) (h : S48x1.Broadcasts S48x48) (p c : Fin 48) :
    broadcastTo S48x48 v h (ix2 p c) = v (ix2 p (0 : Fin 1)) := by
  refine broadcastTo_apply v h (ix2 p c) (ix2 p (0 : Fin 1)) fun ax => ?_
  match ax with
  | ⟨0, _⟩ =>
    show p.val = if (48 : Nat) = 1 then 0 else p.val
    rw [if_neg (by decide)]
  | ⟨1, _⟩ =>
    show 0 = if (1 : Nat) = 1 then 0 else c.val
    rw [if_pos rfl]

/-- The one entry of the `t`-th 1×1×1 block of an 8×1×1 array. -/
theorem temp_apply (t : Nat) (X : S8x1x1.Idx → α) (hs : S8x1x1.Slices ![t, 0, 0] S1x1x1)
    (hp : ∀ a, (![0, 0, 0] : Fin 3 → Nat) a < S1x1x1.size a) (h : Fin 8) (ht : h.val = t) :
    extractAt ![0, 0, 0] (extractStridedSlice S1x1x1 ![t, 0, 0] X hs) hp = X (ix3 h (0 : Fin 1) (0 : Fin 1)) := by
  unfold extractAt
  exact extractStridedSlice_apply _ _ _ _ _ (fun ax => by
    match ax with
    | ⟨0, _⟩ => exact ht.trans (Nat.add_zero _).symm
    | ⟨1, _⟩ => rfl
    | ⟨2, _⟩ => rfl)

/-- The index over row `c` with column `k` put back. -/
theorem lift_row (hr : S48x48.Reduces [1] S48) (c k : Fin 48) : hr.lift (ix1 c) k = ix2 c k :=
  funext fun a => Fin.ext (by match a with | ⟨0, _⟩ => rfl | ⟨1, _⟩ => rfl)

end Layout

theorem exp_apply {s : Shape} {φ : FTy} (a : FVec Ideal s φ) (i : s.Idx) : exp a i = Ideal.exp (a i) := rfl

/-! ## The stages of a head -/

/-- Row maxima of a real 48×48 matrix. -/
theorem rowMax_apply (S : FVec Ideal S48x48 .f32) (s : Fin 48 → Fin 48 → ℝ)
    (hS : ∀ c d, S (ix2 c d) = ((s c d : ℝ) : EReal)) (hr : S48x48.Reduces [1] S48) (hφ : FKind.Formats .f32)
    (hacc : (0xFF800000#32 : BitVec 32) = 0xFF800000#32) (c : Fin 48) :
    multiReduction (F := Ideal) .maximumf [1] S48 S 0xFF800000#32 hr hφ hacc (ix1 c) = ((rowMax (s c) : ℝ) : EReal) := by
  refine (Ideal.multiReduction_maximumf_single S _ hr hφ hacc (ix1 c)).trans ?_
  have hf : (S ∘ hr.lift (ix1 c)) = fun k : Fin 48 => ((s c k : ℝ) : EReal) :=
    funext fun k => (congrArg S (lift_row hr c k)).trans (hS c k)
  rw [hf]
  show (Finset.univ : Finset (Fin 48)).fold max (Ideal.ofBits .f32 0xFF800000#32) _ = _
  rw [ofBits_neg_inf]
  exact fold_max_coe _ _ _

/-- Row sums of a real 48×48 matrix. -/
theorem rowSum_apply (E : FVec Ideal S48x48 .f32) (e : Fin 48 → Fin 48 → ℝ)
    (hE : ∀ c d, E (ix2 c d) = ((e c d : ℝ) : EReal)) (hr : S48x48.Reduces [1] S48) (hφ : FKind.Formats .f32)
    (hacc : (0x00000000#32 : BitVec 32) = 0x00000000#32) (c : Fin 48) :
    multiReduction (F := Ideal) .add [1] S48 E 0x00000000#32 hr hφ hacc (ix1 c) = ((∑ d, e c d : ℝ) : EReal) := by
  refine (Ideal.multiReduction_add_single E _ hr hφ hacc (ix1 c)).trans ?_
  show ∑ k : Fin 48, E (hr.lift (ix1 c) k) = _
  rw [← coe_sum]
  exact Finset.sum_congr rfl fun k _ => (congrArg E (lift_row hr c k)).trans (hE c k)

/-- The exponentials of a matrix's entries minus their row's maximum. -/
def rowExp (S : FVec Ideal S48x48 .f32) : FVec Ideal S48x48 .f32 :=
  exp (subf S (broadcastTo S48x48 (shapeCast S48x1 (maximumf (broadcast S48 (Scalar.ofBits .f32 0xFF800000#32))
    (multiReduction .maximumf [1] S48 S 0xFF800000#32 reduces_S48x48_S48 (.inl rfl) rfl)) shapeCasts_S48_S48x1)
    broadcasts_S48x1_S48x48))

/-- A matrix's entries divided by their row's sum. -/
def rowNormalize (E : FVec Ideal S48x48 .f32) : FVec Ideal S48x48 .f32 :=
  divf E (broadcastTo S48x48 (shapeCast S48x1 (multiReduction .add [1] S48 E 0x00000000#32 reduces_S48x48_S48 (.inl rfl) rfl)
    shapeCasts_S48_S48x1) broadcasts_S48x1_S48x48)

/-- The first axis of a 48×48 matrix contracted against the second axis of a 384×48 one. -/
def foldRows (P : FVec Ideal S48x48 .f32) (W : FVec Ideal S384x48 .bf16) : FVec Ideal S48x384 .bf16 :=
  truncf .bf16 (matmul dot_S48x48_S384x48_S48x384_0_1_1_0_n_n none (truncf .bf16 P bitsLt_bf16_f32) W
    (constant S48x384 .f32 0x00000000#32)) bitsLt_bf16_f32

theorem rowExp_apply (S : FVec Ideal S48x48 .f32) (s : Fin 48 → Fin 48 → ℝ)
    (hS : ∀ c d, S (ix2 c d) = ((s c d : ℝ) : EReal)) (c d : Fin 48) :
    rowExp S (ix2 c d) = ((Real.exp (s c d - rowMax (s c)) : ℝ) : EReal) := by
  unfold rowExp
  rw [exp_apply, subf_apply, col_bcast_apply, col_cast_apply, maximumf_apply, broadcast_apply,
    rowMax_apply S s hS, hS]
  show Ideal.exp (_ - max (Ideal.ofBits .f32 0xFF800000#32) _) = _
  rw [ofBits_neg_inf, max_eq_right bot_le, ← EReal.coe_sub, Ideal.exp_coe]

theorem rowNormalize_apply (E : FVec Ideal S48x48 .f32) (e : Fin 48 → Fin 48 → ℝ)
    (hE : ∀ c d, E (ix2 c d) = ((e c d : ℝ) : EReal)) (hpos : ∀ c d, 0 < e c d) (c d : Fin 48) :
    rowNormalize E (ix2 c d) = ((e c d / ∑ d', e c d' : ℝ) : EReal) := by
  have hne : (∑ d', e c d') ≠ 0 := (Finset.sum_pos (fun d' _ => hpos c d') Finset.univ_nonempty).ne'
  unfold rowNormalize
  rw [divf_apply, col_bcast_apply, col_cast_apply, rowSum_apply E e hE, hE, Ideal.div_coe hne, ← EReal.coe_mul,
    mul_one_div]

/-- The operand indices of the contraction: the left operand is read at `(k, d)`, the right one at `(e, k)`. -/
theorem lhsIdx_0 (j : S48x384.Idx) (q : dot_S48x48_S384x48_S48x384_0_1_1_0_n_n.contr.Idx) :
    (dot_S48x48_S384x48_S48x384_0_1_1_0_n_n.lhsIdx j q 0).val = (q ⟨0, by decide⟩).val :=
  dot_S48x48_S384x48_S48x384_0_1_1_0_n_n.lhsIdx_val_of_single rfl j q

theorem lhsIdx_1 (j : S48x384.Idx) (q : dot_S48x48_S384x48_S48x384_0_1_1_0_n_n.contr.Idx) :
    (dot_S48x48_S384x48_S48x384_0_1_1_0_n_n.lhsIdx j q 1).val = (j 0).val := by
  unfold DotDims.lhsIdx
  rw [dif_neg (show ¬(1 : Fin S48x48.rank) ∈ dot_S48x48_S384x48_S48x384_0_1_1_0_n_n.lhsBatch by decide),
    dif_pos (show (1 : Fin S48x48.rank) ∈ dot_S48x48_S384x48_S48x384_0_1_1_0_n_n.lhsNonContracting by decide)]
  rfl

theorem rhsIdx_0 (j : S48x384.Idx) (q : dot_S48x48_S384x48_S48x384_0_1_1_0_n_n.contr.Idx) :
    (dot_S48x48_S384x48_S48x384_0_1_1_0_n_n.rhsIdx j q 0).val = (j 1).val := by
  unfold DotDims.rhsIdx
  rw [dif_neg (show ¬(0 : Fin S384x48.rank) ∈ dot_S48x48_S384x48_S48x384_0_1_1_0_n_n.rhsBatch by decide),
    dif_pos (show (0 : Fin S384x48.rank) ∈ dot_S48x48_S384x48_S48x384_0_1_1_0_n_n.rhsNonContracting by decide)]
  rfl

theorem rhsIdx_1 (j : S48x384.Idx) (q : dot_S48x48_S384x48_S48x384_0_1_1_0_n_n.contr.Idx) :
    (dot_S48x48_S384x48_S48x384_0_1_1_0_n_n.rhsIdx j q 1).val = (q ⟨0, by decide⟩).val :=
  dot_S48x48_S384x48_S48x384_0_1_1_0_n_n.rhsIdx_val_of_single rfl j q

theorem foldRows_apply (P : FVec Ideal S48x48 .f32) (W : FVec Ideal S384x48 .bf16) (p : Fin 48 → Fin 48 → ℝ)
    (w : Fin 384 → Fin 48 → ℝ) (hP : ∀ c d, P (ix2 c d) = ((p c d : ℝ) : EReal))
    (hW : ∀ e c, W (ix2 e c) = ((w e c : ℝ) : EReal)) (d : Fin 48) (e : Fin 384) :
    foldRows P W (ix2 d e) = ((∑ c, p c d * w e c : ℝ) : EReal) := by
  unfold foldRows
  rw [truncf_apply]
  show FloatOps.matmul dot_S48x48_S384x48_S48x384_0_1_1_0_n_n none _ _ _ _ = _
  rw [Ideal.matmul_constant_zero_apply,
    ← Equiv.sum_comp (contrEquiv1 dot_S48x48_S384x48_S48x384_0_1_1_0_n_n 48 rfl rfl).symm, ← coe_sum]
  refine Finset.sum_congr rfl fun k _ => ?_
  have hk := contrEquiv1_symm_val dot_S48x48_S384x48_S48x384_0_1_1_0_n_n 48 rfl rfl k
  have el : dot_S48x48_S384x48_S48x384_0_1_1_0_n_n.lhsIdx (ix2 d e)
      ((contrEquiv1 dot_S48x48_S384x48_S48x384_0_1_1_0_n_n 48 rfl rfl).symm k) = ix2 k d :=
    funext fun a => Fin.ext (by
      match a with
      | ⟨0, _⟩ => exact (lhsIdx_0 _ _).trans hk
      | ⟨1, _⟩ => exact lhsIdx_1 _ _)
  have er : dot_S48x48_S384x48_S48x384_0_1_1_0_n_n.rhsIdx (ix2 d e)
      ((contrEquiv1 dot_S48x48_S384x48_S48x384_0_1_1_0_n_n 48 rfl rfl).symm k) = ix2 e k :=
    funext fun a => Fin.ext (by
      match a with
      | ⟨0, _⟩ => exact rhsIdx_0 _ _
      | ⟨1, _⟩ => exact (rhsIdx_1 _ _).trans hk)
  rw [el, er, truncf_apply, hP, hW, EReal.coe_mul]

/-! ## A score entry -/

/-- The clamped norms are positive. -/
theorem norm_pos (A : Args) (b : Fin 32) (s : Fin 3) (e : Fin 384) : 0 < norm A eps s b e :=
  lt_of_lt_of_le eps_pos (le_max_right _ _)

/-- A real inner product divided by the product of two positive reals, times a real. -/
theorem score_entry (g n₀ n₁ τ : ℝ) (h₀ : 0 < n₀) (h₁ : 0 < n₁) :
    Ideal.div (g : EReal) ((n₀ : EReal) * (n₁ : EReal)) * (τ : EReal) = ((g / (n₀ * n₁) * τ : ℝ) : EReal) := by
  rw [← EReal.coe_mul, Ideal.div_coe (mul_pos h₀ h₁).ne', ← EReal.coe_mul, ← EReal.coe_mul, mul_one_div]

end Cert.Xca.Heads

end
-- ==== Proof.HeadRows.lean ====
/-
  The eight stored 48×384 blocks are the eight heads' rows of the folded weights.

  Head `h` works on channels `48 h` to `48 h + 47`: it cuts the 48×48 diagonal block of the matrix of inner
  products, the two 1×48 pieces of the clamped norms and the head's temperature, forms the scores, soft-maxes each
  row, and contracts the result against the head's 48 columns of the projection weights.  The eight programs
  differ only in where their text was cut, so each is first rewritten as the same composition of stages at the
  head's offset, and then read entry by entry.
-/
import proofs.«109037_j50328426774879_2_alg».proof.Proof.HeadLib

noncomputable section

namespace Cert.Xca.Heads

open Cert.KernelIdeal Cert.KernelIdeal.Gen Idealize.ShloMosaic Idealize.ShloMosaic.ValueIdx

section Stages

variable (v14 v18 : FVec Ideal S1x384 .f32) (v22 : FVec Ideal S384x384 .f32) (v23 : FVec Ideal S8x1x1 .f32)
  (v24 : FVec Ideal S384x384 .f32)

/-- The score matrix of the head whose channels start at `o` and whose temperature is entry `t`. -/
def scoreMat (o t : Nat) (hs22 : S384x384.Slices ![o, o] S48x48) (hs1 : S1x384.Slices ![0, o] S1x48)
    (hs23 : S8x1x1.Slices ![t, 0, 0] S1x1x1) : FVec Ideal S48x48 .f32 :=
  mulf (divf (extractStridedSlice S48x48 ![o, o] v22 hs22)
      (mulf (broadcastTo S48x48 (transpose S48x1 [1, 0] (extractStridedSlice S1x48 ![0, o] v14 hs1)
          transposes_S1x48_p1_0_S48x1) broadcasts_S48x1_S48x48)
        (broadcastTo S48x48 (extractStridedSlice S1x48 ![0, o] v18 hs1) broadcasts_S1x48_S48x48)))
    (broadcast S48x48 (extractAt ![0, 0, 0] (extractStridedSlice S1x1x1 ![t, 0, 0] v23 hs23) inpos_S1x1x1_p0_0_0))

/-- The head's 48×384 block: scores, soft-max by rows, contraction against the head's columns of the weights. -/
def headBlock (o t : Nat) (hs22 : S384x384.Slices ![o, o] S48x48) (hs1 : S1x384.Slices ![0, o] S1x48)
    (hs23 : S8x1x1.Slices ![t, 0, 0] S1x1x1) (hs24 : S384x384.Slices ![0, o] S384x48) : FVec Ideal S48x384 .bf16 :=
  foldRows (rowNormalize (rowExp (scoreMat v14 v18 v22 v23 o t hs22 hs1 hs23)))
    (truncf .bf16 (extractStridedSlice S384x48 ![0, o] v24 hs24) bitsLt_bf16_f32)

end Stages

variable (A : Args) (b : Fin 32) (v14 v18 : FVec Ideal S1x384 .f32) (v22 : FVec Ideal S384x384 .f32)
  (v23 : Vec Ideal S8x1x1 .f32) (v24 : Vec Ideal S384x384 .f32)
  (h14 : ∀ e : Fin 384, v14 (ix2 0 e) = ((norm A eps 0 b e : ℝ) : EReal))
  (h18 : ∀ e : Fin 384, v18 (ix2 0 e) = ((norm A eps 1 b e : ℝ) : EReal))
  (h22 : ∀ e₁ e₂ : Fin 384, v22 (ix2 e₁ e₂) = ((gram A b e₁ e₂ : ℝ) : EReal))
  (h23 : ∀ h : Fin 8, v23 (ix3 h 0 0) = ((A.tmp h : ℝ) : EReal))
  (h24 : ∀ e j : Fin 384, v24 (ix2 e j) = ((A.pw e j : ℝ) : EReal))

include h14 h18 h22 h23 in
/-- The score matrix of head `h` holds the scores of head `h`. -/
theorem scoreMat_apply (h : Fin 8) (o t : Nat) (ho : o = 48 * h.val) (ht : h.val = t)
    (hs22 : S384x384.Slices ![o, o] S48x48) (hs1 : S1x384.Slices ![0, o] S1x48)
    (hs23 : S8x1x1.Slices ![t, 0, 0] S1x1x1) (c d : Fin 48) :
    scoreMat v14 v18 v22 v23 o t hs22 hs1 hs23 (ix2 c d) = ((scoreK A eps b h c d : ℝ) : EReal) := by
  have hcv : (hc h c).val = o + c.val := by subst ho; rfl
  have hdv : (hc h d).val = o + d.val := by subst ho; rfl
  unfold scoreMat
  rw [mulf_apply, divf_apply, mulf_apply, broadcast_apply,
    slice_diag_apply o v22 hs22 c d (hc h c) (hc h d) hcv hdv, h22,
    col_bcast_apply, transpose_ix2_apply, slice2_axis1_apply o v14 hs1 0 c (hc h c) hcv, h14,
    broadcastTo_1b_ab_apply, slice2_axis1_apply o v18 hs1 0 d (hc h d) hdv, h18,
    temp_apply t v23 hs23 _ h ht, h23]
  exact score_entry _ _ _ _ (norm_pos A b 0 _) (norm_pos A b 1 _)

include h14 h18 h22 h23 h24 in
/-- The block of head `h` holds rows `48 h` to `48 h + 47` of the folded weights. -/
theorem headBlock_apply (h : Fin 8) (o t : Nat) (ho : o = 48 * h.val) (ht : h.val = t)
    (hs22 : S384x384.Slices ![o, o] S48x48) (hs1 : S1x384.Slices ![0, o] S1x48)
    (hs23 : S8x1x1.Slices ![t, 0, 0] S1x1x1) (hs24 : S384x384.Slices ![0, o] S384x48) (d : Fin 48) (e : Fin 384) :
    headBlock v14 v18 v22 v23 v24 o t hs22 hs1 hs23 hs24 (ix2 d e) = ((foldW A eps b h d e : ℝ) : EReal) := by
  unfold headBlock
  have hP : ∀ c d, rowNormalize (rowExp (scoreMat v14 v18 v22 v23 o t hs22 hs1 hs23)) (ix2 c d)
      = ((attnK A eps b h c d : ℝ) : EReal) := fun c d =>
    rowNormalize_apply _ (fun c d => Real.exp (scoreK A eps b h c d - rowMax (scoreK A eps b h c)))
      (fun c d => rowExp_apply _ (fun c d => scoreK A eps b h c d)
        (scoreMat_apply A b v14 v18 v22 v23 h14 h18 h22 h23 h o t ho ht hs22 hs1 hs23) c d)
      (fun c d => Real.exp_pos _) c d
  have hW : ∀ (e : Fin 384) (c : Fin 48),
      (truncf (F := Ideal) .bf16 (extractStridedSlice S384x48 ![0, o] v24 hs24) bitsLt_bf16_f32 :
          FVec Ideal S384x48 .bf16) (ix2 e c) = ((A.pw e (hc h c) : ℝ) : EReal) := fun e c => by
    rw [truncf_apply, slice2_axis1_apply o v24 hs24 e c (hc h c) (by subst ho; rfl), h24]
  exact foldRows_apply _ _ _ _ hP hW d e

/-! ## The eight heads -/

include h14 h18 h22 h23 h24

/-- Head 0: channels 0 to 47. -/
theorem head0 (d : Fin 48) (e : Fin 384) :
    k0_pay12 (F := Ideal) v14 v18 v22 v23 v24 (ix2 d e) = ((foldW A eps b 0 d e : ℝ) : EReal) := by
  have key : k0_pay12 (F := Ideal) v14 v18 v22 v23 v24
      = shapeCast S48x384 (headBlock v14 v18 v22 v23 v24 0 0 slices_S384x384_o0_0_S48x48 slices_S1x384_o0_0_S1x48
          slices_S8x1x1_o0_0_0_S1x1x1 slices_S384x384_o0_0_S384x48) shapeCasts_S48x384_S48x384 := rfl
  rw [key, shapeCast_self]
  exact headBlock_apply A b v14 v18 v22 v23 v24 h14 h18 h22 h23 h24 0 0 0 rfl rfl _ _ _ _ d e

/-- Head 1: channels 48 to 95. -/
theorem head1 (d : Fin 48) (e : Fin 384) :
    k0_pay14 (F := Ideal) v24 (k0_pay13 v14 v18 v22 v23) (ix2 d e) = ((foldW A eps b 1 d e : ℝ) : EReal) := by
  have key : k0_pay14 (F := Ideal) v24 (k0_pay13 v14 v18 v22 v23)
      = shapeCast S48x384 (headBlock v14 v18 v22 v23 v24 48 1 slices_S384x384_o48_48_S48x48 slices_S1x384_o0_48_S1x48
          slices_S8x1x1_o1_0_0_S1x1x1 slices_S384x384_o0_48_S384x48) shapeCasts_S48x384_S48x384 := rfl
  rw [key, shapeCast_self]
  exact headBlock_apply A b v14 v18 v22 v23 v24 h14 h18 h22 h23 h24 1 48 1 rfl rfl _ _ _ _ d e

/-- Head 2: channels 96 to 143. -/
theorem head2 (d : Fin 48) (e : Fin 384) :
    k0_pay15 (F := Ideal) v14 v18 v22 v23 v24 (ix2 d e) = ((foldW A eps b 2 d e : ℝ) : EReal) := by
  have key : k0_pay15 (F := Ideal) v14 v18 v22 v23 v24
      = shapeCast S48x384 (headBlock v14 v18 v22 v23 v24 96 2 slices_S384x384_o96_96_S48x48 slices_S1x384_o0_96_S1x48
          slices_S8x1x1_o2_0_0_S1x1x1 slices_S384x384_o0_96_S384x48) shapeCasts_S48x384_S48x384 := rfl
  rw [key, shapeCast_self]
  exact headBlock_apply A b v14 v18 v22 v23 v24 h14 h18 h22 h23 h24 2 96 2 rfl rfl _ _ _ _ d e

/-- Head 3: channels 144 to 191. -/
theorem head3 (d : Fin 48) (e : Fin 384) :
    k0_pay19 (F := Ideal) v23 v24 (k0_pay16 v22) (k0_pay17 v14) (k0_pay18 v18) (ix2 d e) = ((foldW A eps b 3 d e : ℝ) : EReal) := by
  have key : k0_pay19 (F := Ideal) v23 v24 (k0_pay16 v22) (k0_pay17 v14) (k0_pay18 v18)
      = shapeCast S48x384 (headBlock v14 v18 v22 v23 v24 144 3 slices_S384x384_o144_144_S48x48 slices_S1x384_o0_144_S1x48
          slices_S8x1x1_o3_0_0_S1x1x1 slices_S384x384_o0_144_S384x48) shapeCasts_S48x384_S48x384 := rfl
  rw [key, shapeCast_self]
  exact headBlock_apply A b v14 v18 v22 v23 v24 h14 h18 h22 h23 h24 3 144 3 rfl rfl _ _ _ _ d e

/-- Head 4: channels 192 to 239. -/
theorem head4 (d : Fin 48) (e : Fin 384) :
    k0_pay22 (F := Ideal) (k0_pay20 v14 v18 v22 v23) (k0_pay21 v24) (ix2 d e) = ((foldW A eps b 4 d e : ℝ) : EReal) := by
  have key : k0_pay22 (F := Ideal) (k0_pay20 v14 v18 v22 v23) (k0_pay21 v24)
      = shapeCast S48x384 (headBlock v14 v18 v22 v23 v24 192 4 slices_S384x384_o192_192_S48x48 slices_S1x384_o0_192_S1x48
          slices_S8x1x1_o4_0_0_S1x1x1 slices_S384x384_o0_192_S384x48) shapeCasts_S48x384_S48x384 := rfl
  rw [key, shapeCast_self]
  exact headBlock_apply A b v14 v18 v22 v23 v24 h14 h18 h22 h23 h24 4 192 4 rfl rfl _ _ _ _ d e

/-- Head 5: channels 240 to 287. -/
theorem head5 (d : Fin 48) (e : Fin 384) :
    k0_pay23 (F := Ideal) v14 v18 v22 v23 v24 (ix2 d e) = ((foldW A eps b 5 d e : ℝ) : EReal) := by
  have key : k0_pay23 (F := Ideal) v14 v18 v22 v23 v24
      = shapeCast S48x384 (headBlock v14 v18 v22 v23 v24 240 5 slices_S384x384_o240_240_S48x48 slices_S1x384_o0_240_S1x48
          slices_S8x1x1_o5_0_0_S1x1x1 slices_S384x384_o0_240_S384x48) shapeCasts_S48x384_S48x384 := rfl
  rw [key, shapeCast_self]
  exact headBlock_apply A b v14 v18 v22 v23 v24 h14 h18 h22 h23 h24 5 240 5 rfl rfl _ _ _ _ d e

/-- Head 6: channels 288 to 335. -/
theorem head6 (d : Fin 48) (e : Fin 384) :
    k0_pay25 (F := Ideal) v24 (k0_pay24 v14 v18 v22 v23) (ix2 d e) = ((foldW A eps b 6 d e : ℝ) : EReal) := by
  have key : k0_pay25 (F := Ideal) v24 (k0_pay24 v14 v18 v22 v23)
      = shapeCast S48x384 (headBlock v14 v18 v22 v23 v24 288 6 slices_S384x384_o288_288_S48x48 slices_S1x384_o0_288_S1x48
          slices_S8x1x1_o6_0_0_S1x1x1 slices_S384x384_o0_288_S384x48) shapeCasts_S48x384_S48x384 := rfl
  rw [key, shapeCast_self]
  exact headBlock_apply A b v14 v18 v22 v23 v24 h14 h18 h22 h23 h24 6 288 6 rfl rfl _ _ _ _ d e

/-- Head 7: channels 336 to 383. -/
theorem head7 (d : Fin 48) (e : Fin 384) :
    k0_pay1 (F := Ideal) (k0_pay26 v14 v18 v22 v23 v24) (ix2 d e) = ((foldW A eps b 7 d e : ℝ) : EReal) := by
  have key : k0_pay1 (F := Ideal) (k0_pay26 v14 v18 v22 v23 v24)
      = shapeCast S48x384 (headBlock v14 v18 v22 v23 v24 336 7 slices_S384x384_o336_336_S48x48 slices_S1x384_o0_336_S1x48
          slices_S8x1x1_o7_0_0_S1x1x1 slices_S384x384_o0_336_S384x48) shapeCasts_S48x384_S48x384 := rfl
  rw [key, shapeCast_self]
  exact headBlock_apply A b v14 v18 v22 v23 v24 h14 h18 h22 h23 h24 7 336 7 rfl rfl _ _ _ _ d e

end Cert.Xca.Heads

end
-- ==== Proof.Trips.lean ====
/-
  The payloads of the kernel's first phase, read at an index as real numbers.

  For one batch entry the kernel walks the 3136 tokens in four chunks of 784. For each chunk it multiplies the
  784×384 slab of tokens with the whole 1152×384 weight matrix, adds the column sums of squares of the query and
  key blocks of the product to two running rows, and keeps the product. After the four chunks it takes the
  square roots of the two rows clamped below by the small constant, multiplies the query block with the key
  block over all tokens, and finally multiplies the value block with the folded weights and adds the bias.
  When the operands are images of real numbers, each of these is the image of the corresponding real formula
  of the specification.
-/
import proofs.«109037_j50328426774879_2_alg».proof.Proof.Spec
import proofs.«109037_j50328426774879_2_alg».proof.Proof.Consts
import proofs.«109037_j50328426774879_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Xca.Trips

open Cert.KernelIdeal Cert.KernelIdeal.Gen Idealize.ShloMosaic Idealize.ShloMosaic.ValueIdx

/-- Token `784 k + r`: row `r` of chunk `k`. -/
def tok (k : Fin 4) (r : Fin 784) : Fin 3136 := ⟨784 * k.val + r.val, by omega⟩

/-- The image of a finite sum of reals is the sum of the images. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-! ## The zero fills -/

theorem pay3_apply (e : Fin 384) : k0_pay3 (F := Ideal) (ix2 0 e) = ((0 : ℝ) : EReal) := by
  unfold k0_pay3
  rw [shapeCast_self]
  show Ideal.ofBits .f32 0x00000000#32 = _
  rw [Ideal.ofBits_zero_f32]; rfl

theorem pay4_apply (e : Fin 384) : k0_pay4 (F := Ideal) (ix2 0 e) = ((0 : ℝ) : EReal) := by
  unfold k0_pay4
  rw [shapeCast_self]
  show Ideal.ofBits .f32 0x00000000#32 = _
  rw [Ideal.ofBits_zero_f32]; rfl

/-! ## The chunk's product with the weights -/

theorem d5_lhs_non (i : S784x1152.Idx) (q : dot_S784x384_S1152x384_S784x1152_1_1_0_0_n_n.contr.Idx) :
    (dot_S784x384_S1152x384_S784x1152_1_1_0_0_n_n.lhsIdx i q 0).val = (i 0).val := by
  unfold DotDims.lhsIdx
  rw [dif_neg (show ¬(0 : Fin S784x384.rank) ∈ dot_S784x384_S1152x384_S784x1152_1_1_0_0_n_n.lhsBatch by decide), dif_pos (show (0 : Fin S784x384.rank) ∈ dot_S784x384_S1152x384_S784x1152_1_1_0_0_n_n.lhsNonContracting by decide)]
  rfl
theorem d5_lhs_con (i : S784x1152.Idx) (q : dot_S784x384_S1152x384_S784x1152_1_1_0_0_n_n.contr.Idx) :
    (dot_S784x384_S1152x384_S784x1152_1_1_0_0_n_n.lhsIdx i q 1).val = (q ⟨0, by decide⟩).val :=
  dot_S784x384_S1152x384_S784x1152_1_1_0_0_n_n.lhsIdx_val_of_single rfl i q
theorem d5_rhs_non (i : S784x1152.Idx) (q : dot_S784x384_S1152x384_S784x1152_1_1_0_0_n_n.contr.Idx) :
    (dot_S784x384_S1152x384_S784x1152_1_1_0_0_n_n.rhsIdx i q 0).val = (i 1).val := by
  unfold DotDims.rhsIdx
  rw [dif_neg (show ¬(0 : Fin S1152x384.rank) ∈ dot_S784x384_S1152x384_S784x1152_1_1_0_0_n_n.rhsBatch by decide), dif_pos (show (0 : Fin S1152x384.rank) ∈ dot_S784x384_S1152x384_S784x1152_1_1_0_0_n_n.rhsNonContracting by decide)]
  rfl
theorem d5_rhs_con (i : S784x1152.Idx) (q : dot_S784x384_S1152x384_S784x1152_1_1_0_0_n_n.contr.Idx) :
    (dot_S784x384_S1152x384_S784x1152_1_1_0_0_n_n.rhsIdx i q 1).val = (q ⟨0, by decide⟩).val :=
  dot_S784x384_S1152x384_S784x1152_1_1_0_0_n_n.rhsIdx_val_of_single rfl i q

/-- Entry `(r, c)` of the chunk's product: row `r` of the slab against row `c` of the weights. -/
theorem pay5_apply (v0 : FVec Ideal S1152x384 .f32) (v289 : FVec Ideal S784x384 .f32) (r : Fin 784) (c : Fin 1152) :
    k0_pay5 (F := Ideal) v0 v289 (ix2 r c) = ∑ d : Fin 384, v289 (ix2 r d) * v0 (ix2 c d) := by
  unfold k0_pay5
  simp only [matmul]
  rw [Ideal.matmul_constant_zero_apply,
    ← Equiv.sum_comp (contrEquiv1 dot_S784x384_S1152x384_S784x1152_1_1_0_0_n_n 384 rfl rfl).symm]
  refine Finset.sum_congr rfl fun k _ => ?_
  have hk := contrEquiv1_symm_val dot_S784x384_S1152x384_S784x1152_1_1_0_0_n_n 384 rfl rfl k
  have el : dot_S784x384_S1152x384_S784x1152_1_1_0_0_n_n.lhsIdx (ix2 r c) ((contrEquiv1 dot_S784x384_S1152x384_S784x1152_1_1_0_0_n_n 384 rfl rfl).symm k) = ix2 r k :=
    funext fun a => Fin.ext (by
      match a with
      | ⟨0, _⟩ => exact d5_lhs_non _ _
      | ⟨1, _⟩ => exact (d5_lhs_con _ _).trans hk)
  have er : dot_S784x384_S1152x384_S784x1152_1_1_0_0_n_n.rhsIdx (ix2 r c) ((contrEquiv1 dot_S784x384_S1152x384_S784x1152_1_1_0_0_n_n 384 rfl rfl).symm k) = ix2 c k :=
    funext fun a => Fin.ext (by
      match a with
      | ⟨0, _⟩ => exact d5_rhs_non _ _
      | ⟨1, _⟩ => exact (d5_rhs_con _ _).trans hk)
  rw [el, er]
  rfl

/-- With real operands the product's entry is the image of the projection of token `784 k + r` on column `c`. -/
theorem pay5_real (A : Args) (b : Fin 32) (k : Fin 4)
    (v0 : FVec Ideal S1152x384 .f32) (v289 : FVec Ideal S784x384 .f32)
    (hw : ∀ c d, v0 (ix2 c d) = ((A.w c d : ℝ) : EReal))
    (hx : ∀ r d, v289 (ix2 r d) = ((A.x b (tok k r) d : ℝ) : EReal)) (r : Fin 784) (c : Fin 1152) :
    k0_pay5 (F := Ideal) v0 v289 (ix2 r c) = ((qkv A b (tok k r) c : ℝ) : EReal) := by
  rw [pay5_apply]
  unfold qkv
  rw [coe_sum]
  refine Finset.sum_congr rfl fun d _ => ?_
  rw [hx, hw, EReal.coe_mul]

/-- The chunk that is kept: the projections of the chunk's 784 tokens. -/
theorem pay8_apply (A : Args) (b : Fin 32) (k : Fin 4)
    (v0 : FVec Ideal S1152x384 .f32) (v289 : FVec Ideal S784x384 .f32)
    (hw : ∀ c d, v0 (ix2 c d) = ((A.w c d : ℝ) : EReal))
    (hx : ∀ r d, v289 (ix2 r d) = ((A.x b (tok k r) d : ℝ) : EReal)) (r : Fin 784) (c : Fin 1152) :
    k0_pay8 (F := Ideal) v0 v289 (ix2 r c) = ((qkv A b (tok k r) c : ℝ) : EReal) := by
  unfold k0_pay8
  rw [shapeCast_self]
  exact pay5_real A b k v0 v289 hw hx r c

/-! ## The running sums of squares -/

/-- The sum down the 784 rows of a 784×384 array, read at column `e`. -/
theorem colsum_apply (src : FVec Ideal S784x384 .f32) (h : S784x384.Reduces [0] S384) (hφ : FKind.Formats .f32)
    (hacc : (0x00000000#32 : BitVec 32) = 0x00000000#32) (e : Fin 384) :
    multiReduction (F := Ideal) .add [0] S384 src 0x00000000#32 h hφ hacc (ix1 e) = ∑ r : Fin 784, src (ix2 r e) :=
  (Ideal.multiReduction_add_single src 0x00000000#32 h hφ hacc (ix1 e)).trans
    (Finset.sum_congr rfl fun r _ => congrArg src (funext fun a => Fin.ext (by
      match a with
      | ⟨0, _⟩ => rfl
      | ⟨1, _⟩ => rfl)))

/-- A running row plus the column sums of squares of block `s` of the chunk's product. -/
theorem acc_step (A : Args) (b : Fin 32) (k : Fin 4) (s : Fin 3) (o : Nat) (ho : o = 384 * s.val)
    (v0 : FVec Ideal S1152x384 .f32) (v289 : FVec Ideal S784x384 .f32) (vacc : FVec Ideal S1x384 .f32) (a : Fin 384 → ℝ)
    (hw : ∀ c d, v0 (ix2 c d) = ((A.w c d : ℝ) : EReal))
    (hx : ∀ r d, v289 (ix2 r d) = ((A.x b (tok k r) d : ℝ) : EReal))
    (hacc : ∀ e, vacc (ix2 0 e) = ((a e : ℝ) : EReal))
    (hs : S784x1152.Slices ![0, o] S784x384) (hr : S784x384.Reduces [0] S384) (hφ : FKind.Formats .f32)
    (h0 : (0x00000000#32 : BitVec 32) = 0x00000000#32) (hc : S384.ShapeCasts S1x384) (e : Fin 384) :
    addf vacc (shapeCast S1x384 (multiReduction (F := Ideal) .add [0] S384
        (mulf (extractStridedSlice S784x384 ![0, o] (k0_pay5 (F := Ideal) v0 v289) hs)
              (extractStridedSlice S784x384 ![0, o] (k0_pay5 (F := Ideal) v0 v289) hs)) 0x00000000#32 hr hφ h0) hc) (ix2 0 e)
      = ((a e + ∑ r : Fin 784, proj A s b (tok k r) e * proj A s b (tok k r) e : ℝ) : EReal) := by
  rw [addf_apply, shapeCast_a_1a_apply, colsum_apply, hacc, EReal.coe_add, coe_sum]
  congr 1
  refine Finset.sum_congr rfl fun r _ => ?_
  rw [mulf_apply, slice2_axis1_apply o _ hs r e (col s e) (by subst ho; rfl), pay5_real A b k v0 v289 hw hx, EReal.coe_mul]
  rfl

theorem pay6_apply (A : Args) (b : Fin 32) (k : Fin 4)
    (v0 : FVec Ideal S1152x384 .f32) (v289 : FVec Ideal S784x384 .f32) (v294 : FVec Ideal S1x384 .f32) (a : Fin 384 → ℝ)
    (hw : ∀ c d, v0 (ix2 c d) = ((A.w c d : ℝ) : EReal))
    (hx : ∀ r d, v289 (ix2 r d) = ((A.x b (tok k r) d : ℝ) : EReal))
    (hacc : ∀ e, v294 (ix2 0 e) = ((a e : ℝ) : EReal)) (e : Fin 384) :
    k0_pay6 (F := Ideal) v0 v289 v294 (ix2 0 e)
      = ((a e + ∑ r : Fin 784, proj A 0 b (tok k r) e * proj A 0 b (tok k r) e : ℝ) : EReal) := by
  unfold k0_pay6
  rw [shapeCast_self]
  exact acc_step A b k 0 0 rfl v0 v289 v294 a hw hx hacc _ _ _ _ _ e

theorem pay7_apply (A : Args) (b : Fin 32) (k : Fin 4)
    (v0 : FVec Ideal S1152x384 .f32) (v289 : FVec Ideal S784x384 .f32) (v302 : FVec Ideal S1x384 .f32) (a : Fin 384 → ℝ)
    (hw : ∀ c d, v0 (ix2 c d) = ((A.w c d : ℝ) : EReal))
    (hx : ∀ r d, v289 (ix2 r d) = ((A.x b (tok k r) d : ℝ) : EReal))
    (hacc : ∀ e, v302 (ix2 0 e) = ((a e : ℝ) : EReal)) (e : Fin 384) :
    k0_pay7 (F := Ideal) v0 v289 v302 (ix2 0 e)
      = ((a e + ∑ r : Fin 784, proj A 1 b (tok k r) e * proj A 1 b (tok k r) e : ℝ) : EReal) := by
  unfold k0_pay7
  rw [shapeCast_self]
  exact acc_step A b k 1 384 rfl v0 v289 v302 a hw hx hacc _ _ _ _ _ e

/-! ## The four chunks make the whole sum over the tokens -/

/-- Tokens are pairs (chunk, row in the chunk). -/
def tokEquiv : Fin 4 × Fin 784 ≃ Fin 3136 where
  toFun x := tok x.1 x.2
  invFun n := (⟨n.val / 784, by have := n.isLt; omega⟩, ⟨n.val % 784, Nat.mod_lt _ (by decide)⟩)
  left_inv x := by
    obtain ⟨k, r⟩ := x
    have hk := k.isLt
    have hr := r.isLt
    refine Prod.ext (Fin.ext ?_) (Fin.ext ?_)
    · show (784 * k.val + r.val) / 784 = k.val
      omega
    · show (784 * k.val + r.val) % 784 = r.val
      omega
  right_inv n := by
    apply Fin.ext
    show 784 * (n.val / 784) + n.val % 784 = n.val
    omega

/-- A sum over the tokens, chunk by chunk. -/
theorem sum_tok (f : Fin 3136 → ℝ) : ∑ n, f n = ∑ k : Fin 4, ∑ r : Fin 784, f (tok k r) := by
  rw [← Fintype.sum_prod_type']
  exact (Fintype.sum_equiv tokEquiv (fun x => f (tok x.1 x.2)) f (fun x => rfl)).symm

/-- The sum of squares over all tokens is what the four trips add up, in their order, from zero. -/
theorem sumSq_trips (A : Args) (s : Fin 3) (b : Fin 32) (e : Fin 384) :
    sumSq A s b e =
      ((((0 + ∑ r : Fin 784, proj A s b (tok 0 r) e * proj A s b (tok 0 r) e)
          + ∑ r : Fin 784, proj A s b (tok 1 r) e * proj A s b (tok 1 r) e)
          + ∑ r : Fin 784, proj A s b (tok 2 r) e * proj A s b (tok 2 r) e)
          + ∑ r : Fin 784, proj A s b (tok 3 r) e * proj A s b (tok 3 r) e) := by
  unfold sumSq
  rw [sum_tok (fun n => proj A s b n e * proj A s b n e), Fin.sum_univ_four, zero_add]

/-! ## The clamped norms -/

theorem sumSq_nonneg (A : Args) (s : Fin 3) (b : Fin 32) (e : Fin 384) : 0 ≤ sumSq A s b e :=
  Finset.sum_nonneg fun n _ => mul_self_nonneg _

/-- The square root of a sum of squares, clamped below by the small constant. -/
theorem clamp_apply (A : Args) (s : Fin 3) (b : Fin 32) (x : EReal) (e : Fin 384) (h : x = ((sumSq A s b e : ℝ) : EReal)) :
    max (Ideal.sqrt x) (Ideal.ofBits .f32 0x2B8CBCCC#32) = ((norm A eps s b e : ℝ) : EReal) := by
  rw [h, Ideal.sqrt_coe, if_neg (not_lt.2 (sumSq_nonneg A s b e)), ofBits_eps]
  unfold norm
  exact (EReal.coe_strictMono.monotone.map_max).symm

theorem pay9_apply (A : Args) (b : Fin 32) (v11 : FVec Ideal S1x384 .f32)
    (h : ∀ e, v11 (ix2 0 e) = ((sumSq A 0 b e : ℝ) : EReal)) (e : Fin 384) :
    k0_pay9 (F := Ideal) v11 (ix2 0 e) = ((norm A eps 0 b e : ℝ) : EReal) := by
  unfold k0_pay9
  exact clamp_apply A 0 b _ e (h e)

theorem pay10_apply (A : Args) (b : Fin 32) (v15 : FVec Ideal S1x384 .f32)
    (h : ∀ e, v15 (ix2 0 e) = ((sumSq A 1 b e : ℝ) : EReal)) (e : Fin 384) :
    k0_pay10 (F := Ideal) v15 (ix2 0 e) = ((norm A eps 1 b e : ℝ) : EReal) := by
  unfold k0_pay10
  exact clamp_apply A 1 b _ e (h e)

/-! ## The inner products of query and key channels over the tokens -/

theorem d11_lhs_non (i : S384x384.Idx) (q : dot_S3136x384_S3136x384_S384x384_0_0_1_1_n_n.contr.Idx) :
    (dot_S3136x384_S3136x384_S384x384_0_0_1_1_n_n.lhsIdx i q 1).val = (i 0).val := by
  unfold DotDims.lhsIdx
  rw [dif_neg (show ¬(1 : Fin S3136x384.rank) ∈ dot_S3136x384_S3136x384_S384x384_0_0_1_1_n_n.lhsBatch by decide), dif_pos (show (1 : Fin S3136x384.rank) ∈ dot_S3136x384_S3136x384_S384x384_0_0_1_1_n_n.lhsNonContracting by decide)]
  rfl
theorem d11_lhs_con (i : S384x384.Idx) (q : dot_S3136x384_S3136x384_S384x384_0_0_1_1_n_n.contr.Idx) :
    (dot_S3136x384_S3136x384_S384x384_0_0_1_1_n_n.lhsIdx i q 0).val = (q ⟨0, by decide⟩).val :=
  dot_S3136x384_S3136x384_S384x384_0_0_1_1_n_n.lhsIdx_val_of_single rfl i q
theorem d11_rhs_non (i : S384x384.Idx) (q : dot_S3136x384_S3136x384_S384x384_0_0_1_1_n_n.contr.Idx) :
    (dot_S3136x384_S3136x384_S384x384_0_0_1_1_n_n.rhsIdx i q 1).val = (i 1).val := by
  unfold DotDims.rhsIdx
  rw [dif_neg (show ¬(1 : Fin S3136x384.rank) ∈ dot_S3136x384_S3136x384_S384x384_0_0_1_1_n_n.rhsBatch by decide), dif_pos (show (1 : Fin S3136x384.rank) ∈ dot_S3136x384_S3136x384_S384x384_0_0_1_1_n_n.rhsNonContracting by decide)]
  rfl
theorem d11_rhs_con (i : S384x384.Idx) (q : dot_S3136x384_S3136x384_S384x384_0_0_1_1_n_n.contr.Idx) :
    (dot_S3136x384_S3136x384_S384x384_0_0_1_1_n_n.rhsIdx i q 0).val = (q ⟨0, by decide⟩).val :=
  dot_S3136x384_S3136x384_S384x384_0_0_1_1_n_n.rhsIdx_val_of_single rfl i q

theorem pay11_apply (A : Args) (b : Fin 32) (v19 v20 : FVec Ideal S3136x384 .bf16)
    (hq : ∀ n e, v19 (ix2 n e) = ((proj A 0 b n e : ℝ) : EReal))
    (hk : ∀ n e, v20 (ix2 n e) = ((proj A 1 b n e : ℝ) : EReal)) (e₁ e₂ : Fin 384) :
    k0_pay11 (F := Ideal) v19 v20 (ix2 e₁ e₂) = ((gram A b e₁ e₂ : ℝ) : EReal) := by
  unfold k0_pay11
  simp only [matmul]
  rw [Ideal.matmul_constant_zero_apply,
    ← Equiv.sum_comp (contrEquiv1 dot_S3136x384_S3136x384_S384x384_0_0_1_1_n_n 3136 rfl rfl).symm]
  unfold gram
  rw [coe_sum]
  refine Finset.sum_congr rfl fun n _ => ?_
  have hn := contrEquiv1_symm_val dot_S3136x384_S3136x384_S384x384_0_0_1_1_n_n 3136 rfl rfl n
  have el : dot_S3136x384_S3136x384_S384x384_0_0_1_1_n_n.lhsIdx (ix2 e₁ e₂) ((contrEquiv1 dot_S3136x384_S3136x384_S384x384_0_0_1_1_n_n 3136 rfl rfl).symm n) = ix2 n e₁ :=
    funext fun a => Fin.ext (by
      match a with
      | ⟨0, _⟩ => exact (d11_lhs_con _ _).trans hn
      | ⟨1, _⟩ => exact d11_lhs_non _ _)
  have er : dot_S3136x384_S3136x384_S384x384_0_0_1_1_n_n.rhsIdx (ix2 e₁ e₂) ((contrEquiv1 dot_S3136x384_S3136x384_S384x384_0_0_1_1_n_n 3136 rfl rfl).symm n) = ix2 n e₂ :=
    funext fun a => Fin.ext (by
      match a with
      | ⟨0, _⟩ => exact (d11_rhs_con _ _).trans hn
      | ⟨1, _⟩ => exact d11_rhs_non _ _)
  rw [el, er, hq, hk, EReal.coe_mul]

/-! ## The values against the folded weights, plus the bias -/

theorem d2_lhs_non (i : S3136x384.Idx) (q : dot_S3136x384_S384x384_S3136x384_1_0_0_1_n_n.contr.Idx) :
    (dot_S3136x384_S384x384_S3136x384_1_0_0_1_n_n.lhsIdx i q 0).val = (i 0).val := by
  unfold DotDims.lhsIdx
  rw [dif_neg (show ¬(0 : Fin S3136x384.rank) ∈ dot_S3136x384_S384x384_S3136x384_1_0_0_1_n_n.lhsBatch by decide), dif_pos (show (0 : Fin S3136x384.rank) ∈ dot_S3136x384_S384x384_S3136x384_1_0_0_1_n_n.lhsNonContracting by decide)]
  rfl
theorem d2_lhs_con (i : S3136x384.Idx) (q : dot_S3136x384_S384x384_S3136x384_1_0_0_1_n_n.contr.Idx) :
    (dot_S3136x384_S384x384_S3136x384_1_0_0_1_n_n.lhsIdx i q 1).val = (q ⟨0, by decide⟩).val :=
  dot_S3136x384_S384x384_S3136x384_1_0_0_1_n_n.lhsIdx_val_of_single rfl i q
theorem d2_rhs_non (i : S3136x384.Idx) (q : dot_S3136x384_S384x384_S3136x384_1_0_0_1_n_n.contr.Idx) :
    (dot_S3136x384_S384x384_S3136x384_1_0_0_1_n_n.rhsIdx i q 1).val = (i 1).val := by
  unfold DotDims.rhsIdx
  rw [dif_neg (show ¬(1 : Fin S384x384.rank) ∈ dot_S3136x384_S384x384_S3136x384_1_0_0_1_n_n.rhsBatch by decide), dif_pos (show (1 : Fin S384x384.rank) ∈ dot_S3136x384_S384x384_S3136x384_1_0_0_1_n_n.rhsNonContracting by decide)]
  rfl
theorem d2_rhs_con (i : S3136x384.Idx) (q : dot_S3136x384_S384x384_S3136x384_1_0_0_1_n_n.contr.Idx) :
    (dot_S3136x384_S384x384_S3136x384_1_0_0_1_n_n.rhsIdx i q 0).val = (q ⟨0, by decide⟩).val :=
  dot_S3136x384_S384x384_S3136x384_1_0_0_1_n_n.rhsIdx_val_of_single rfl i q

theorem pay2_apply (A : Args) (b : Fin 32) (W : Fin 384 → Fin 384 → ℝ)
    (v21 : FVec Ideal S3136x384 .bf16) (v273 : FVec Ideal S384x384 .bf16) (v275 : FVec Ideal S384 .f32)
    (hv : ∀ n j, v21 (ix2 n j) = ((proj A 2 b n j : ℝ) : EReal))
    (hW : ∀ j e, v273 (ix2 j e) = ((W j e : ℝ) : EReal))
    (hb : ∀ e, v275 (ix1 e) = ((A.pb e : ℝ) : EReal)) (n : Fin 3136) (e : Fin 384) :
    k0_pay2 (F := Ideal) v21 v273 v275 (ix3 0 n e) = (((∑ j : Fin 384, proj A 2 b n j * W j e) + A.pb e : ℝ) : EReal) := by
  unfold k0_pay2
  rw [shapeCast_ab_1ab_apply, addf_apply, broadcastTo_1b_ab_apply, shapeCast_a_1a_apply, hb, EReal.coe_add, coe_sum]
  congr 1
  simp only [matmul]
  rw [Ideal.matmul_constant_zero_apply,
    ← Equiv.sum_comp (contrEquiv1 dot_S3136x384_S384x384_S3136x384_1_0_0_1_n_n 384 rfl rfl).symm]
  refine Finset.sum_congr rfl fun j _ => ?_
  have hj := contrEquiv1_symm_val dot_S3136x384_S384x384_S3136x384_1_0_0_1_n_n 384 rfl rfl j
  have el : dot_S3136x384_S384x384_S3136x384_1_0_0_1_n_n.lhsIdx (ix2 n e) ((contrEquiv1 dot_S3136x384_S384x384_S3136x384_1_0_0_1_n_n 384 rfl rfl).symm j) = ix2 n j :=
    funext fun a => Fin.ext (by
      match a with
      | ⟨0, _⟩ => exact d2_lhs_non _ _
      | ⟨1, _⟩ => exact (d2_lhs_con _ _).trans hj)
  have er : dot_S3136x384_S384x384_S3136x384_1_0_0_1_n_n.rhsIdx (ix2 n e) ((contrEquiv1 dot_S3136x384_S384x384_S3136x384_1_0_0_1_n_n 384 rfl rfl).symm j) = ix2 j e :=
    funext fun a => Fin.ext (by
      match a with
      | ⟨0, _⟩ => exact (d2_rhs_con _ _).trans hj
      | ⟨1, _⟩ => exact d2_rhs_non _ _)
  rw [el, er, hv, hW, EReal.coe_mul]

end Cert.Xca.Trips

end
-- ==== Proof.BlockLib.lean ====
/-
  The kernel's output block from its last stores, read entry by entry.

  The body's last store writes the whole output block: the product of the value channels with the folded
  weights, plus the bias.  The folded weights are read back from a 384×384 scratch buffer that eight earlier
  stores filled, one 48×384 row block per head; a load through the whole buffer therefore reads, at row
  `48 h + d`, row `d` of head `h`'s block.  With every operand real, the stored entry is the first arrangement
  of the specification: the flat sum over the 384 rows is the double sum over (head, channel in the head).
-/
import proofs.«109037_j50328426774879_2_alg».proof.Proof.HeadRows
import proofs.«109037_j50328426774879_2_alg».proof.Proof.Trips
import proofs.«109037_j50328426774879_2_alg».proof.Proof.Algebra
import Idealize.ShloMosaic.Lib.Pipeline.Value
import Idealize.ShloMosaic.Lib.WholeRead
import Idealize.ShloMosaic.Lib.Tactic
import Idealize.ShloMosaic.Lib.Ring

noncomputable section

namespace Cert.KernelIdeal.Body

open Cert.KernelIdeal Cert.KernelIdeal.Gen
open Idealize.ShloMosaic Idealize.ShloMosaic.TcCoe Idealize.ShloMosaic.Tactic Idealize.ShloMosaic.ValueIdx

variable {F : FTy → Type} [FloatOps F]

/-! ## Zero offsets, however they are spelt -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A whole load of a whole buffer -/

/-- A load through the whole rectangle of a whole buffer held at the contents that read `x` reads `x`. -/
theorem readAt_whole_unread {S : Shape} {e : EltTy} (M : Memref sig .tc .vmem S e) (hM : M.IsWhole)
    {off : Fin S.rank → Nat} (hz : off = fun _ => 0) (inb : ∀ a, off a + S.size a ≤ S.size a) (x : S.Idx → Elt F e) :
    View.readAt (Elt F) M.view (Rect.unit (s := S) off S.size inb).toLoadRect (hM.unread x) = x := by
  rw [View.readAt_eq_ld, hM.read_unread, View.ld_unit_zero hz]

/-! ## The eight row blocks read back as one matrix -/

/-- The eight stores of 48×384 row blocks, the last first: block `h` at rows `48 h` to `48 h + 47`. -/
abbrev headPieces (p0 p1 p2 p3 p4 p5 p6 p7 : Vec F S48x384 .bf16) : List (View.Piece (Elt F) S384x384 .bf16) :=
  [⟨Rect.unit (s := S384x384) ![336, 0] S48x384.size inb_S384x384_S48x384_336_0, p7⟩,
   ⟨Rect.unit (s := S384x384) ![288, 0] S48x384.size inb_S384x384_S48x384_288_0, p6⟩,
   ⟨Rect.unit (s := S384x384) ![240, 0] S48x384.size inb_S384x384_S48x384_240_0, p5⟩,
   ⟨Rect.unit (s := S384x384) ![192, 0] S48x384.size inb_S384x384_S48x384_192_0, p4⟩,
   ⟨Rect.unit (s := S384x384) ![144, 0] S48x384.size inb_S384x384_S48x384_144_0, p3⟩,
   ⟨Rect.unit (s := S384x384) ![96, 0] S48x384.size inb_S384x384_S48x384_96_0, p2⟩,
   ⟨Rect.unit (s := S384x384) ![48, 0] S48x384.size inb_S384x384_S48x384_48_0, p1⟩,
   ⟨Rect.unit (s := S384x384) ![0, 0] S48x384.size inb_S384x384_S48x384_0_0, p0⟩]

/-- The matrix whose row `48 h + d` is row `d` of block `h`. -/
def rowsOf (sel : Fin 8 → Vec F S48x384 .bf16) (y : S384x384.Idx) : Elt F .bf16 :=
  sel (Xca.headOf ⟨(y 0).val, idx2_lt0 y⟩) (ix2 (Xca.chanOf ⟨(y 0).val, idx2_lt0 y⟩) (⟨(y 1).val, idx2_lt1 y⟩ : Fin 384))

/-- A row block stored at rows `48 k …` holds those rows of the matrix. -/
theorem piece_agrees (sel : Fin 8 → Vec F S48x384 .bf16) (k : Fin 8) (o : Nat) (ho : o = 48 * k.val)
    (inb : ∀ a, (![o, 0] : Fin 2 → Nat) a + S48x384.size a ≤ S384x384.size a)
    (x : (Rect.unit (s := S384x384) ![o, 0] S48x384.size inb).shape.Idx) :
    sel k x = rowsOf sel ((Rect.unit (s := S384x384) ![o, 0] S48x384.size inb).emb x) := by
  have hx0 : (x 0).val < 48 := (x 0).isLt
  have hx1 : (x 1).val < 384 := (x 1).isLt
  have hk : k.val < 8 := k.isLt
  have e0 : ((Rect.unit (s := S384x384) ![o, 0] S48x384.size inb).emb x 0).val = o + 1 * (x 0).val := rfl
  have e1 : ((Rect.unit (s := S384x384) ![o, 0] S48x384.size inb).emb x 1).val = 0 + 1 * (x 1).val := rfl
  unfold rowsOf
  have hh : Xca.headOf ⟨((Rect.unit (s := S384x384) ![o, 0] S48x384.size inb).emb x 0).val, idx2_lt0 _⟩ = k :=
    Fin.ext (by
      show ((Rect.unit (s := S384x384) ![o, 0] S48x384.size inb).emb x 0).val / 48 = k.val
      rw [e0]; omega)
  have hc : Xca.chanOf ⟨((Rect.unit (s := S384x384) ![o, 0] S48x384.size inb).emb x 0).val, idx2_lt0 _⟩
      = (⟨(x 0).val, hx0⟩ : Fin 48) :=
    Fin.ext (by
      show ((Rect.unit (s := S384x384) ![o, 0] S48x384.size inb).emb x 0).val % 48 = (x 0).val
      rw [e0]; omega)
  rw [hh, hc]
  exact congrArg (sel k) (funext fun a => Fin.ext (by
    match a with
    | ⟨0, _⟩ => rfl
    | ⟨1, _⟩ =>
      show (x 1).val = ((Rect.unit (s := S384x384) ![o, 0] S48x384.size inb).emb x 1).val
      rw [e1]; omega))

/-- The eight row blocks cover the matrix. -/
theorem headPieces_cover (p0 p1 p2 p3 p4 p5 p6 p7 : Vec F S48x384 .bf16) (y : S384x384.Idx) :
    ∃ p ∈ headPieces p0 p1 p2 p3 p4 p5 p6 p7, y ∈ p.1.set :=
  View.cover_of_tiledL (headPieces p0 p1 p2 p3 p4 p5 p6 p7) S48x384.size (by sl_kernel_rfl) y

/-- A load through the whole matrix after the eight stores reads, at row `48 h + d`, row `d` of block `h`. -/
theorem readCov_heads (arg8 : Memref sig .tc .vmem S384x384 .bf16) (p0 p1 p2 p3 p4 p5 p6 p7 : Vec F S48x384 .bf16)
    (h : Fin 8) (d : Fin 48) (e : Fin 384) :
    arg8.view.readCov (headPieces p0 p1 p2 p3 p4 p5 p6 p7)
        (Rect.unit (s := S384x384) ![0, 0] S384x384.size inb_S384x384_S384x384_0_0).toLoadRect (ix2 (Xca.hc h d) e)
      = (![p0, p1, p2, p3, p4, p5, p6, p7] h) (ix2 d e) := by
  rw [View.readCov_eq_canon_ld _ _ _ (headPieces_cover p0 p1 p2 p3 p4 p5 p6 p7), View.ld_unit_zero hz2]
  refine (View.canon_apply_of_pieces (rowsOf ![p0, p1, p2, p3, p4, p5, p6, p7]) _ ?_ _ (headPieces_cover p0 p1 p2 p3 p4 p5 p6 p7 _)).trans ?_
  · intro p hp
    simp only [headPieces, List.mem_cons, List.not_mem_nil, or_false] at hp
    rcases hp with rfl | rfl | rfl | rfl | rfl | rfl | rfl | rfl
    · exact piece_agrees (F := F) ![p0, p1, p2, p3, p4, p5, p6, p7] 7 336 rfl inb_S384x384_S48x384_336_0
    · exact piece_agrees (F := F) ![p0, p1, p2, p3, p4, p5, p6, p7] 6 288 rfl inb_S384x384_S48x384_288_0
    · exact piece_agrees (F := F) ![p0, p1, p2, p3, p4, p5, p6, p7] 5 240 rfl inb_S384x384_S48x384_240_0
    · exact piece_agrees (F := F) ![p0, p1, p2, p3, p4, p5, p6, p7] 4 192 rfl inb_S384x384_S48x384_192_0
    · exact piece_agrees (F := F) ![p0, p1, p2, p3, p4, p5, p6, p7] 3 144 rfl inb_S384x384_S48x384_144_0
    · exact piece_agrees (F := F) ![p0, p1, p2, p3, p4, p5, p6, p7] 2 96 rfl inb_S384x384_S48x384_96_0
    · exact piece_agrees (F := F) ![p0, p1, p2, p3, p4, p5, p6, p7] 1 48 rfl inb_S384x384_S48x384_48_0
    · exact piece_agrees (F := F) ![p0, p1, p2, p3, p4, p5, p6, p7] 0 0 rfl inb_S384x384_S48x384_0_0
  · show (![p0, p1, p2, p3, p4, p5, p6, p7] (Xca.headOf (Xca.hc h d))) (ix2 (Xca.chanOf (Xca.hc h d)) e) = _
    rw [Xca.headOf_hc, Xca.chanOf_hc]

/-! ## The output block -/

/-- The whole-block store of the values against the folded weights plus the bias leaves the first arrangement
    of the specification, when every operand is real. -/
theorem block_core (A : Xca.Args) (b : Fin 32) (v : View sig .tc .vmem S1x3136x384 .f32)
    (arg8 : Memref sig .tc .vmem S384x384 .bf16) (V21 : Vec Ideal S3136x384 .bf16) (V275 : Vec Ideal S384 .f32)
    (p0 p1 p2 p3 p4 p5 p6 p7 : Vec Ideal S48x384 .bf16)
    (hv : ∀ n j, V21 (ix2 n j) = ((Xca.proj A 2 b n j : ℝ) : EReal))
    (hp : ∀ (h : Fin 8) (d : Fin 48) (e : Fin 384),
      (![p0, p1, p2, p3, p4, p5, p6, p7] h) (ix2 d e) = ((Xca.foldW A Xca.eps b h d e : ℝ) : EReal))
    (hb : ∀ e, V275 (ix1 e) = ((A.pb e : ℝ) : EReal)) (n : Fin 3136) (e : Fin 384) :
    v.read (Elt Ideal) (v.writes (Elt Ideal) v.junk
        [⟨Rect.unit (s := S1x3136x384) ![0, 0, 0] S1x3136x384.size inb_S1x3136x384_S1x3136x384_0_0_0,
          k0_pay2 (F := Ideal) V21 (arg8.view.readCov (headPieces p0 p1 p2 p3 p4 p5 p6 p7)
            (Rect.unit (s := S384x384) ![0, 0] S384x384.size inb_S384x384_S384x384_0_0).toLoadRect) V275⟩])
        (ix3 (0 : Fin 1) n e)
      = ((Xca.outK A Xca.eps b n e : ℝ) : EReal) := by
  have hW : ∀ (j e : Fin 384), arg8.view.readCov (headPieces p0 p1 p2 p3 p4 p5 p6 p7)
      (Rect.unit (s := S384x384) ![0, 0] S384x384.size inb_S384x384_S384x384_0_0).toLoadRect (ix2 j e)
      = ((Xca.foldW A Xca.eps b (Xca.headOf j) (Xca.chanOf j) e : ℝ) : EReal) := fun j e => by
    have key := readCov_heads arg8 p0 p1 p2 p3 p4 p5 p6 p7 (Xca.headOf j) (Xca.chanOf j) e
    rw [Xca.hc_headOf_chanOf] at key
    rw [key]
    exact hp _ _ _
  rw [View.read_writes_junk_eq_canon, View.canon_unit_zero hz3,
    Xca.Trips.pay2_apply A b (fun j e => Xca.foldW A Xca.eps b (Xca.headOf j) (Xca.chanOf j) e) _ _ _ hv hW hb n e]
  unfold Xca.outK
  rw [Xca.sum_channels]
  simp only [Xca.headOf_hc, Xca.chanOf_hc]

/-- The same with the eight row blocks the heads' programs compute from the clamped norms, the inner products, the
    temperatures and the projection weights; the norms and inner products themselves computed from the sums of
    squares and the query and key blocks of the kept product. -/
theorem block_core2 (A : Xca.Args) (b : Fin 32) (v : View sig .tc .vmem S1x3136x384 .f32)
    (arg8 : Memref sig .tc .vmem S384x384 .bf16) (V19 V20 V21 : Vec Ideal S3136x384 .bf16)
    (v11 v15 : Vec Ideal S1x384 .f32) (v23 : Vec Ideal S8x1x1 .f32) (v24 : Vec Ideal S384x384 .f32)
    (V275 : Vec Ideal S384 .f32)
    (hq : ∀ n e, V19 (ix2 n e) = ((Xca.proj A 0 b n e : ℝ) : EReal))
    (hk : ∀ n e, V20 (ix2 n e) = ((Xca.proj A 1 b n e : ℝ) : EReal))
    (hv : ∀ n e, V21 (ix2 n e) = ((Xca.proj A 2 b n e : ℝ) : EReal))
    (hs : ∀ e, v11 (ix2 0 e) = ((Xca.sumSq A 0 b e : ℝ) : EReal))
    (hs' : ∀ e, v15 (ix2 0 e) = ((Xca.sumSq A 1 b e : ℝ) : EReal))
    (h23 : ∀ h : Fin 8, v23 (ix3 h 0 0) = ((A.tmp h : ℝ) : EReal))
    (h24 : ∀ e j : Fin 384, v24 (ix2 e j) = ((A.pw e j : ℝ) : EReal))
    (hb : ∀ e, V275 (ix1 e) = ((A.pb e : ℝ) : EReal)) (n : Fin 3136) (e : Fin 384) :
    v.read (Elt Ideal) (v.writes (Elt Ideal) v.junk
        [⟨Rect.unit (s := S1x3136x384) ![0, 0, 0] S1x3136x384.size inb_S1x3136x384_S1x3136x384_0_0_0,
          k0_pay2 (F := Ideal) V21 (arg8.view.readCov (headPieces
              (k0_pay12 (F := Ideal) (k0_pay9 v11) (k0_pay10 v15) (k0_pay11 V19 V20) v23 v24)
              (k0_pay14 (F := Ideal) v24 (k0_pay13 (k0_pay9 v11) (k0_pay10 v15) (k0_pay11 V19 V20) v23))
              (k0_pay15 (F := Ideal) (k0_pay9 v11) (k0_pay10 v15) (k0_pay11 V19 V20) v23 v24)
              (k0_pay19 (F := Ideal) v23 v24 (k0_pay16 (k0_pay11 V19 V20)) (k0_pay17 (k0_pay9 v11)) (k0_pay18 (k0_pay10 v15)))
              (k0_pay22 (F := Ideal) (k0_pay20 (k0_pay9 v11) (k0_pay10 v15) (k0_pay11 V19 V20) v23) (k0_pay21 v24))
              (k0_pay23 (F := Ideal) (k0_pay9 v11) (k0_pay10 v15) (k0_pay11 V19 V20) v23 v24)
              (k0_pay25 (F := Ideal) v24 (k0_pay24 (k0_pay9 v11) (k0_pay10 v15) (k0_pay11 V19 V20) v23))
              (k0_pay1 (F := Ideal) (k0_pay26 (k0_pay9 v11) (k0_pay10 v15) (k0_pay11 V19 V20) v23 v24)))
            (Rect.unit (s := S384x384) ![0, 0] S384x384.size inb_S384x384_S384x384_0_0).toLoadRect) V275⟩])
        (ix3 (0 : Fin 1) n e)
      = ((Xca.outK A Xca.eps b n e : ℝ) : EReal) := by
  have h14 := Xca.Trips.pay9_apply A b v11 hs
  have h18 := Xca.Trips.pay10_apply A b v15 hs'
  have h22 := Xca.Trips.pay11_apply A b V19 V20 hq hk
  refine block_core A b v arg8 V21 V275 _ _ _ _ _ _ _ _ hv (fun h d e => ?_) hb n e
  fin_cases h
  · exact Xca.Heads.head0 A b _ _ _ v23 v24 h14 h18 h22 h23 h24 d e
  · exact Xca.Heads.head1 A b _ _ _ v23 v24 h14 h18 h22 h23 h24 d e
  · exact Xca.Heads.head2 A b _ _ _ v23 v24 h14 h18 h22 h23 h24 d e
  · exact Xca.Heads.head3 A b _ _ _ v23 v24 h14 h18 h22 h23 h24 d e
  · exact Xca.Heads.head4 A b _ _ _ v23 v24 h14 h18 h22 h23 h24 d e
  · exact Xca.Heads.head5 A b _ _ _ v23 v24 h14 h18 h22 h23 h24 d e
  · exact Xca.Heads.head6 A b _ _ _ v23 v24 h14 h18 h22 h23 h24 d e
  · exact Xca.Heads.head7 A b _ _ _ v23 v24 h14 h18 h22 h23 h24 d e

end Cert.KernelIdeal.Body

end
-- ==== Proof.LoopPieces.lean ====
/-
  The loop's pieces, read as real numbers.

  After the four trips the kept product holds, at row `n` and column `c`, the projection of token `n` on column `c`
  (the four row blocks tile the 3136 tokens); its three column blocks are the queries, the keys and the values.
  A running row that started at zero holds the sum over all tokens of the squares of its block's channel.
-/
import proofs.«109037_j50328426774879_2_alg».proof.Proof.LoopPieces2
import proofs.«109037_j50328426774879_2_alg».proof.Proof.Trips

set_option maxRecDepth 16384

noncomputable section

namespace Cert.KernelIdeal.LoopP

open Cert.KernelIdeal Cert.KernelIdeal.Gen Cert.Xca Cert.Xca.Trips
open Idealize.ShloMosaic Idealize.ShloMosaic.TcCoe Idealize.ShloMosaic.ValueIdx
open Idealize.SL Idealize.SL.Sem

variable (A : Args) (b : Fin 32)
  (arg7 : Memref sig .tc .vmem S3136x1152 .bf16)
  (arg9 : Memref sig .tc .vmem S1x384 .f32)
  (arg10 : Memref sig .tc .vmem S1x384 .f32)
  (v0 : Vec Ideal S1152x384 .f32)
  (mv_v287 : Memref sig .tc .vmem S3136x384 .f32)
  (X_v287 : BufTy.Contents (Elt Ideal) mv_v287.view.ty)

/-! ## The kept product -/

/-- The projections, as a function of the kept product's index. -/
def qkvAt : S3136x1152.Idx → EReal :=
  fun y => ((qkv A b ⟨(y 0).val, idx2_lt0 y⟩ ⟨(y 1).val, idx2_lt1 y⟩ : ℝ) : EReal)

/-- Trip `k`'s row block holds the projections of its 784 tokens. -/
theorem piece_ok (hw : ∀ c d, v0 (ix2 c d) = ((A.w c d : ℝ) : EReal))
    (hX : ∀ (k : Fin k0_t1_loop.trips) (r : Fin 784) (d : Fin 384),
      slab (F := Ideal) mv_v287 X_v287 k (ix2 r d) = ((A.x b (tok (Fin.cast trips_eq k) r) d : ℝ) : EReal))
    (k : Fin k0_t1_loop.trips) (x : S784x1152.Idx) :
    k0_pay8 (F := Ideal) v0 (slab (F := Ideal) mv_v287 X_v287 k) x = qkvAt A b ((rows k).emb x) := by
  have hx : x = ix2 ⟨(x 0).val, idx2_lt0 x⟩ ⟨(x 1).val, idx2_lt1 x⟩ :=
    funext fun a => match a with | ⟨0, _⟩ => rfl | ⟨1, _⟩ => rfl
  have e1 := pay8_apply A b (Fin.cast trips_eq k) v0 (slab (F := Ideal) mv_v287 X_v287 k) hw (hX k)
    ⟨(x 0).val, idx2_lt0 x⟩ ⟨(x 1).val, idx2_lt1 x⟩
  rw [← hx] at e1
  rw [e1]
  unfold qkvAt
  refine congrArg₂ (fun n c => ((qkv A b n c : ℝ) : EReal)) (Fin.ext ?_) (Fin.ext ?_)
  · show 784 * k.val + (x 0).val = k0_off2 k 0 + 1 * (x 0).val
    rw [k0_off2_eq]
    show 784 * k.val + (x 0).val = 784 * k.val + 1 * (x 0).val
    omega
  · show (x 1).val = k0_off2 k 1 + 1 * (x 1).val
    rw [k0_off2_eq]
    show (x 1).val = 0 + 1 * (x 1).val
    omega

/-- THE KEPT PRODUCT AFTER THE LOOP: entry `(n, c)` is the projection of token `n` on column `c`. -/
theorem canon7_real (hw : ∀ c d, v0 (ix2 c d) = ((A.w c d : ℝ) : EReal))
    (hX : ∀ (k : Fin k0_t1_loop.trips) (r : Fin 784) (d : Fin 384),
      slab (F := Ideal) mv_v287 X_v287 k (ix2 r d) = ((A.x b (tok (Fin.cast trips_eq k) r) d : ℝ) : EReal))
    (n : Fin 3136) (c : Fin 1152) :
    View.canon (l7 (F := Ideal) v0 mv_v287 X_v287 4) (ix2 n c) = ((qkv A b n c : ℝ) : EReal) := by
  have hL : ∀ p ∈ l7 (F := Ideal) v0 mv_v287 X_v287 4, ∀ x : p.1.shape.Idx, p.2 x = qkvAt A b (p.1.emb x) := by
    rw [l7_four]
    intro p hp x
    simp only [List.mem_cons, List.not_mem_nil, or_false] at hp
    rcases hp with rfl | rfl | rfl | rfl
    · exact piece_ok A b v0 mv_v287 X_v287 hw hX t3 x
    · exact piece_ok A b v0 mv_v287 X_v287 hw hX t2 x
    · exact piece_ok A b v0 mv_v287 X_v287 hw hX t1 x
    · exact piece_ok A b v0 mv_v287 X_v287 hw hX t0 x
  exact View.canon_apply_of_pieces (qkvAt A b) _ hL (ix2 n c) (cover7 v0 mv_v287 X_v287 (ix2 n c))

theorem read7_real (hw : ∀ c d, v0 (ix2 c d) = ((A.w c d : ℝ) : EReal))
    (hX : ∀ (k : Fin k0_t1_loop.trips) (r : Fin 784) (d : Fin 384),
      slab (F := Ideal) mv_v287 X_v287 k (ix2 r d) = ((A.x b (tok (Fin.cast trips_eq k) r) d : ℝ) : EReal))
    (G7 : BufTy.Contents (Elt Ideal) arg7.view.ty) (n : Fin 3136) (c : Fin 1152) :
    arg7.view.read (Elt Ideal) (arg7.view.writes (Elt Ideal) G7 (l7 (F := Ideal) v0 mv_v287 X_v287 4)) (ix2 n c)
      = ((qkv A b n c : ℝ) : EReal) := by
  rw [read7]
  exact canon7_real A b v0 mv_v287 X_v287 hw hX n c

/-- The column block at offset `384 s`, loaded after the loop: queries, keys, values for `s = 0, 1, 2`. -/
theorem col_load (hw : ∀ c d, v0 (ix2 c d) = ((A.w c d : ℝ) : EReal))
    (hX : ∀ (k : Fin k0_t1_loop.trips) (r : Fin 784) (d : Fin 384),
      slab (F := Ideal) mv_v287 X_v287 k (ix2 r d) = ((A.x b (tok (Fin.cast trips_eq k) r) d : ℝ) : EReal))
    (s : Fin 3) (o : ℕ) (ho : o = 384 * s.val)
    (inb : ∀ a, (![0, o] : Fin 2 → ℕ) a + S3136x384.size a ≤ S3136x1152.size a)
    (G7 : BufTy.Contents (Elt Ideal) arg7.view.ty) (n : Fin 3136) (e : Fin 384) :
    arg7.view.readAt (Elt Ideal) (Rect.unit (s := S3136x1152) ![0, o] S3136x384.size inb).toLoadRect
        (arg7.view.writes (Elt Ideal) G7 (l7 (F := Ideal) v0 mv_v287 X_v287 4)) (ix2 n e)
      = ((proj A s b n e : ℝ) : EReal) := by
  rw [readAt7]
  show View.canon _ ((Rect.unit (s := S3136x1152) ![0, o] S3136x384.size inb).toLoadRect.idx (ix2 n e)) = _
  have hi : (Rect.unit (s := S3136x1152) ![0, o] S3136x384.size inb).toLoadRect.idx (ix2 n e) = ix2 n (col s e) :=
    funext fun a => Fin.ext (by
      match a with
      | ⟨0, _⟩ => show 0 + 1 * n.val = n.val; omega
      | ⟨1, _⟩ => show o + 1 * e.val = 384 * s.val + e.val; omega)
  rw [hi]
  exact canon7_real A b v0 mv_v287 X_v287 hw hX n (col s e)

/-! ## The running rows -/

/-- A running row that starts at zero ends at the sums of squares over all tokens: block `s` of the projection,
    updated by `pay`, which adds one chunk's column sums of squares. -/
theorem row_real (hX : ∀ (k : Fin k0_t1_loop.trips) (r : Fin 784) (d : Fin 384),
      slab (F := Ideal) mv_v287 X_v287 k (ix2 r d) = ((A.x b (tok (Fin.cast trips_eq k) r) d : ℝ) : EReal))
    (s : Fin 3) (arg : Memref sig .tc .vmem S1x384 .f32)
    (pay : Vec Ideal S784x384 .f32 → Vec Ideal S1x384 .f32 → FVec Ideal S1x384 .f32)
    (hpay : ∀ (k : Fin 4) (v289 : FVec Ideal S784x384 .f32) (vacc : FVec Ideal S1x384 .f32) (a : Fin 384 → ℝ),
      (∀ r d, v289 (ix2 r d) = ((A.x b (tok k r) d : ℝ) : EReal)) → (∀ e, vacc (ix2 0 e) = ((a e : ℝ) : EReal)) →
      ∀ e, pay v289 vacc (ix2 0 e) = ((a e + ∑ r : Fin 784, proj A s b (tok k r) e * proj A s b (tok k r) e : ℝ) : EReal))
    (G : BufTy.Contents (Elt Ideal) arg.view.ty)
    (hG : ∀ e, arg.view.read (Elt Ideal) G (ix2 0 e) = ((0 : ℝ) : EReal)) (e : Fin 384) :
    arg.view.readAt (Elt Ideal) whole1.toLoadRect
        (arg.view.writes (Elt Ideal) G (lrow (F := Ideal) mv_v287 X_v287 arg pay G 4)) (ix2 0 e)
      = ((sumSq A s b e : ℝ) : EReal) := by
  rw [readAt_row_four]
  have h1 := hpay 0 (slab (F := Ideal) mv_v287 X_v287 t0) _ (fun _ => 0) (hX t0) hG
  have h2 := hpay 1 (slab (F := Ideal) mv_v287 X_v287 t1) _ _ (hX t1) h1
  have h3 := hpay 2 (slab (F := Ideal) mv_v287 X_v287 t2) _ _ (hX t2) h2
  have h4 := hpay 3 (slab (F := Ideal) mv_v287 X_v287 t3) _ _ (hX t3) h3
  rw [h4 e, sumSq_trips]

/-- The queries' running row after the loop. -/
theorem row9_real (hw : ∀ c d, v0 (ix2 c d) = ((A.w c d : ℝ) : EReal))
    (hX : ∀ (k : Fin k0_t1_loop.trips) (r : Fin 784) (d : Fin 384),
      slab (F := Ideal) mv_v287 X_v287 k (ix2 r d) = ((A.x b (tok (Fin.cast trips_eq k) r) d : ℝ) : EReal))
    (G9 : BufTy.Contents (Elt Ideal) arg9.view.ty)
    (hG : ∀ e, arg9.view.read (Elt Ideal) G9 (ix2 0 e) = ((0 : ℝ) : EReal)) (e : Fin 384) :
    arg9.view.readAt (Elt Ideal) whole1.toLoadRect
        (arg9.view.writes (Elt Ideal) G9 (lrow (F := Ideal) mv_v287 X_v287 arg9 (k0_pay6 v0) G9 4)) (ix2 0 e)
      = ((sumSq A 0 b e : ℝ) : EReal) :=
  row_real A b mv_v287 X_v287 hX 0 arg9 (k0_pay6 v0)
    (fun k v289 vacc a hx hacc e => pay6_apply A b k v0 v289 vacc a hw hx hacc e) G9 hG e

/-- The keys' running row after the loop. -/
theorem row10_real (hw : ∀ c d, v0 (ix2 c d) = ((A.w c d : ℝ) : EReal))
    (hX : ∀ (k : Fin k0_t1_loop.trips) (r : Fin 784) (d : Fin 384),
      slab (F := Ideal) mv_v287 X_v287 k (ix2 r d) = ((A.x b (tok (Fin.cast trips_eq k) r) d : ℝ) : EReal))
    (G10 : BufTy.Contents (Elt Ideal) arg10.view.ty)
    (hG : ∀ e, arg10.view.read (Elt Ideal) G10 (ix2 0 e) = ((0 : ℝ) : EReal)) (e : Fin 384) :
    arg10.view.readAt (Elt Ideal) whole1.toLoadRect
        (arg10.view.writes (Elt Ideal) G10 (lrow (F := Ideal) mv_v287 X_v287 arg10 (k0_pay7 v0) G10 4)) (ix2 0 e)
      = ((sumSq A 1 b e : ℝ) : EReal) :=
  row_real A b mv_v287 X_v287 hX 1 arg10 (k0_pay7 v0)
    (fun k v289 vacc a hx hacc e => pay7_apply A b k v0 v289 vacc a hw hx hacc e) G10 hG e

/-! ## The body's own loads

The body reads the weights whole out of their buffer, the tokens through the view of the first buffer with its
leading unit axis dropped, and starts the two running rows from a zero fill. -/

theorem hz3 : (![0, 0, 0] : Fin 3 → Nat) = fun _ => 0 := funext fun a => by fin_cases a <;> rfl

/-- The tokens' buffer with its leading unit axis dropped. -/
abbrev tokView (arg1 : Memref sig .tc .vmem S1x3136x384 .f32)
    (hr : ∀ a, (Rect.unit (s := S1x3136x384) ![0, 0, 0] S1x3136x384.size inb_S1x3136x384_S1x3136x384_0_0_0).stride a = 1) :
    Memref sig .tc .vmem S3136x384 .f32 :=
  (arg1.slice (Rect.unit (s := S1x3136x384) ![0, 0, 0] S1x3136x384.size inb_S1x3136x384_S1x3136x384_0_0_0) hr).squeeze
    S3136x384 squeezes_S1x3136x384_S3136x384

/-- The weights, loaded whole. -/
abbrev wLoad {F : FTy → Type} [FloatOps F] (arg2 : Memref sig .tc .vmem S1152x384 .f32) (harg2 : arg2.IsWhole)
    (x1 : Vec F S1152x384 .f32) : Vec F S1152x384 .f32 :=
  arg2.view.readAt (Elt F) (Rect.unit (s := S1152x384) ![0, 0] S1152x384.size inb_S1152x384_S1152x384_0_0).toLoadRect
    (harg2.unread x1)

theorem wLoad_eq {F : FTy → Type} [FloatOps F] (arg2 : Memref sig .tc .vmem S1152x384 .f32) (harg2 : arg2.IsWhole)
    (x1 : Vec F S1152x384 .f32) : wLoad arg2 harg2 x1 = x1 := by
  unfold wLoad
  rw [View.readAt_eq_ld, harg2.read_unread, View.ld_unit_zero hz2]

/-- Row `r` of trip `k`'s slab is token `784 k + r` of the tokens' buffer. -/
theorem slab_unread {F : FTy → Type} [FloatOps F] (arg1 : Memref sig .tc .vmem S1x3136x384 .f32) (harg1 : arg1.IsWhole)
    (x0 : Vec F S1x3136x384 .f32)
    (hr : ∀ a, (Rect.unit (s := S1x3136x384) ![0, 0, 0] S1x3136x384.size inb_S1x3136x384_S1x3136x384_0_0_0).stride a = 1)
    (hc : BufTy.Contents (Elt F) arg1.view.ty = BufTy.Contents (Elt F) (tokView arg1 hr).view.ty)
    (k : Fin k0_t1_loop.trips) (r : Fin 784) (d : Fin 384) :
    slab (tokView arg1 hr) (cast hc (harg1.unread x0)) k (ix2 r d)
      = x0 (ix3 (0 : Fin 1) (tok (Fin.cast trips_eq k) r) d) := by
  have e := Memref.read_squeeze_slice (Val := Elt F) arg1
    (Rect.unit (s := S1x3136x384) ![0, 0, 0] S1x3136x384.size inb_S1x3136x384_S1x3136x384_0_0_0) hr
    squeezes_S1x3136x384_S3136x384 shapeCasts_S1x3136x384_S3136x384 (harg1.unread x0)
  have e2 : arg1.view.readAt (Elt F)
      (Rect.unit (s := S1x3136x384) ![0, 0, 0] S1x3136x384.size inb_S1x3136x384_S1x3136x384_0_0_0).toLoadRect
      (harg1.unread x0) = x0 := by
    rw [View.readAt_eq_ld, harg1.read_unread, View.ld_unit_zero hz3]
  rw [e2] at e
  have hi : (Rect.unit (s := S3136x384) (k0_off1 k) S784x384.size (k0_off1_inb k)).toLoadRect.idx (ix2 r d)
      = ix2 (tok (Fin.cast trips_eq k) r) d :=
    funext fun a => Fin.ext (by
      match a with
      | ⟨0, _⟩ =>
        show k0_off1 k 0 + 1 * r.val = 784 * k.val + r.val
        rw [k0_off1_eq]
        show 784 * k.val + 1 * r.val = 784 * k.val + r.val
        omega
      | ⟨1, _⟩ =>
        show k0_off1 k 1 + 1 * d.val = d.val
        rw [k0_off1_eq]
        show 0 + 1 * d.val = d.val
        omega)
  show (tokView arg1 hr).view.read (Elt F) (cast hc (harg1.unread x0))
      ((Rect.unit (s := S3136x384) (k0_off1 k) S784x384.size (k0_off1_inb k)).toLoadRect.idx (ix2 r d)) = _
  rw [hi]
  refine (congrFun e _).trans ?_
  exact shapeCast_1ab_ab_apply x0 shapeCasts_S1x3136x384_S3136x384 _ d

section Run

variable (arg1 : Memref sig .tc .vmem S1x3136x384 .f32) (harg1 : arg1.IsWhole)
  (arg2 : Memref sig .tc .vmem S1152x384 .f32) (harg2 : arg2.IsWhole)
  (x0 : Vec Ideal S1x3136x384 .f32) (x1 : Vec Ideal S1152x384 .f32)
  (hr : ∀ a, (Rect.unit (s := S1x3136x384) ![0, 0, 0] S1x3136x384.size inb_S1x3136x384_S1x3136x384_0_0_0).stride a = 1)
  (hc : BufTy.Contents (Elt Ideal) arg1.view.ty = BufTy.Contents (Elt Ideal) (tokView arg1 hr).view.ty)

/-- The weights as the body loads them are the real weights. -/
theorem hw_run (h1 : ∀ c d, x1 (ix2 c d) = ((A.w c d : ℝ) : EReal)) (c : Fin 1152) (d : Fin 384) :
    wLoad arg2 harg2 x1 (ix2 c d) = ((A.w c d : ℝ) : EReal) := by
  rw [wLoad_eq]; exact h1 c d

/-- The slabs as the body loads them are the real tokens. -/
theorem hX_run (h0 : ∀ n d, x0 (ix3 (0 : Fin 1) n d) = ((A.x b n d : ℝ) : EReal))
    (k : Fin k0_t1_loop.trips) (r : Fin 784) (d : Fin 384) :
    slab (F := Ideal) (tokView arg1 hr) (cast hc (harg1.unread x0)) k (ix2 r d)
      = ((A.x b (tok (Fin.cast trips_eq k) r) d : ℝ) : EReal) := by
  rw [slab_unread]; exact h0 _ d

/-- A COLUMN BLOCK OF THE KEPT PRODUCT AS THE BODY LOADS IT after the loop: block `s` of the projections
    (`s = 0, 1, 2` at column offsets 0, 384, 768), whatever the buffer held before the loop. -/
theorem colRun_real (h0 : ∀ n d, x0 (ix3 (0 : Fin 1) n d) = ((A.x b n d : ℝ) : EReal))
    (h1 : ∀ c d, x1 (ix2 c d) = ((A.w c d : ℝ) : EReal))
    (s : Fin 3) (o : ℕ) (ho : o = 384 * s.val)
    (inb : ∀ a, (![0, o] : Fin 2 → ℕ) a + S3136x384.size a ≤ S3136x1152.size a)
    (G7 : BufTy.Contents (Elt Ideal) arg7.view.ty) (n : Fin 3136) (e : Fin 384) :
    arg7.view.readAt (Elt Ideal) (Rect.unit (s := S3136x1152) ![0, o] S3136x384.size inb).toLoadRect
        (arg7.view.writes (Elt Ideal) G7
          (l7 (F := Ideal) (wLoad arg2 harg2 x1) (tokView arg1 hr) (cast hc (harg1.unread x0)) 4)) (ix2 n e)
      = ((proj A s b n e : ℝ) : EReal) :=
  col_load A b arg7 (wLoad arg2 harg2 x1) (tokView arg1 hr) (cast hc (harg1.unread x0))
    (hw_run A arg2 harg2 x1 h1) (hX_run A b arg1 harg1 x0 hr hc h0) s o ho inb G7 n e

/-- A RUNNING ROW AS THE BODY LOADS IT after the loop, its buffer filled with `fill` (zero everywhere) before the loop
    and updated by `pay` in each trip. -/
theorem rowRun_real (h0 : ∀ n d, x0 (ix3 (0 : Fin 1) n d) = ((A.x b n d : ℝ) : EReal))
    (s : Fin 3) (arg : Memref sig .tc .vmem S1x384 .f32)
    (pay : Vec Ideal S784x384 .f32 → Vec Ideal S1x384 .f32 → FVec Ideal S1x384 .f32)
    (hpay : ∀ (k : Fin 4) (v289 : FVec Ideal S784x384 .f32) (vacc : FVec Ideal S1x384 .f32) (a : Fin 384 → ℝ),
      (∀ r d, v289 (ix2 r d) = ((A.x b (tok k r) d : ℝ) : EReal)) → (∀ e, vacc (ix2 0 e) = ((a e : ℝ) : EReal)) →
      ∀ e, pay v289 vacc (ix2 0 e) = ((a e + ∑ r : Fin 784, proj A s b (tok k r) e * proj A s b (tok k r) e : ℝ) : EReal))
    (fill : Vec Ideal S1x384 .f32) (hfill : ∀ e, fill (ix2 0 e) = ((0 : ℝ) : EReal))
    (f : BufTy.Contents (Elt Ideal) arg.view.ty) (e : Fin 384) :
    arg.view.readAt (Elt Ideal) whole1.toLoadRect
        (arg.view.writes (Elt Ideal) f
          (lrow (F := Ideal) (tokView arg1 hr) (cast hc (harg1.unread x0)) arg pay
              (arg.view.writes (Elt Ideal) f [⟨whole1, fill⟩]) 4 ++ [⟨whole1, fill⟩])) (ix2 0 e)
      = ((sumSq A s b e : ℝ) : EReal) := by
  rw [View.writes_append]
  refine row_real A b (tokView arg1 hr) (cast hc (harg1.unread x0)) (hX_run A b arg1 harg1 x0 hr hc h0) s arg pay hpay
    (arg.view.writes (Elt Ideal) f [⟨whole1, fill⟩]) (fun e => ?_) e
  rw [read_fill]; exact hfill e

/-- The queries' running row as the body loads it after the loop. -/
theorem row9Run_real (h0 : ∀ n d, x0 (ix3 (0 : Fin 1) n d) = ((A.x b n d : ℝ) : EReal))
    (h1 : ∀ c d, x1 (ix2 c d) = ((A.w c d : ℝ) : EReal))
    (f : BufTy.Contents (Elt Ideal) arg9.view.ty) (e : Fin 384) :
    arg9.view.readAt (Elt Ideal) whole1.toLoadRect
        (arg9.view.writes (Elt Ideal) f
          (lrow (F := Ideal) (tokView arg1 hr) (cast hc (harg1.unread x0)) arg9 (k0_pay6 (wLoad arg2 harg2 x1))
              (arg9.view.writes (Elt Ideal) f [⟨whole1, k0_pay3 (F := Ideal)⟩]) 4 ++ [⟨whole1, k0_pay3 (F := Ideal)⟩])) (ix2 0 e)
      = ((sumSq A 0 b e : ℝ) : EReal) :=
  rowRun_real A b arg1 harg1 x0 hr hc h0 0 arg9 (k0_pay6 (wLoad arg2 harg2 x1))
    (fun k v289 vacc a hx hacc e => pay6_apply A b k (wLoad arg2 harg2 x1) v289 vacc a (hw_run A arg2 harg2 x1 h1) hx hacc e)
    (k0_pay3 (F := Ideal)) pay3_apply f e

/-- The keys' running row as the body loads it after the loop. -/
theorem row10Run_real (h0 : ∀ n d, x0 (ix3 (0 : Fin 1) n d) = ((A.x b n d : ℝ) : EReal))
    (h1 : ∀ c d, x1 (ix2 c d) = ((A.w c d : ℝ) : EReal))
    (f : BufTy.Contents (Elt Ideal) arg10.view.ty) (e : Fin 384) :
    arg10.view.readAt (Elt Ideal) whole1.toLoadRect
        (arg10.view.writes (Elt Ideal) f
          (lrow (F := Ideal) (tokView arg1 hr) (cast hc (harg1.unread x0)) arg10 (k0_pay7 (wLoad arg2 harg2 x1))
              (arg10.view.writes (Elt Ideal) f [⟨whole1, k0_pay4 (F := Ideal)⟩]) 4 ++ [⟨whole1, k0_pay4 (F := Ideal)⟩])) (ix2 0 e)
      = ((sumSq A 1 b e : ℝ) : EReal) :=
  rowRun_real A b arg1 harg1 x0 hr hc h0 1 arg10 (k0_pay7 (wLoad arg2 harg2 x1))
    (fun k v289 vacc a hx hacc e => pay7_apply A b k (wLoad arg2 harg2 x1) v289 vacc a (hw_run A arg2 harg2 x1 h1) hx hacc e)
    (k0_pay4 (F := Ideal)) pay4_apply f e

end Run

end Cert.KernelIdeal.LoopP

end
-- ==== Proof.BlockValue.lean ====
/-
  What the body leaves in the output block is the first arrangement of the specification.

  The output block is one whole store of the value channels against the folded weights, plus the bias.  The
  temperatures, the projection weights and the bias are loaded whole from buffers held at the inputs; the query,
  key and value blocks of the kept product and the two rows of sums of squares are loaded after the loop over
  the token chunks.  Given that those five loads read the projections and the sums of squares of the
  specification, every entry of the output block is the specification's.
-/
import proofs.«109037_j50328426774879_2_alg».proof.Proof.IndepKI
import proofs.«109037_j50328426774879_2_alg».proof.Proof.BlockLib
import proofs.«109037_j50328426774879_2_alg».proof.Proof.LoopPieces

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-! ## The loads after the loop, by name -/

/-- The weight matrix as the body loads it. -/
abbrev ldW (arg2 : Memref sig .tc .vmem S1152x384 .f32) (harg2 : arg2.IsWhole) (x1 : Vec F S1152x384 .f32) :
    Vec F S1152x384 .f32 :=
  View.readAt (Elt F) arg2.view
    (Rect.unit (s := S1152x384) ![0, 0] S1152x384.size inb_S1152x384_S1152x384_0_0).toLoadRect (harg2.unread x1)

/-- The token rows of the input block — the block without its leading unit axis — as a buffer of their own. -/
abbrev rowsM (arg1 : Memref sig .tc .vmem S1x3136x384 .f32) : Memref sig .tc .vmem S3136x384 .f32 :=
  (arg1.slice (Rect.unit (s := S1x3136x384) ![0, 0, 0] S1x3136x384.size inb_S1x3136x384_S1x3136x384_0_0_0)
    (fun _ => rfl)).squeeze S3136x384 squeezes_S1x3136x384_S3136x384

/-- Its contents: the input block's. -/
abbrev rowsX (arg1 : Memref sig .tc .vmem S1x3136x384 .f32) (harg1 : arg1.IsWhole) (x0 : Vec F S1x3136x384 .f32) :
    BufTy.Contents (Elt F) (rowsM arg1).view.ty :=
  harg1.unread x0

/-- A block of 384 columns of the kept product, loaded after the four trips. -/
abbrev ldKept (arg1 : Memref sig .tc .vmem S1x3136x384 .f32) (harg1 : arg1.IsWhole)
    (arg2 : Memref sig .tc .vmem S1152x384 .f32) (harg2 : arg2.IsWhole)
    (arg7 : Memref sig .tc .vmem S3136x1152 .bf16) (harg7 : arg7.IsWhole) (x0 : Vec F S1x3136x384 .f32) (x1 : Vec F S1152x384 .f32)
    (g7 : Vec F S3136x1152 .bf16) (off : Fin 2 → Nat) (inb : ∀ a, off a + S3136x384.size a ≤ S3136x1152.size a) :
    Vec F S3136x384 .bf16 :=
  View.readAt (Elt F) arg7.view (Rect.unit (s := S3136x1152) off S3136x384.size inb).toLoadRect
    (arg7.view.writes (Elt F) (harg7.unread g7) (LoopP.l7 (ldW arg2 harg2 x1) (rowsM arg1) (rowsX arg1 harg1 x0) 4))

/-- A running row of sums of squares, loaded after the four trips: the row is zero-filled, then each trip adds to it. -/
abbrev ldSum (arg1 : Memref sig .tc .vmem S1x3136x384 .f32) (harg1 : arg1.IsWhole)
    (arg2 : Memref sig .tc .vmem S1152x384 .f32) (harg2 : arg2.IsWhole)
    (arg : Memref sig .tc .vmem S1x384 .f32) (x0 : Vec F S1x3136x384 .f32) (x1 : Vec F S1152x384 .f32)
    (pay : Vec F S1152x384 .f32 → Vec F S784x384 .f32 → Vec F S1x384 .f32 → FVec F S1x384 .f32)
    (fill : FVec F S1x384 .f32) : Vec F S1x384 .f32 :=
  View.readAt (Elt F) arg.view LoopP.whole1.toLoadRect
    (arg.view.writes (Elt F) arg.view.junk
      (LoopP.lrow (rowsM arg1) (rowsX arg1 harg1 x0) arg (pay (ldW arg2 harg2 x1))
          (arg.view.writes (Elt F) arg.view.junk [⟨LoopP.whole1, fill⟩]) 4 ++ [⟨LoopP.whole1, fill⟩]))

/-! ## The output block -/

/-- Every entry of the output block is the specification's, given what the five loads after the loop read. -/
theorem block_value_of (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec Ideal S1x3136x384 .f32) (x1 : Vec Ideal S1152x384 .f32) (x2 : Vec Ideal S8x1x1 .f32)
    (x3 : Vec Ideal S384x384 .f32) (x4 : Vec Ideal S384 .f32) (g7 : Vec Ideal S3136x1152 .bf16)
    (A : Xca.Args) (b : Fin 32)
    (h2 : ∀ h, x2 (ix3 h (0 : Fin 1) (0 : Fin 1)) = ((A.tmp h : ℝ) : EReal))
    (h3 : ∀ e j, x3 (ix2 e j) = ((A.pw e j : ℝ) : EReal))
    (h4 : ∀ e, x4 (ix1 e) = ((A.pb e : ℝ) : EReal))
    (hq : ∀ n e, ldKept arg1 harg1 arg2 harg2 arg7 harg7 x0 x1 g7 ![0, 0] inb_S3136x1152_S3136x384_0_0 (ix2 n e)
      = ((Xca.proj A 0 b n e : ℝ) : EReal))
    (hk : ∀ n e, ldKept arg1 harg1 arg2 harg2 arg7 harg7 x0 x1 g7 ![0, 384] inb_S3136x1152_S3136x384_0_384 (ix2 n e)
      = ((Xca.proj A 1 b n e : ℝ) : EReal))
    (hv : ∀ n e, ldKept arg1 harg1 arg2 harg2 arg7 harg7 x0 x1 g7 ![0, 768] inb_S3136x1152_S3136x384_0_768 (ix2 n e)
      = ((Xca.proj A 2 b n e : ℝ) : EReal))
    (hs : ∀ e, ldSum arg1 harg1 arg2 harg2 arg9 x0 x1 k0_pay6 k0_pay3 (ix2 0 e) = ((Xca.sumSq A 0 b e : ℝ) : EReal))
    (hs' : ∀ e, ldSum arg1 harg1 arg2 harg2 arg10 x0 x1 k0_pay7 k0_pay4 (ix2 0 e) = ((Xca.sumSq A 1 b e : ℝ) : EReal))
    (n : Fin 3136) (e : Fin 384) :
    outBlock (F := Ideal) c i arg1 harg1 arg2 harg2 arg3 harg3 arg4 harg4 arg5 harg5 arg6 harg6 arg7 harg7 arg8 harg8 arg9 harg9 arg10 harg10 x0 x1 x2 x3 x4 g7 (ix3 (0 : Fin 1) n e)
      = ((Xca.outK A Xca.eps b n e : ℝ) : EReal) := by
  have h23 : ∀ h : Fin 8, View.readAt (Elt Ideal) arg3.view
      (Rect.unit (s := S8x1x1) ![0, 0, 0] S8x1x1.size inb_S8x1x1_S8x1x1_0_0_0).toLoadRect (harg3.unread x2) (ix3 h 0 0)
      = ((A.tmp h : ℝ) : EReal) := fun h =>
    (congrFun (readAt_whole_unread arg3 harg3 hz3 inb_S8x1x1_S8x1x1_0_0_0 x2) _).trans (h2 h)
  have h24 : ∀ e j : Fin 384, View.readAt (Elt Ideal) arg4.view
      (Rect.unit (s := S384x384) ![0, 0] S384x384.size inb_S384x384_S384x384_0_0).toLoadRect (harg4.unread x3) (ix2 e j)
      = ((A.pw e j : ℝ) : EReal) := fun e j =>
    (congrFun (readAt_whole_unread arg4 harg4 hz2 inb_S384x384_S384x384_0_0 x3) _).trans (h3 e j)
  have hb : ∀ e : Fin 384, View.readAt (Elt Ideal) arg5.view
      (Rect.unit (s := S384) ![0] S384.size inb_S384_S384_0).toLoadRect (harg5.unread x4) (ix1 e)
      = ((A.pb e : ℝ) : EReal) := fun e =>
    (congrFun (readAt_whole_unread arg5 harg5 hz1 inb_S384_S384_0 x4) _).trans (h4 e)
  unfold outBlock kernelRun
  dsimp only
  sl_unfold_words
  rw [LoopP.trips_eq']
  simp only [LoopP.pb_eq]
  exact block_core2 A b VO arg8 _ _ _ _ _ _ _ _ hq hk hv hs hs' h23 h24 hb n e

/-- Every entry of the output block is the specification's first arrangement, when the five inputs are real. -/
theorem block_value (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (arg7 : Memref sig .tc .vmem S3136x1152 .bf16) (harg7 : arg7.IsWhole) (arg8 : Memref sig .tc .vmem S384x384 .bf16) (harg8 : arg8.IsWhole) (arg9 : Memref sig .tc .vmem S1x384 .f32) (harg9 : arg9.IsWhole) (arg10 : Memref sig .tc .vmem S1x384 .f32) (harg10 : arg10.IsWhole)
    (x0 : Vec Ideal S1x3136x384 .f32) (x1 : Vec Ideal S1152x384 .f32) (x2 : Vec Ideal S8x1x1 .f32)
    (x3 : Vec Ideal S384x384 .f32) (x4 : Vec Ideal S384 .f32) (g7 : Vec Ideal S3136x1152 .bf16)
    (A : Xca.Args) (b : Fin 32)
    (h0 : ∀ n d, x0 (ix3 (0 : Fin 1) n d) = ((A.x b n d : ℝ) : EReal))
    (h1 : ∀ c d, x1 (ix2 c d) = ((A.w c d : ℝ) : EReal))
    (h2 : ∀ h, x2 (ix3 h (0 : Fin 1) (0 : Fin 1)) = ((A.tmp h : ℝ) : EReal))
    (h3 : ∀ e j, x3 (ix2 e j) = ((A.pw e j : ℝ) : EReal))
    (h4 : ∀ e, x4 (ix1 e) = ((A.pb e : ℝ) : EReal))
    (n : Fin 3136) (e : Fin 384) :
    outBlock (F := Ideal) c i arg1 harg1 arg2 harg2 arg3 harg3 arg4 harg4 arg5 harg5 arg6 harg6 arg7 harg7 arg8 harg8 arg9 harg9 arg10 harg10 x0 x1 x2 x3 x4 g7 (ix3 (0 : Fin 1) n e)
      = ((Xca.outK A Xca.eps b n e : ℝ) : EReal) :=
  block_value_of c i arg1 harg1 arg2 harg2 arg3 harg3 arg4 harg4 arg5 harg5 arg6 harg6 arg7 harg7 arg8 harg8 arg9 harg9 arg10 harg10 x0 x1 x2 x3 x4 g7 A b h2 h3 h4
    (fun n e => LoopP.colRun_real A b arg7 arg1 harg1 arg2 harg2 x0 x1 (fun _ => rfl) rfl h0 h1 0 0 rfl
      inb_S3136x1152_S3136x384_0_0 (harg7.unread g7) n e)
    (fun n e => LoopP.colRun_real A b arg7 arg1 harg1 arg2 harg2 x0 x1 (fun _ => rfl) rfl h0 h1 1 384 rfl
      inb_S3136x1152_S3136x384_0_384 (harg7.unread g7) n e)
    (fun n e => LoopP.colRun_real A b arg7 arg1 harg1 arg2 harg2 x0 x1 (fun _ => rfl) rfl h0 h1 2 768 rfl
      inb_S3136x1152_S3136x384_0_768 (harg7.unread g7) n e)
    (fun e => LoopP.row9Run_real A b arg9 arg1 harg1 arg2 harg2 x0 x1 (fun _ => rfl) rfl h0 h1 arg9.view.junk e)
    (fun e => LoopP.row10Run_real A b arg10 arg1 harg1 arg2 harg2 x0 x1 (fun _ => rfl) rfl h0 h1 arg10.view.junk e)
    n e

end Cert.KernelIdeal.Body

end
-- ==== Proof.KernelValue.lean ====
/-
  The kernel's value: after the run the result array holds the reference's function of the arguments.

  At grid point `t` the body leaves in the output block, entry `(0, n, e)`, the first arrangement of the
  specification at batch entry `t` — the block lemma, applied to the input blocks read as the argument arrays at
  the arguments' real parts. The reference's function at `(t, n, e)` is the same number. So every point writes
  back its block of one whole-array function, the blocks cover the array, and the array ends holding that function;
  the arguments end unchanged.
-/
import proofs.«109037_j50328426774879_2_alg».proof.Defs
import proofs.«109037_j50328426774879_2_alg».proof.Proof.KernelBlocks
import proofs.«109037_j50328426774879_2_alg».proof.Proof.BodyKI
import proofs.«109037_j50328426774879_2_alg».proof.Proof.BlockValue

noncomputable section

namespace Cert.KernelIdeal.KValue

open Cert.KernelIdeal Cert.KernelIdeal.Gen Cert.KernelIdeal.Body
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A block that agrees, entry by entry, with batch entry `t` of an array is what reading the array through point
    `t`'s output block gives; the output window moves whole blocks, so what is written back is the block itself. -/
theorem cut_eq_read (c : Dev nD) (t : Fin cfg0.N) (f : Vec Ideal S1x3136x384 .f32)
    (g : Buf (Elt Ideal) ((c : Thread nD τ).loc main_v0))
    (key : ∀ (n : Fin 3136) (e : Fin 384), f (ix3 (0 : Fin 1) n e) = g (ix3 (batchOf t) n e)) :
    (cfg0.win 5).cut (grid0.coords t) f = ((cfg0.win 5).blk t).view.read (Elt Ideal) g := by
  funext j
  show f j = g (((cfg0.win 5).blk t).view.emb j)
  obtain ⟨n, e, rfl⟩ : ∃ (n : Fin 3136) (e : Fin 384), j = ix3 (0 : Fin 1) n e :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  rw [emb5]
  exact key n e

/-- What point `t` leaves in the output block is the reference's function at batch entry `t`. -/
theorem outAt_apply (hpre : Cert.Pre_KernelIdeal m) (c : Dev nD) (t : Fin cfg0.N) (n : Fin 3136) (e : Fin 384) :
    outAt m c t (ix3 (0 : Fin 1) n e) = G m c (ix3 (batchOf t) n e) := by
  obtain ⟨A, hx, hw, ht, hp, hb, hG⟩ := ref_outK (m ((c : Thread nD τ).loc main_arg0)) (m ((c : Thread nD τ).loc main_arg1))
    (m ((c : Thread nD τ).loc main_arg2)) (m ((c : Thread nD τ).loc main_arg3)) (m ((c : Thread nD τ).loc main_arg4)) (hpre c)
  refine Eq.trans ?_ (hG (batchOf t) n e).symm
  unfold outAt
  exact block_value c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _)
    (iblk m c 0 t) (iblk m c 1 t) (iblk m c 2 t) (iblk m c 3 t) (iblk m c 4 t) (junk7 (F := Ideal)) A (batchOf t)
    (fun n d => (iblk0_apply m c t n d).trans (hx (batchOf t) n d))
    (fun r d => (iblk1_apply m c t r d).trans (hw r d))
    (fun h => (iblk2_apply m c t h).trans (ht h))
    (fun e j => (iblk3_apply m c t e j).trans (hp e j))
    (fun e => (iblk4_apply m c t e).trans (hb e)) n e

/-- What point `t` writes back is block `t` of the reference's function of the arguments. -/
theorem flushed_eq (hpre : Cert.Pre_KernelIdeal m) (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  exact cut_eq_read c t (outAt m c t) (G m c) (outAt_apply m hpre c t)

/-- The result array after the run: every index lies in a written-back block. -/
theorem final (hpre : Cert.Pre_KernelIdeal m) (c : Dev nD) : (dats m 0 c).arrAt 5 cfg0.N = G m c :=
  (dats m 0 c).arrAt_eq_of_cover 5 (G m c) (fun t _ => flushed_eq m hpre c t) cover5

/-- After the frame run the result array is what the proof data says. -/
theorem post5 (r : PUnit × MemSt nD τ sig (Elt Ideal)) (h : Pipeline.FramePost cfgs (dats m) 0 (V m) r) (c : Dev nD) :
    r.2.mem ((c : Thread nD τ).loc main_v0) = (dats m 0 c).arrAt 5 cfg0.N :=
  (h c).1 5

/-- After the frame run each argument is as launched: its window stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- THE KERNEL'S RUN, READ: on finite arguments every weakly fair execution terminates with the result array at the
    reference's function of the arguments and the arguments unchanged. -/
theorem kernel_run (hpre : Cert.Pre_KernelIdeal m) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final m hpre c),
      kept_main_arg0 m r h c, kept_main_arg1 m r h c, kept_main_arg2 m r h c, kept_main_arg3 m r h c,
      kept_main_arg4 m r h c⟩)
    (run_main m ρ)

end Cert.KernelIdeal.KValue

end
-- ==== Proof.lean ====
/-
  Cross-covariance attention: a kernel over a grid of the 32 batch entries against the reference, on finite
  arguments, at the extended reals.

  For one batch entry the kernel projects the tokens to queries, keys and values, takes the inner products of the
  query and key channels over the tokens, divides them by the product of the channels' clamped norms, multiplies by
  the head's temperature, soft-maxes each row of the 48 × 48 matrix of a head, folds the attention matrix into the
  output projection's weights, and applies the folded weights to the values. The reference normalises the query
  and key channels first, applies the attention matrix to the values and projects last. With real arguments both
  are finite sums, products and quotients by positive numbers of real numbers, and the two arrangements of the sums
  are equal: the inner product of normalised channels is the inner product divided by the product of the norms,
  and the two orders of summing over the head's channels agree.

  The claims: each of the three programs runs and leaves its arguments unchanged; and from memories that agree on
  the arguments the idealized kernel and the idealized reference end with the same result array, the reference's
  function of the arguments, which on finite arguments is at every index a real number.
-/
import proofs.«109037_j50328426774879_2_alg».proof.Defs
import proofs.«109037_j50328426774879_2_alg».proof.Proof.Gen.Kernel
import proofs.«109037_j50328426774879_2_alg».proof.Proof.Gen.KernelIdeal
import proofs.«109037_j50328426774879_2_alg».proof.Proof.Gen.ReferenceIdeal
import proofs.«109037_j50328426774879_2_alg».proof.Proof.Gen.ReferenceIdeal.Run
import proofs.«109037_j50328426774879_2_alg».proof.Proof.Gen.Pre_finite_inputs
import proofs.«109037_j50328426774879_2_alg».proof.Proof.BodyK
import proofs.«109037_j50328426774879_2_alg».proof.Proof.BodyKI
import proofs.«109037_j50328426774879_2_alg».proof.Proof.KernelValue

noncomputable section

namespace Cert.Proof

open Idealize.ShloMosaic Idealize.SL.Sem

/-- The kernel as printed runs and leaves its arguments unchanged. -/
theorem frame_Kernel : Cert.frame_Kernel := fun m ρ _ => Cert.Kernel.Body.frame (F := Bits) m ρ

/-- So does its reading at the extended reals. -/
theorem frame_KernelIdeal : Cert.frame_KernelIdeal := fun m ρ _ => Cert.KernelIdeal.Body.frame (F := Ideal) m ρ

/-- The reference is a sequence of host operations: it runs, and its arguments are no operation's result. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the reference's function of the kernel's
    arguments in their result arrays: the kernel by its value, the reference by its own run, the arguments
    rewritten along the agreement. -/
theorem algebraic : Cert.algebraic_KernelIdeal_ReferenceIdeal := by
  intro m ρ m' ρ' hpre hagree
  refine ⟨fun c => Cert.KernelIdeal.KValue.G m c, Cert.KernelIdeal.KValue.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
